-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v34)) (v3 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_v41) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S2000x128 : Shape := ⟨2, ![2000, 128]⟩
abbrev S2000x1 : Shape := ⟨2, ![2000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 133
  | .vmem => 42
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .i1⟩
  | 33 => ⟨S_, .f32⟩
  | 34 => ⟨S100000, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S100000x1, .f32⟩
  | 42 => ⟨S100000x1, .f32⟩
  | 43 => ⟨S100000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1, .i32⟩
  | 53 => ⟨S_, .i32⟩
  | 54 => ⟨S1600000x1, .i32⟩
  | 55 => ⟨S1600000x1, .i1⟩
  | 56 => ⟨S1x1, .i32⟩
  | 57 => ⟨S1600000x1, .i32⟩
  | 58 => ⟨S1600000x1, .i1⟩
  | 59 => ⟨S1600000x1, .i1⟩
  | 60 => ⟨S_, .i1⟩
  | 61 => ⟨S1600000, .i1⟩
  | 62 => ⟨S1600000x128, .f32⟩
  | 63 => ⟨S1600000x128, .i1⟩
  | 64 => ⟨S_, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S1x128, .f32⟩
  | 72 => ⟨S100000x128, .f32⟩
  | 73 => ⟨S100000x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1, .i32⟩
  | 83 => ⟨S_, .i32⟩
  | 84 => ⟨S1600000x1, .i32⟩
  | 85 => ⟨S1600000x1, .i1⟩
  | 86 => ⟨S1x1, .i32⟩
  | 87 => ⟨S1600000x1, .i32⟩
  | 88 => ⟨S1600000x1, .i1⟩
  | 89 => ⟨S1600000x1, .i1⟩
  | 90 => ⟨S_, .i1⟩
  | 91 => ⟨S1600000, .i1⟩
  | 92 => ⟨S1600000x128, .f32⟩
  | 93 => ⟨S1600000x128, .i1⟩
  | 94 => ⟨S_, .f32⟩
  | 95 => ⟨S1600000x128, .f32⟩
  | 96 => ⟨S1600000x128, .f32⟩
  | 97 => ⟨S_, .f32⟩
  | 98 => ⟨S100000x128, .f32⟩
  | 99 => ⟨S1600000x1, .i32⟩
  | 100 => ⟨S100000x128, .f32⟩
  | 101 => ⟨S1x128, .f32⟩
  | 102 => ⟨S100000x128, .f32⟩
  | 103 => ⟨S100000x128, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1, .i32⟩
  | 113 => ⟨S_, .i32⟩
  | 114 => ⟨S1600000x1, .i32⟩
  | 115 => ⟨S1600000x1, .i1⟩
  | 116 => ⟨S1x1, .i32⟩
  | 117 => ⟨S1600000x1, .i32⟩
  | 118 => ⟨S1600000x1, .i1⟩
  | 119 => ⟨S1600000x1, .i1⟩
  | 120 => ⟨S_, .i1⟩
  | 121 => ⟨S1600000, .i1⟩
  | 122 => ⟨S1600000x128, .f32⟩
  | 123 => ⟨S1600000x128, .i1⟩
  | 124 => ⟨S_, .f32⟩
  | 125 => ⟨S1600000x128, .f32⟩
  | 126 => ⟨S1600000x128, .f32⟩
  | 127 => ⟨S_, .f32⟩
  | _ => ⟨S100000x128, .f32⟩

abbrev hbmTy0_1 (i : Nat) : BufTy := match i % 128 with
  | 0 => ⟨S100000x128, .f32⟩
  | 1 => ⟨S1600000x1, .i32⟩
  | 2 => ⟨S100000x128, .f32⟩
  | 3 => ⟨S1x64, .f32⟩
  | 4 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x1, .f32⟩
  | .local _ .vmem, ⟨23, _⟩ => ⟨S2000x1, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x1, .f32⟩
  | .local _ .vmem, ⟨31, _⟩ => ⟨S2000x1, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x1, .f32⟩
  | .local _ .vmem, ⟨37, _⟩ => ⟨S2000x1, .f32⟩
  | .local _ .vmem, ⟨38, _⟩ => ⟨S128x64, .f32⟩
  | .local _ .vmem, ⟨39, _⟩ => ⟨S1x64, .f32⟩
  | .local _ .vmem, ⟨40, _⟩ => ⟨S2000x64, .f32⟩
  | .local _ .vmem, ⟨41, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_call2_cst : Ref sig .tc := ⟨.hbm, 64, rfl⟩
abbrev main_call2_v15 : Ref sig .tc := ⟨.hbm, 65, rfl⟩
abbrev main_v22 : Ref sig .tc := ⟨.hbm, 66, rfl⟩
abbrev main_cst_8 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_call3_cst : Ref sig .tc := ⟨.hbm, 94, rfl⟩
abbrev main_call3_v15 : Ref sig .tc := ⟨.hbm, 95, rfl⟩
abbrev main_v29 : Ref sig .tc := ⟨.hbm, 96, rfl⟩
abbrev main_cst_9 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_call4_c : Ref sig .tc := ⟨.hbm, 104, rfl⟩
abbrev main_call4_v0 : Ref sig .tc := ⟨.hbm, 105, rfl⟩
abbrev main_call4_v1 : Ref sig .tc := ⟨.hbm, 106, rfl⟩
abbrev main_call4_c_0 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_c_1 : Ref sig .tc := ⟨.hbm, 112, rfl⟩
abbrev main_call4_c_2 : Ref sig .tc := ⟨.hbm, 113, rfl⟩
abbrev main_call4_v6 : Ref sig .tc := ⟨.hbm, 114, rfl⟩
abbrev main_call4_v7 : Ref sig .tc := ⟨.hbm, 115, rfl⟩
abbrev main_call4_v8 : Ref sig .tc := ⟨.hbm, 116, rfl⟩
abbrev main_call4_v9 : Ref sig .tc := ⟨.hbm, 117, rfl⟩
abbrev main_call4_v10 : Ref sig .tc := ⟨.hbm, 118, rfl⟩
abbrev main_call4_v11 : Ref sig .tc := ⟨.hbm, 119, rfl⟩
abbrev main_call4_c_3 : Ref sig .tc := ⟨.hbm, 120, rfl⟩
abbrev main_call4_v12 : Ref sig .tc := ⟨.hbm, 121, rfl⟩
abbrev main_call4_v13 : Ref sig .tc := ⟨.hbm, 122, rfl⟩
abbrev main_call4_v14 : Ref sig .tc := ⟨.hbm, 123, rfl⟩
abbrev main_call4_cst : Ref sig .tc := ⟨.hbm, 124, rfl⟩
abbrev main_call4_v15 : Ref sig .tc := ⟨.hbm, 125, rfl⟩
abbrev main_v36 : Ref sig .tc := ⟨.hbm, 126, rfl⟩
abbrev main_cst_10 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩
abbrev main_v40 : Ref sig .tc := ⟨.hbm, 131, rfl⟩
abbrev main_v41 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .f32 = 32 ∨ (Rect.block (s := S100000x1) S2000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x64.size a ≤ S128x64.size a
  hwx5_2 : ∀ i : grid5.Coords, EltTy.bits .f32 = 32 ∨ (Rect.block (s := S128x64) S128x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S100000x64.size a
  hwx5_4 : ∀ i : grid5.Coords, EltTy.bits .f32 = 32 ∨ (Rect.block (s := S100000x64) S2000x64.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v32) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v34) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v34) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v39) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v20) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S128x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v40) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v41) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 158
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .i1⟩
  | 33 => ⟨S_, .f32⟩
  | 34 => ⟨S100000, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1, .i32⟩
  | 53 => ⟨S_, .i32⟩
  | 54 => ⟨S1600000x1, .i32⟩
  | 55 => ⟨S1600000x1, .i1⟩
  | 56 => ⟨S1x1, .i32⟩
  | 57 => ⟨S1600000x1, .i32⟩
  | 58 => ⟨S1600000x1, .i1⟩
  | 59 => ⟨S1600000x1, .i1⟩
  | 60 => ⟨S_, .i1⟩
  | 61 => ⟨S1600000, .i1⟩
  | 62 => ⟨S1600000x128, .f32⟩
  | 63 => ⟨S1600000x128, .i1⟩
  | 64 => ⟨S_, .f32⟩
  | 65 => ⟨S1600000x128, .f32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S100000x1, .f32⟩
  | 72 => ⟨S100000x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x1, .f32⟩
  | 82 => ⟨S100000x128, .f32⟩
  | 83 => ⟨S100000x128, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1, .i32⟩
  | 93 => ⟨S_, .i32⟩
  | 94 => ⟨S1600000x1, .i32⟩
  | 95 => ⟨S1600000x1, .i1⟩
  | 96 => ⟨S1x1, .i32⟩
  | 97 => ⟨S1600000x1, .i32⟩
  | 98 => ⟨S1600000x1, .i1⟩
  | 99 => ⟨S1600000x1, .i1⟩
  | 100 => ⟨S_, .i1⟩
  | 101 => ⟨S1600000, .i1⟩
  | 102 => ⟨S1600000x128, .f32⟩
  | 103 => ⟨S1600000x128, .i1⟩
  | 104 => ⟨S_, .f32⟩
  | 105 => ⟨S1600000x128, .f32⟩
  | 106 => ⟨S1600000x128, .f32⟩
  | 107 => ⟨S_, .f32⟩
  | 108 => ⟨S100000x128, .f32⟩
  | 109 => ⟨S1600000x1, .i32⟩
  | 110 => ⟨S100000x128, .f32⟩
  | 111 => ⟨S100000x1, .f32⟩
  | 112 => ⟨S100000x128, .f32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S_, .f32⟩
  | 119 => ⟨S100000x128, .f32⟩
  | 120 => ⟨S100000x128, .f32⟩
  | 121 => ⟨S100000x1, .f32⟩
  | 122 => ⟨S100000x128, .f32⟩
  | 123 => ⟨S100000x128, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1, .i32⟩
  | 5 => ⟨S_, .i32⟩
  | 6 => ⟨S1600000x1, .i32⟩
  | 7 => ⟨S1600000x1, .i1⟩
  | 8 => ⟨S1x1, .i32⟩
  | 9 => ⟨S1600000x1, .i32⟩
  | 10 => ⟨S1600000x1, .i1⟩
  | 11 => ⟨S1600000x1, .i1⟩
  | 12 => ⟨S_, .i1⟩
  | 13 => ⟨S1600000, .i1⟩
  | 14 => ⟨S1600000x128, .f32⟩
  | 15 => ⟨S1600000x128, .i1⟩
  | 16 => ⟨S_, .f32⟩
  | 17 => ⟨S1600000x128, .f32⟩
  | 18 => ⟨S1600000x128, .f32⟩
  | 19 => ⟨S_, .f32⟩
  | 20 => ⟨S100000x128, .f32⟩
  | 21 => ⟨S1600000x1, .i32⟩
  | 22 => ⟨S100000x128, .f32⟩
  | 23 => ⟨S100000x1, .f32⟩
  | 24 => ⟨S100000x128, .f32⟩
  | 25 => ⟨S100000x128, .f32⟩
  | 26 => ⟨S100000x64, .f32⟩
  | 27 => ⟨S1x64, .f32⟩
  | 28 => ⟨S100000x64, .f32⟩
  | 29 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_call2_cst : Ref sig .tc := ⟨.hbm, 64, rfl⟩
abbrev main_call2_v15 : Ref sig .tc := ⟨.hbm, 65, rfl⟩
abbrev main_v22 : Ref sig .tc := ⟨.hbm, 66, rfl⟩
abbrev main_cst_8 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_call3_cst : Ref sig .tc := ⟨.hbm, 78, rfl⟩
abbrev main_call3_v0 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_call4_c : Ref sig .tc := ⟨.hbm, 84, rfl⟩
abbrev main_call4_v0 : Ref sig .tc := ⟨.hbm, 85, rfl⟩
abbrev main_call4_v1 : Ref sig .tc := ⟨.hbm, 86, rfl⟩
abbrev main_call4_c_0 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_v5 : Ref sig .tc := ⟨.hbm, 91, rfl⟩
abbrev main_call4_c_1 : Ref sig .tc := ⟨.hbm, 92, rfl⟩
abbrev main_call4_c_2 : Ref sig .tc := ⟨.hbm, 93, rfl⟩
abbrev main_call4_v6 : Ref sig .tc := ⟨.hbm, 94, rfl⟩
abbrev main_call4_v7 : Ref sig .tc := ⟨.hbm, 95, rfl⟩
abbrev main_call4_v8 : Ref sig .tc := ⟨.hbm, 96, rfl⟩
abbrev main_call4_v9 : Ref sig .tc := ⟨.hbm, 97, rfl⟩
abbrev main_call4_v10 : Ref sig .tc := ⟨.hbm, 98, rfl⟩
abbrev main_call4_v11 : Ref sig .tc := ⟨.hbm, 99, rfl⟩
abbrev main_call4_c_3 : Ref sig .tc := ⟨.hbm, 100, rfl⟩
abbrev main_call4_v12 : Ref sig .tc := ⟨.hbm, 101, rfl⟩
abbrev main_call4_v13 : Ref sig .tc := ⟨.hbm, 102, rfl⟩
abbrev main_call4_v14 : Ref sig .tc := ⟨.hbm, 103, rfl⟩
abbrev main_call4_cst : Ref sig .tc := ⟨.hbm, 104, rfl⟩
abbrev main_call4_v15 : Ref sig .tc := ⟨.hbm, 105, rfl⟩
abbrev main_v37 : Ref sig .tc := ⟨.hbm, 106, rfl⟩
abbrev main_cst_9 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_call5_cst : Ref sig .tc := ⟨.hbm, 118, rfl⟩
abbrev main_call5_v0 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_call6_c : Ref sig .tc := ⟨.hbm, 124, rfl⟩
abbrev main_call6_v0 : Ref sig .tc := ⟨.hbm, 125, rfl⟩
abbrev main_call6_v1 : Ref sig .tc := ⟨.hbm, 126, rfl⟩
abbrev main_call6_c_0 : Ref sig .tc := ⟨.hbm, 127, rfl⟩
abbrev main_call6_v2 : Ref sig .tc := ⟨.hbm, 128, rfl⟩
abbrev main_call6_v3 : Ref sig .tc := ⟨.hbm, 129, rfl⟩
abbrev main_call6_v4 : Ref sig .tc := ⟨.hbm, 130, rfl⟩
abbrev main_call6_v5 : Ref sig .tc := ⟨.hbm, 131, rfl⟩
abbrev main_call6_c_1 : Ref sig .tc := ⟨.hbm, 132, rfl⟩
abbrev main_call6_c_2 : Ref sig .tc := ⟨.hbm, 133, rfl⟩
abbrev main_call6_v6 : Ref sig .tc := ⟨.hbm, 134, rfl⟩
abbrev main_call6_v7 : Ref sig .tc := ⟨.hbm, 135, rfl⟩
abbrev main_call6_v8 : Ref sig .tc := ⟨.hbm, 136, rfl⟩
abbrev main_call6_v9 : Ref sig .tc := ⟨.hbm, 137, rfl⟩
abbrev main_call6_v10 : Ref sig .tc := ⟨.hbm, 138, rfl⟩
abbrev main_call6_v11 : Ref sig .tc := ⟨.hbm, 139, rfl⟩
abbrev main_call6_c_3 : Ref sig .tc := ⟨.hbm, 140, rfl⟩
abbrev main_call6_v12 : Ref sig .tc := ⟨.hbm, 141, rfl⟩
abbrev main_call6_v13 : Ref sig .tc := ⟨.hbm, 142, rfl⟩
abbrev main_call6_v14 : Ref sig .tc := ⟨.hbm, 143, rfl⟩
abbrev main_call6_cst : Ref sig .tc := ⟨.hbm, 144, rfl⟩
abbrev main_call6_v15 : Ref sig .tc := ⟨.hbm, 145, rfl⟩
abbrev main_v52 : Ref sig .tc := ⟨.hbm, 146, rfl⟩
abbrev main_cst_10 : Ref sig .tc := ⟨.hbm, 147, rfl⟩
abbrev main_v53 : Ref sig .tc := ⟨.hbm, 148, rfl⟩
abbrev main_v54 : Ref sig .tc := ⟨.hbm, 149, rfl⟩
abbrev main_v55 : Ref sig .tc := ⟨.hbm, 150, rfl⟩
abbrev main_v56 : Ref sig .tc := ⟨.hbm, 151, rfl⟩
abbrev main_v57 : Ref sig .tc := ⟨.hbm, 152, rfl⟩
abbrev main_v58 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
/-
  The mathematics both programs compute: three graph-convolution layers over a graph given by its edge lists.

  A node's out-degree and in-degree are sums of ones scattered by the edges' source and destination numbers; the
  degree norm of a node is the inverse square root of max(degree, 1) where the degree is positive and zero
  elsewhere.  One layer scales every row of the node features by its source norm, takes a row per edge by the
  edge's source number (an out-of-range number gives the fill value), adds the taken rows into the row of the edge's
  destination number, scales every row by its destination norm, multiplies by the weight matrix and adds the bias row.
  The first two layers are followed by the positive part max(·, 0).  The three results are the outputs of the
  three layers.  Each function below is written with the host's whole-array operations, so it is literally the
  composition the reference program runs.
-/
import proofs.«173594_j60610578482005_1_alg».proof.ReferenceIdeal
import Idealize.ShloMosaic.PureOps.Ideal

noncomputable section

namespace Cert.Spec

open Idealize.ShloMosaic Cert.ReferenceIdeal Cert.ReferenceIdeal.Facts₀

variable [Cert.ReferenceIdeal.Facts]

/-- Float arrays and 32-bit integer arrays of a shape, at the ideal values. -/
abbrev Vf (S : Shape) : Type := FVec Ideal S .f32
abbrev Vi (S : Shape) : Type := IVec S 32

/-- One per edge. -/
def ones : Vf S1600000 :=
  broadcastInDim S1600000 ![] bcast_S_S1600000 (constant (F := Ideal) S_ .f32 0x3F800000#32)

/-- The number of edges whose number (source or destination) is the node: ones added into zeros by the numbers. -/
def degree (idx : Vi S1600000) : Vf S100000 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 idx) ones

/-- The degree norm: rsqrt (max degree 1) where the degree is positive, zero elsewhere. -/
def norm (idx : Vi S1600000) : Vf S100000 :=
  select (cmpf .ogt (degree idx) (broadcastInDim S100000 ![] bcast_S_S100000 (constant (F := Ideal) S_ .f32 0x00000000#32)))
    (Host.rsqrt (maximumf (degree idx) (broadcastInDim S100000 ![] bcast_S_S100000 (constant (F := Ideal) S_ .f32 0x3F800000#32))))
    (broadcastInDim S100000 ![] bcast_S_S100000 (id (constant (F := Ideal) S_ .f32 0x00000000#32)))

/-- Every row scaled by its node's norm. -/
def scale (h : Vf S100000x128) (n : Vf S100000) : Vf S100000x128 :=
  mulf h (broadcastInDim S100000x128 ![0, 1] bcast_S100000x1_S100000x128_0_1
    (broadcastInDim S100000x1 ![0] bcast_S100000_S100000x1_0 n))

/-- The edges' numbers made non-negative (a negative number counts from the end), as a column. -/
def takeIdx (src : Vi S1600000) : Vi S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge, whether its number is a node number. -/
def inRange (src : Vi S1600000) : IVec S1600000 1 :=
  Host.reduce IntOp.andi
    (andi (cmpi .sge (takeIdx src) (broadcastInDim S1600000x1 ![] bcast_S_S1600000x1 (constantI S_ 32 0#32)))
      (cmpi .sle (takeIdx src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- One row per edge: the row of the edge's number, the fill value where the number is no node number. -/
def take (h : Vf S100000x128) (src : Vi S1600000) : Vf S1600000x128 :=
  select (broadcastInDim S1600000x128 ![0] bcast_S1600000_S1600000x128_0 (inRange src))
    (Host.gather gather_S100000x128_S1600000x1_S1600000x128_1_0_n_n_0_1_1128 h (takeIdx src))
    (broadcastInDim S1600000x128 ![] bcast_S_S1600000x128 (constant (F := Ideal) S_ .f32 0x7FC00000#32))

/-- The edges' rows added into the rows of their destination numbers, from zero. -/
def agg (msg : Vf S1600000x128) (dst : Vi S1600000) : Vf S100000x128 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst) msg

/-- Rows scaled by the norm, times the weights, plus the bias row: width 128. -/
def lin128 (a : Vf S100000x128) (n : Vf S100000) (W : Vf S128x128) (b : Vf S128) : Vf S100000x128 :=
  addf (Host.dotGeneral dot_S100000x128_S128x128_S100000x128_1_0_0_1_n_n none (scale a n) W)
    (broadcastInDim S100000x128 ![0, 1] bcast_S1x128_S100000x128_0_1 (broadcastInDim S1x128 ![1] bcast_S128_S1x128_1 b))

/-- The same at width 64. -/
def lin64 (a : Vf S100000x128) (n : Vf S100000) (W : Vf S128x64) (b : Vf S64) : Vf S100000x64 :=
  addf (Host.dotGeneral dot_S100000x128_S128x64_S100000x64_1_0_0_1_n_n none (scale a n) W)
    (broadcastInDim S100000x64 ![0, 1] bcast_S1x64_S100000x64_0_1 (broadcastInDim S1x64 ![1] bcast_S64_S1x64_1 b))

/-- The positive part. -/
def relu (x : Vf S100000x128) : Vf S100000x128 :=
  maximumf x (broadcastInDim S100000x128 ![] bcast_S_S100000x128 (constant (F := Ideal) S_ .f32 0x00000000#32))

/-- What one layer feeds its weights: the scaled rows taken per edge and added per destination. -/
def gathered (h : Vf S100000x128) (src dst : Vi S1600000) : Vf S100000x128 :=
  agg (take (scale h (norm src)) src) dst

/-- The first layer's output. -/
def out1 (x : Vf S100000x128) (src dst : Vi S1600000) (W0 : Vf S128x128) (b0 : Vf S128) : Vf S100000x128 :=
  relu (lin128 (gathered x src dst) (norm dst) W0 b0)

/-- The second layer's output. -/
def out2 (x : Vf S100000x128) (src dst : Vi S1600000) (W0 : Vf S128x128) (b0 : Vf S128) (W1 : Vf S128x128) (b1 : Vf S128) :
    Vf S100000x128 :=
  relu (lin128 (gathered (out1 x src dst W0 b0) src dst) (norm dst) W1 b1)

/-- The third layer's output (no positive part). -/
def out3 (x : Vf S100000x128) (src dst : Vi S1600000) (W0 : Vf S128x128) (b0 : Vf S128) (W1 : Vf S128x128) (b1 : Vf S128)
    (W2 : Vf S128x64) (b2 : Vf S64) : Vf S100000x64 :=
  lin64 (gathered (out2 x src dst W0 b0 W1 b1) src dst) (norm dst) W2 b2

end Cert.Spec

end
-- ==== Proof.KernelRun.lean ====
/-
  The kernel program's run, with every buffer after the run named.

  The program is seventeen segments: stretches of host operations and six device regions.  The buffer contents at
  each segment boundary are a fold from the launch memory: a host stretch applies its operations, a region replaces
  its windows' arrays by what its write-backs leave.  Every weakly fair execution terminates without a fault, and in
  every final state each buffer that outlives a region holds the last boundary's contents.
-/
import proofs.«173594_j60610578482005_1_alg».proof.Proof.Gen.KernelIdeal.Frame

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and
    in every final state each buffer that is not a region's scratch holds the contents of the last segment boundary. -/
theorem run_values : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W17 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c b hb => h c _ (mem_uc b hb))

end Cert.KernelIdeal.HandRun

end
-- ==== Proof.KernelCarry.lean ====
/-
  Buffers that a segment of the kernel program leaves alone.

  The contents at each segment boundary are a fold from the launch memory.  A host stretch changes only the buffers its
  operations write; a device region changes only its output windows' arrays and leaves an input window's array as it
  found it.  So a buffer that a segment does not write holds, at the segment's end, what it held at its start.  The
  lemmas below take one such step each, and then walk the buffers whose values are used far from where they were made
  (the arguments, the two norm columns, the first two layers' outputs) back across the boundaries in between.
-/
import proofs.«173594_j60610578482005_1_alg».proof.Proof.Gen.KernelIdeal.Frame

noncomputable section

namespace Cert.KernelIdeal.Carry

open Cert.KernelIdeal Cert.KernelIdeal.Gen
open Idealize.ShloMosaic Idealize.ShloMosaic.TcCoe

variable {F : FTy → Type} [FloatOps F]

/-! ## What each host stretch writes -/

/-- The buffers the stretch ending at boundary 1 writes. -/
abbrev wr1 : List (Ref sig .tc) := [main_cst, main_v0, main_cst_0, main_v1, main_v2, main_v3, main_cst_1, main_v4, main_v5, main_v6, main_cst_2, main_v7, main_v8, main_cst_3, main_v9, main_v10, main_v11, main_cst_4]
theorem writes1 : (hostOps0 : List (HloOp τ sig (Elt F))).Forall fun op => op.writes ⊆ ((wr1).map (Proc.devRef (τ := τ) .tc)).toFinset := by
  simp only [hostOps0, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- The buffers the stretch ending at boundary 2 writes. -/
abbrev wr2 : List (Ref sig .tc) := [main_call0_v0, main_call0_v1, main_v12]
theorem writes2 : (hostOps0_1 : List (HloOp τ sig (Elt F))).Forall fun op => op.writes ⊆ ((wr2).map (Proc.devRef (τ := τ) .tc)).toFinset := by
  simp only [hostOps0_1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- The buffers the stretch ending at boundary 3 writes. -/
abbrev wr3 : List (Ref sig .tc) := [main_cst_5, main_v13, main_v14, main_cst_6, main_v15, main_v16, main_v17, main_cst_7]
theorem writes3 : (hostOps0_2 : List (HloOp τ sig (Elt F))).Forall fun op => op.writes ⊆ ((wr3).map (Proc.devRef (τ := τ) .tc)).toFinset := by
  simp only [hostOps0_2, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- The buffers the stretch ending at boundary 4 writes. -/
abbrev wr4 : List (Ref sig .tc) := [main_call1_v0, main_call1_v1, main_v18]
theorem writes4 : (hostOps0_3 : List (HloOp τ sig (Elt F))).Forall fun op => op.writes ⊆ ((wr4).map (Proc.devRef (τ := τ) .tc)).toFinset := by
  simp only [hostOps0_3, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- The buffers the stretch ending at boundary 5 writes. -/
abbrev wr5 : List (Ref sig .tc) := [main_v19, main_v20]
theorem writes5 : (hostOps0_4 : List (HloOp τ sig (Elt F))).Forall fun op => op.writes ⊆ ((wr5).map (Proc.devRef (τ := τ) .tc)).toFinset := by
  simp only [hostOps0_4, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- The buffers the stretch ending at boundary 7 writes. -/
abbrev wr7 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v22]
theorem writes7 : (hostOps1 : List (HloOp τ sig (Elt F))).Forall fun op => op.writes ⊆ ((wr7).map (Proc.devRef (τ := τ) .tc)).toFinset := by
  simp only [hostOps1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- The buffers the stretch ending at boundary 8 writes. -/
abbrev wr8 : List (Ref sig .tc) := [main_cst_8, main_v23, main_v24, main_v25, main_v26]
theorem writes8 : (hostOps1_1 : List (HloOp τ sig (Elt F))).Forall fun op => op.writes ⊆ ((wr8).map (Proc.devRef (τ := τ) .tc)).toFinset := by
  simp only [hostOps1_1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- The buffers the stretch ending at boundary 11 writes. -/
abbrev wr11 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v29]
theorem writes11 : (hostOps3 : List (HloOp τ sig (Elt F))).Forall fun op => op.writes ⊆ ((wr11).map (Proc.devRef (τ := τ) .tc)).toFinset := by
  simp only [hostOps3, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- The buffers the stretch ending at boundary 12 writes. -/
abbrev wr12 : List (Ref sig .tc) := [main_cst_9, main_v30, main_v31, main_v32, main_v33]
theorem writes12 : (hostOps3_1 : List (HloOp τ sig (Elt F))).Forall fun op => op.writes ⊆ ((wr12).map (Proc.devRef (τ := τ) .tc)).toFinset := by
  simp only [hostOps3_1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- The buffers the stretch ending at boundary 15 writes. -/
abbrev wr15 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v36]
theorem writes15 : (hostOps5 : List (HloOp τ sig (Elt F))).Forall fun op => op.writes ⊆ ((wr15).map (Proc.devRef (τ := τ) .tc)).toFinset := by
  simp only [hostOps5, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

/-- The buffers the stretch ending at boundary 16 writes. -/
abbrev wr16 : List (Ref sig .tc) := [main_cst_10, main_v37, main_v38, main_v39, main_v40]
theorem writes16 : (hostOps5_1 : List (HloOp τ sig (Elt F))).Forall fun op => op.writes ⊆ ((wr16).map (Proc.devRef (τ := τ) .tc)).toFinset := by
  simp only [hostOps5_1, List.Forall, StableHlo.nullary_writes, StableHlo.unary_writes, StableHlo.binary_writes, StableHlo.ternary_writes,
    StableHlo.quaternary_writes, StableHlo.reshape_writes, Finset.singleton_subset_iff, List.mem_toFinset]
  repeat' apply And.intro
  all_goals exact List.mem_map_of_mem (by decide)

variable (m : (ℓ : Loc nD τ sig) → Buf (Elt F) ℓ) (ρ : Dev nD → PrngReg) (c : Dev nD)

/-! ## One boundary back across a host stretch -/

theorem k1 (r : Ref sig .tc) (h : r ∉ wr1) : W1 m ρ c (Proc.devRef .tc r) = W0 m ρ c (Proc.devRef .tc r) :=
  StableHlo.after_of_writes_sub hostOps0 _ writes1 h
theorem k2 (r : Ref sig .tc) (h : r ∉ wr2) : W2 m ρ c (Proc.devRef .tc r) = W1 m ρ c (Proc.devRef .tc r) :=
  StableHlo.after_of_writes_sub hostOps0_1 _ writes2 h
theorem k3 (r : Ref sig .tc) (h : r ∉ wr3) : W3 m ρ c (Proc.devRef .tc r) = W2 m ρ c (Proc.devRef .tc r) :=
  StableHlo.after_of_writes_sub hostOps0_2 _ writes3 h
theorem k4 (r : Ref sig .tc) (h : r ∉ wr4) : W4 m ρ c (Proc.devRef .tc r) = W3 m ρ c (Proc.devRef .tc r) :=
  StableHlo.after_of_writes_sub hostOps0_3 _ writes4 h
theorem k5 (r : Ref sig .tc) (h : r ∉ wr5) : W5 m ρ c (Proc.devRef .tc r) = W4 m ρ c (Proc.devRef .tc r) :=
  StableHlo.after_of_writes_sub hostOps0_4 _ writes5 h
theorem k7 (r : Ref sig .tc) (h : r ∉ wr7) : W7 m ρ c (Proc.devRef .tc r) = W6 m ρ c (Proc.devRef .tc r) :=
  StableHlo.after_of_writes_sub hostOps1 _ writes7 h
theorem k8 (r : Ref sig .tc) (h : r ∉ wr8) : W8 m ρ c (Proc.devRef .tc r) = W7 m ρ c (Proc.devRef .tc r) :=
  StableHlo.after_of_writes_sub hostOps1_1 _ writes8 h
theorem k11 (r : Ref sig .tc) (h : r ∉ wr11) : W11 m ρ c (Proc.devRef .tc r) = W10 m ρ c (Proc.devRef .tc r) :=
  StableHlo.after_of_writes_sub hostOps3 _ writes11 h
theorem k12 (r : Ref sig .tc) (h : r ∉ wr12) : W12 m ρ c (Proc.devRef .tc r) = W11 m ρ c (Proc.devRef .tc r) :=
  StableHlo.after_of_writes_sub hostOps3_1 _ writes12 h
theorem k15 (r : Ref sig .tc) (h : r ∉ wr15) : W15 m ρ c (Proc.devRef .tc r) = W14 m ρ c (Proc.devRef .tc r) :=
  StableHlo.after_of_writes_sub hostOps5 _ writes15 h
theorem k16 (r : Ref sig .tc) (h : r ∉ wr16) : W16 m ρ c (Proc.devRef .tc r) = W15 m ρ c (Proc.devRef .tc r) :=
  StableHlo.after_of_writes_sub hostOps5_1 _ writes16 h

/-! ## One boundary back across a device region, for an array the region only reads -/

theorem in6_main_v19 : W6 m ρ c (Proc.devRef .tc main_v19) = W5 m ρ c (Proc.devRef .tc main_v19) :=
  (W6_arr m ρ c 1).trans (((dat0 (V5 m ρ) c).arrAt_in 1 rfl _).trans (A_eq0 (V5 m ρ) c 1))
theorem in9_main_v20 : W9 m ρ c (Proc.devRef .tc main_v20) = W8 m ρ c (Proc.devRef .tc main_v20) :=
  (W9_arr m ρ c 1).trans (((dat1 (V8 m ρ) c).arrAt_in 1 rfl _).trans (A_eq1 (V8 m ρ) c 1))
theorem in10_main_v27 : W10 m ρ c (Proc.devRef .tc main_v27) = W9 m ρ c (Proc.devRef .tc main_v27) :=
  (W10_arr m ρ c 0).trans (((dat2 (V9 m ρ) c).arrAt_in 0 rfl _).trans (A_eq2 (V9 m ρ) c 0))
theorem in10_main_v19 : W10 m ρ c (Proc.devRef .tc main_v19) = W9 m ρ c (Proc.devRef .tc main_v19) :=
  (W10_arr m ρ c 1).trans (((dat2 (V9 m ρ) c).arrAt_in 1 rfl _).trans (A_eq2 (V9 m ρ) c 1))
theorem in13_main_v20 : W13 m ρ c (Proc.devRef .tc main_v20) = W12 m ρ c (Proc.devRef .tc main_v20) :=
  (W13_arr m ρ c 1).trans (((dat3 (V12 m ρ) c).arrAt_in 1 rfl _).trans (A_eq3 (V12 m ρ) c 1))
theorem in14_main_v34 : W14 m ρ c (Proc.devRef .tc main_v34) = W13 m ρ c (Proc.devRef .tc main_v34) :=
  (W14_arr m ρ c 0).trans (((dat4 (V13 m ρ) c).arrAt_in 0 rfl _).trans (A_eq4 (V13 m ρ) c 0))

/-! ## The walks -/

/-- The features as the first scale region finds them are the launch contents. -/
theorem arg0_5 : W5 m ρ c (Proc.devRef .tc main_arg0) = m ((c : Thread nD τ).loc main_arg0) :=
  (k5 m ρ c main_arg0 (by decide)).trans <|
    (k4 m ρ c main_arg0 (by decide)).trans <|
    (k3 m ρ c main_arg0 (by decide)).trans <|
    (k2 m ρ c main_arg0 (by decide)).trans <|
    (k1 m ρ c main_arg0 (by decide)).trans rfl
/-- Argument 1 after the first scale region is the launch contents. -/
theorem arg1_6 : W6 m ρ c (Proc.devRef .tc main_arg1) = m ((c : Thread nD τ).loc main_arg1) :=
  (W6_of_ne m ρ c main_arg1 (by decide)).trans <|
    (k5 m ρ c main_arg1 (by decide)).trans <|
    (k4 m ρ c main_arg1 (by decide)).trans <|
    (k3 m ρ c main_arg1 (by decide)).trans <|
    (k2 m ρ c main_arg1 (by decide)).trans <|
    (k1 m ρ c main_arg1 (by decide)).trans rfl
/-- Argument 2 after the first scale region is the launch contents. -/
theorem arg2_6 : W6 m ρ c (Proc.devRef .tc main_arg2) = m ((c : Thread nD τ).loc main_arg2) :=
  (W6_of_ne m ρ c main_arg2 (by decide)).trans <|
    (k5 m ρ c main_arg2 (by decide)).trans <|
    (k4 m ρ c main_arg2 (by decide)).trans <|
    (k3 m ρ c main_arg2 (by decide)).trans <|
    (k2 m ρ c main_arg2 (by decide)).trans <|
    (k1 m ρ c main_arg2 (by decide)).trans rfl
/-- Argument 4 after the first scale region is the launch contents. -/
theorem arg4_6 : W6 m ρ c (Proc.devRef .tc main_arg4) = m ((c : Thread nD τ).loc main_arg4) :=
  (W6_of_ne m ρ c main_arg4 (by decide)).trans <|
    (k5 m ρ c main_arg4 (by decide)).trans <|
    (k4 m ρ c main_arg4 (by decide)).trans <|
    (k3 m ρ c main_arg4 (by decide)).trans <|
    (k2 m ρ c main_arg4 (by decide)).trans <|
    (k1 m ρ c main_arg4 (by decide)).trans rfl
/-- The destination-norm column as the first dense region finds it is the one made before the first region. -/
theorem v20_8 : W8 m ρ c (Proc.devRef .tc main_v20) = W5 m ρ c (Proc.devRef .tc main_v20) :=
  (k8 m ρ c main_v20 (by decide)).trans <|
    (k7 m ρ c main_v20 (by decide)).trans <|
    (W6_of_ne m ρ c main_v20 (by decide))
/-- The first weights as the first dense region finds them are the launch contents. -/
theorem arg3_8 : W8 m ρ c (Proc.devRef .tc main_arg3) = m ((c : Thread nD τ).loc main_arg3) :=
  (k8 m ρ c main_arg3 (by decide)).trans <|
    (k7 m ρ c main_arg3 (by decide)).trans <|
    (W6_of_ne m ρ c main_arg3 (by decide)).trans <|
    (k5 m ρ c main_arg3 (by decide)).trans <|
    (k4 m ρ c main_arg3 (by decide)).trans <|
    (k3 m ρ c main_arg3 (by decide)).trans <|
    (k2 m ρ c main_arg3 (by decide)).trans <|
    (k1 m ρ c main_arg3 (by decide)).trans rfl
/-- The source-norm column as the second scale region finds it. -/
theorem v19_9 : W9 m ρ c (Proc.devRef .tc main_v19) = W5 m ρ c (Proc.devRef .tc main_v19) :=
  (W9_of_ne m ρ c main_v19 (by decide)).trans <|
    (k8 m ρ c main_v19 (by decide)).trans <|
    (k7 m ρ c main_v19 (by decide)).trans <|
    (in6_main_v19 m ρ c)
/-- Argument 1 after the second scale region is the launch contents. -/
theorem arg1_10 : W10 m ρ c (Proc.devRef .tc main_arg1) = m ((c : Thread nD τ).loc main_arg1) :=
  (W10_of_ne m ρ c main_arg1 (by decide)).trans <|
    (W9_of_ne m ρ c main_arg1 (by decide)).trans <|
    (k8 m ρ c main_arg1 (by decide)).trans <|
    (k7 m ρ c main_arg1 (by decide)).trans <|
    (W6_of_ne m ρ c main_arg1 (by decide)).trans <|
    (k5 m ρ c main_arg1 (by decide)).trans <|
    (k4 m ρ c main_arg1 (by decide)).trans <|
    (k3 m ρ c main_arg1 (by decide)).trans <|
    (k2 m ρ c main_arg1 (by decide)).trans <|
    (k1 m ρ c main_arg1 (by decide)).trans rfl
/-- Argument 2 after the second scale region is the launch contents. -/
theorem arg2_10 : W10 m ρ c (Proc.devRef .tc main_arg2) = m ((c : Thread nD τ).loc main_arg2) :=
  (W10_of_ne m ρ c main_arg2 (by decide)).trans <|
    (W9_of_ne m ρ c main_arg2 (by decide)).trans <|
    (k8 m ρ c main_arg2 (by decide)).trans <|
    (k7 m ρ c main_arg2 (by decide)).trans <|
    (W6_of_ne m ρ c main_arg2 (by decide)).trans <|
    (k5 m ρ c main_arg2 (by decide)).trans <|
    (k4 m ρ c main_arg2 (by decide)).trans <|
    (k3 m ρ c main_arg2 (by decide)).trans <|
    (k2 m ρ c main_arg2 (by decide)).trans <|
    (k1 m ρ c main_arg2 (by decide)).trans rfl
/-- Argument 6 after the second scale region is the launch contents. -/
theorem arg6_10 : W10 m ρ c (Proc.devRef .tc main_arg6) = m ((c : Thread nD τ).loc main_arg6) :=
  (W10_of_ne m ρ c main_arg6 (by decide)).trans <|
    (W9_of_ne m ρ c main_arg6 (by decide)).trans <|
    (k8 m ρ c main_arg6 (by decide)).trans <|
    (k7 m ρ c main_arg6 (by decide)).trans <|
    (W6_of_ne m ρ c main_arg6 (by decide)).trans <|
    (k5 m ρ c main_arg6 (by decide)).trans <|
    (k4 m ρ c main_arg6 (by decide)).trans <|
    (k3 m ρ c main_arg6 (by decide)).trans <|
    (k2 m ρ c main_arg6 (by decide)).trans <|
    (k1 m ρ c main_arg6 (by decide)).trans rfl
/-- The destination-norm column as the second dense region finds it. -/
theorem v20_12 : W12 m ρ c (Proc.devRef .tc main_v20) = W5 m ρ c (Proc.devRef .tc main_v20) :=
  (k12 m ρ c main_v20 (by decide)).trans <|
    (k11 m ρ c main_v20 (by decide)).trans <|
    (W10_of_ne m ρ c main_v20 (by decide)).trans <|
    (in9_main_v20 m ρ c).trans <|
    (k8 m ρ c main_v20 (by decide)).trans <|
    (k7 m ρ c main_v20 (by decide)).trans <|
    (W6_of_ne m ρ c main_v20 (by decide))
/-- The second weights as the second dense region finds them are the launch contents. -/
theorem arg5_12 : W12 m ρ c (Proc.devRef .tc main_arg5) = m ((c : Thread nD τ).loc main_arg5) :=
  (k12 m ρ c main_arg5 (by decide)).trans <|
    (k11 m ρ c main_arg5 (by decide)).trans <|
    (W10_of_ne m ρ c main_arg5 (by decide)).trans <|
    (W9_of_ne m ρ c main_arg5 (by decide)).trans <|
    (k8 m ρ c main_arg5 (by decide)).trans <|
    (k7 m ρ c main_arg5 (by decide)).trans <|
    (W6_of_ne m ρ c main_arg5 (by decide)).trans <|
    (k5 m ρ c main_arg5 (by decide)).trans <|
    (k4 m ρ c main_arg5 (by decide)).trans <|
    (k3 m ρ c main_arg5 (by decide)).trans <|
    (k2 m ρ c main_arg5 (by decide)).trans <|
    (k1 m ρ c main_arg5 (by decide)).trans rfl
/-- The source-norm column as the third scale region finds it. -/
theorem v19_13 : W13 m ρ c (Proc.devRef .tc main_v19) = W5 m ρ c (Proc.devRef .tc main_v19) :=
  (W13_of_ne m ρ c main_v19 (by decide)).trans <|
    (k12 m ρ c main_v19 (by decide)).trans <|
    (k11 m ρ c main_v19 (by decide)).trans <|
    (in10_main_v19 m ρ c).trans <|
    (W9_of_ne m ρ c main_v19 (by decide)).trans <|
    (k8 m ρ c main_v19 (by decide)).trans <|
    (k7 m ρ c main_v19 (by decide)).trans <|
    (in6_main_v19 m ρ c)
/-- Argument 1 after the third scale region is the launch contents. -/
theorem arg1_14 : W14 m ρ c (Proc.devRef .tc main_arg1) = m ((c : Thread nD τ).loc main_arg1) :=
  (W14_of_ne m ρ c main_arg1 (by decide)).trans <|
    (W13_of_ne m ρ c main_arg1 (by decide)).trans <|
    (k12 m ρ c main_arg1 (by decide)).trans <|
    (k11 m ρ c main_arg1 (by decide)).trans <|
    (W10_of_ne m ρ c main_arg1 (by decide)).trans <|
    (W9_of_ne m ρ c main_arg1 (by decide)).trans <|
    (k8 m ρ c main_arg1 (by decide)).trans <|
    (k7 m ρ c main_arg1 (by decide)).trans <|
    (W6_of_ne m ρ c main_arg1 (by decide)).trans <|
    (k5 m ρ c main_arg1 (by decide)).trans <|
    (k4 m ρ c main_arg1 (by decide)).trans <|
    (k3 m ρ c main_arg1 (by decide)).trans <|
    (k2 m ρ c main_arg1 (by decide)).trans <|
    (k1 m ρ c main_arg1 (by decide)).trans rfl
/-- Argument 2 after the third scale region is the launch contents. -/
theorem arg2_14 : W14 m ρ c (Proc.devRef .tc main_arg2) = m ((c : Thread nD τ).loc main_arg2) :=
  (W14_of_ne m ρ c main_arg2 (by decide)).trans <|
    (W13_of_ne m ρ c main_arg2 (by decide)).trans <|
    (k12 m ρ c main_arg2 (by decide)).trans <|
    (k11 m ρ c main_arg2 (by decide)).trans <|
    (W10_of_ne m ρ c main_arg2 (by decide)).trans <|
    (W9_of_ne m ρ c main_arg2 (by decide)).trans <|
    (k8 m ρ c main_arg2 (by decide)).trans <|
    (k7 m ρ c main_arg2 (by decide)).trans <|
    (W6_of_ne m ρ c main_arg2 (by decide)).trans <|
    (k5 m ρ c main_arg2 (by decide)).trans <|
    (k4 m ρ c main_arg2 (by decide)).trans <|
    (k3 m ρ c main_arg2 (by decide)).trans <|
    (k2 m ρ c main_arg2 (by decide)).trans <|
    (k1 m ρ c main_arg2 (by decide)).trans rfl
/-- Argument 8 after the third scale region is the launch contents. -/
theorem arg8_14 : W14 m ρ c (Proc.devRef .tc main_arg8) = m ((c : Thread nD τ).loc main_arg8) :=
  (W14_of_ne m ρ c main_arg8 (by decide)).trans <|
    (W13_of_ne m ρ c main_arg8 (by decide)).trans <|
    (k12 m ρ c main_arg8 (by decide)).trans <|
    (k11 m ρ c main_arg8 (by decide)).trans <|
    (W10_of_ne m ρ c main_arg8 (by decide)).trans <|
    (W9_of_ne m ρ c main_arg8 (by decide)).trans <|
    (k8 m ρ c main_arg8 (by decide)).trans <|
    (k7 m ρ c main_arg8 (by decide)).trans <|
    (W6_of_ne m ρ c main_arg8 (by decide)).trans <|
    (k5 m ρ c main_arg8 (by decide)).trans <|
    (k4 m ρ c main_arg8 (by decide)).trans <|
    (k3 m ρ c main_arg8 (by decide)).trans <|
    (k2 m ρ c main_arg8 (by decide)).trans <|
    (k1 m ρ c main_arg8 (by decide)).trans rfl
/-- The destination-norm column as the third dense region finds it. -/
theorem v20_16 : W16 m ρ c (Proc.devRef .tc main_v20) = W5 m ρ c (Proc.devRef .tc main_v20) :=
  (k16 m ρ c main_v20 (by decide)).trans <|
    (k15 m ρ c main_v20 (by decide)).trans <|
    (W14_of_ne m ρ c main_v20 (by decide)).trans <|
    (in13_main_v20 m ρ c).trans <|
    (k12 m ρ c main_v20 (by decide)).trans <|
    (k11 m ρ c main_v20 (by decide)).trans <|
    (W10_of_ne m ρ c main_v20 (by decide)).trans <|
    (in9_main_v20 m ρ c).trans <|
    (k8 m ρ c main_v20 (by decide)).trans <|
    (k7 m ρ c main_v20 (by decide)).trans <|
    (W6_of_ne m ρ c main_v20 (by decide))
/-- The third weights as the third dense region finds them are the launch contents. -/
theorem arg7_16 : W16 m ρ c (Proc.devRef .tc main_arg7) = m ((c : Thread nD τ).loc main_arg7) :=
  (k16 m ρ c main_arg7 (by decide)).trans <|
    (k15 m ρ c main_arg7 (by decide)).trans <|
    (W14_of_ne m ρ c main_arg7 (by decide)).trans <|
    (W13_of_ne m ρ c main_arg7 (by decide)).trans <|
    (k12 m ρ c main_arg7 (by decide)).trans <|
    (k11 m ρ c main_arg7 (by decide)).trans <|
    (W10_of_ne m ρ c main_arg7 (by decide)).trans <|
    (W9_of_ne m ρ c main_arg7 (by decide)).trans <|
    (k8 m ρ c main_arg7 (by decide)).trans <|
    (k7 m ρ c main_arg7 (by decide)).trans <|
    (W6_of_ne m ρ c main_arg7 (by decide)).trans <|
    (k5 m ρ c main_arg7 (by decide)).trans <|
    (k4 m ρ c main_arg7 (by decide)).trans <|
    (k3 m ρ c main_arg7 (by decide)).trans <|
    (k2 m ρ c main_arg7 (by decide)).trans <|
    (k1 m ρ c main_arg7 (by decide)).trans rfl
/-- The first layer's output outlives the rest of the program. -/
theorem v27_17 : W17 m ρ c (Proc.devRef .tc main_v27) = W9 m ρ c (Proc.devRef .tc main_v27) :=
  (W17_of_ne m ρ c main_v27 (by decide)).trans <|
    (k16 m ρ c main_v27 (by decide)).trans <|
    (k15 m ρ c main_v27 (by decide)).trans <|
    (W14_of_ne m ρ c main_v27 (by decide)).trans <|
    (W13_of_ne m ρ c main_v27 (by decide)).trans <|
    (k12 m ρ c main_v27 (by decide)).trans <|
    (k11 m ρ c main_v27 (by decide)).trans <|
    (in10_main_v27 m ρ c)
/-- The second layer's output outlives the rest of the program. -/
theorem v34_17 : W17 m ρ c (Proc.devRef .tc main_v34) = W13 m ρ c (Proc.devRef .tc main_v34) :=
  (W17_of_ne m ρ c main_v34 (by decide)).trans <|
    (k16 m ρ c main_v34 (by decide)).trans <|
    (k15 m ρ c main_v34 (by decide)).trans <|
    (in14_main_v34 m ρ c)

end Cert.KernelIdeal.Carry

end
-- ==== Proof.LibTypedRef.lean ====
/-
  A value written into the buffer of a typed reference and read back through the same reference is the value.

  A typed reference names a buffer together with the type of the tensor value it holds and an equation saying that the
  buffer's own type is that type.  Contents pass between the value's type and the buffer's type by transport along that
  equation, in either direction.  The two transports are inverse to each other: to the buffer and back gives the value,
  and from the buffer and back gives the buffer's contents.  Both are proved for an arbitrary reference by making the
  equation the reflexive one, so neither statement asks what any particular reference's type is.

  Use: a stretch of host operations printed through typed references (the operations of an outlined function) leaves,
  once each operation's result has been rewritten to its function's value, every intermediate value wrapped in such a
  pair of transports.  Rewriting with the first lemma removes the pairs one by one, whichever proofs the two references
  carry, without the type of any reference being computed.
-/
import Idealize.ShloMosaic.Lib.StableHlo

namespace Cert.TypedRef

open Idealize.ShloMosaic Idealize.ShloMosaic.StableHlo

variable {sig : RefSig} {Val : EltTy → Type} {T : BufTy}

/-- Contents at the value's type, moved to the type of the reference's buffer and back, are unchanged. -/
theorem ofBuf_toBuf (x : TRef sig T) (w : T.Contents Val) : x.ofBuf (x.toBuf w) = w := by
  obtain ⟨r, h, _, _⟩ := x
  subst h
  rfl

/-- Contents of the reference's buffer, moved to the value's type and back, are unchanged. -/
theorem toBuf_ofBuf (x : TRef sig T) (w : x.ref.ty.Contents Val) : x.toBuf (x.ofBuf w) = w := by
  obtain ⟨r, h, _, _⟩ := x
  subst h
  rfl

end Cert.TypedRef
-- ==== Proof.KernelHost.lean ====
/-
  The kernel program's host stretches, each read as a function of the buffer contents it starts from.

  Before the first device region the program counts the edges per source and per destination node, turns each count
  into a degree norm, and re-lays each norm as a column.  Before each dense region it takes a row of the scaled
  features per edge, adds the taken rows into the rows of the edges' destination numbers, and re-lays that layer's bias
  as a row.  Each stretch applies the same whole-array operations the specification names to the buffers it reads.
-/
import proofs.«173594_j60610578482005_1_alg».proof.Proof.Gen.KernelIdeal.Launch
import proofs.«173594_j60610578482005_1_alg».proof.Proof.Gen.ReferenceIdeal
import proofs.«173594_j60610578482005_1_alg».proof.Proof.Spec
import proofs.«173594_j60610578482005_1_alg».proof.Proof.LibTypedRef
import Idealize.ShloMosaic.Lib.StableHlo.Run

noncomputable section

namespace Cert.KernelIdeal.HostValue

open Cert.KernelIdeal Cert.KernelIdeal.Gen
open Idealize.ShloMosaic Idealize.ShloMosaic.TcCoe Idealize.ShloMosaic.StableHlo

attribute [local irreducible] Host.reduce Host.gather Host.scatterAdd Host.rsqrt

variable (W : Valuation τ sig (Elt Ideal))

/-! ## The degree norms -/

/-- Where the out-degree is positive. -/
theorem deg_src_pos : after hostOps0 W (Proc.devRef .tc main_v8)
    = cmpf .ogt (Cert.Spec.degree (W (Proc.devRef .tc main_arg1))) (broadcastInDim S100000 ![] bcast_S_S100000 (constant (F := Ideal) S_ .f32 0x00000000#32)) := by
  simp only [hostOps0]
  after_results_simp
  rfl

/-- The inverse square root of the out-degree raised to at least one. -/
theorem deg_src_rsqrt : after hostOps0 W (Proc.devRef .tc main_v11)
    = Host.rsqrt (maximumf (Cert.Spec.degree (W (Proc.devRef .tc main_arg1))) (broadcastInDim S100000 ![] bcast_S_S100000 (constant (F := Ideal) S_ .f32 0x3F800000#32))) := by
  simp only [hostOps0]
  after_results_simp
  rfl

/-- The zero that fills the source norm where the degree is not positive. -/
theorem src_fill : after hostOps0 W (Proc.devRef .tc main_cst_4) = constant (F := Ideal) S_ .f32 0x00000000#32 := by
  simp only [hostOps0]
  after_results_simp

/-- The in-degree. -/
theorem deg_dst : after hostOps0 W (Proc.devRef .tc main_v6) = Cert.Spec.degree (W (Proc.devRef .tc main_arg2)) := by
  simp only [hostOps0]
  after_results_simp
  rfl

/-- The source norm: the choice between the inverse square root and the fill. -/
theorem norm_src_choice : after hostOps0_1 W (Proc.devRef .tc main_v12)
    = select (W (Proc.devRef .tc main_v8)) (W (Proc.devRef .tc main_v11)) (broadcastInDim S100000 ![] bcast_S_S100000 (id (W (Proc.devRef .tc main_cst_4)))) := by
  simp only [hostOps0_1]
  after_results
  simp only [Cert.TypedRef.ofBuf_toBuf]
  rfl

/-- Where the in-degree is positive. -/
theorem deg_dst_pos : after hostOps0_2 W (Proc.devRef .tc main_v14)
    = cmpf .ogt (W (Proc.devRef .tc main_v6)) (broadcastInDim S100000 ![] bcast_S_S100000 (constant (F := Ideal) S_ .f32 0x00000000#32)) := by
  simp only [hostOps0_2]
  after_results

/-- The inverse square root of the in-degree raised to at least one. -/
theorem deg_dst_rsqrt : after hostOps0_2 W (Proc.devRef .tc main_v17)
    = Host.rsqrt (maximumf (W (Proc.devRef .tc main_v6)) (broadcastInDim S100000 ![] bcast_S_S100000 (constant (F := Ideal) S_ .f32 0x3F800000#32))) := by
  simp only [hostOps0_2]
  after_results

/-- The zero that fills the destination norm. -/
theorem dst_fill : after hostOps0_2 W (Proc.devRef .tc main_cst_7) = constant (F := Ideal) S_ .f32 0x00000000#32 := by
  simp only [hostOps0_2]
  after_results

/-- The destination norm: the choice between the inverse square root and the fill. -/
theorem norm_dst_choice : after hostOps0_3 W (Proc.devRef .tc main_v18)
    = select (W (Proc.devRef .tc main_v14)) (W (Proc.devRef .tc main_v17)) (broadcastInDim S100000 ![] bcast_S_S100000 (id (W (Proc.devRef .tc main_cst_7)))) := by
  simp only [hostOps0_3]
  after_results
  simp only [Cert.TypedRef.ofBuf_toBuf]
  rfl

/-- The source norm re-laid as a column. -/
theorem src_col : after hostOps0_4 W (Proc.devRef .tc main_v19)
    = fun i => shapeCast S100000x1 (W (Proc.devRef .tc main_v12)) shapeCasts_S100000_S100000x1 i := by
  simp only [hostOps0_4]
  after_results
  rfl

/-- The destination norm re-laid as a column. -/
theorem dst_col : after hostOps0_4 W (Proc.devRef .tc main_v20)
    = fun i => shapeCast S100000x1 (W (Proc.devRef .tc main_v18)) shapeCasts_S100000_S100000x1 i := by
  simp only [hostOps0_4]
  after_results
  rfl

/-! ## One row per edge, and their sums per destination -/

/-- The first layer's rows taken per edge. -/
theorem take1 : after hostOps1 W (Proc.devRef .tc main_v22) = Cert.Spec.take (W (Proc.devRef .tc main_v21)) (W (Proc.devRef .tc main_arg1)) := by
  simp only [hostOps1]
  after_results_simp
  simp only [Cert.TypedRef.ofBuf_toBuf]
  rfl

/-- The first layer's taken rows added per destination. -/
theorem agg1 : after hostOps1_1 W (Proc.devRef .tc main_v25) = Cert.Spec.agg (W (Proc.devRef .tc main_v22)) (W (Proc.devRef .tc main_arg2)) := by
  simp only [hostOps1_1]
  after_results
  rfl

/-- The first layer's bias re-laid as a row. -/
theorem bias1 : after hostOps1_1 W (Proc.devRef .tc main_v26)
    = fun i => shapeCast S1x128 (W (Proc.devRef .tc main_arg4)) shapeCasts_S128_S1x128 i := by
  simp only [hostOps1_1]
  after_results
  rfl

/-- The second layer's rows taken per edge. -/
theorem take3 : after hostOps3 W (Proc.devRef .tc main_v29) = Cert.Spec.take (W (Proc.devRef .tc main_v28)) (W (Proc.devRef .tc main_arg1)) := by
  simp only [hostOps3]
  after_results_simp
  simp only [Cert.TypedRef.ofBuf_toBuf]
  rfl

/-- The second layer's taken rows added per destination. -/
theorem agg3 : after hostOps3_1 W (Proc.devRef .tc main_v32) = Cert.Spec.agg (W (Proc.devRef .tc main_v29)) (W (Proc.devRef .tc main_arg2)) := by
  simp only [hostOps3_1]
  after_results
  rfl

/-- The second layer's bias re-laid as a row. -/
theorem bias3 : after hostOps3_1 W (Proc.devRef .tc main_v33)
    = fun i => shapeCast S1x128 (W (Proc.devRef .tc main_arg6)) shapeCasts_S128_S1x128 i := by
  simp only [hostOps3_1]
  after_results
  rfl

/-- The third layer's rows taken per edge. -/
theorem take5 : after hostOps5 W (Proc.devRef .tc main_v36) = Cert.Spec.take (W (Proc.devRef .tc main_v35)) (W (Proc.devRef .tc main_arg1)) := by
  simp only [hostOps5]
  after_results_simp
  simp only [Cert.TypedRef.ofBuf_toBuf]
  rfl

/-- The third layer's taken rows added per destination. -/
theorem agg5 : after hostOps5_1 W (Proc.devRef .tc main_v39) = Cert.Spec.agg (W (Proc.devRef .tc main_v36)) (W (Proc.devRef .tc main_arg2)) := by
  simp only [hostOps5_1]
  after_results
  rfl

/-- The third layer's bias re-laid as a row. -/
theorem bias5 : after hostOps5_1 W (Proc.devRef .tc main_v40)
    = fun i => shapeCast S1x64 (W (Proc.devRef .tc main_arg8)) shapeCasts_S64_S1x64 i := by
  simp only [hostOps5_1]
  after_results
  rfl

end Cert.KernelIdeal.HostValue

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibHostBroadcast.lean ====
/-
  The host's broadcasts of a bias, of a column and of a scalar, read at an index.

  A vector of length `n` placed as a one-row matrix and repeated down `a` rows has at `(p, q)` its entry `q`.  A vector of
  length `a` placed as a one-column matrix and repeated across `b` columns has at `(p, q)` its entry `p`.  A scalar
  repeated over any shape has everywhere its one value.
-/
import Idealize.ShloMosaic.Lib.Pipeline.Value
import Idealize.ShloMosaic.Lib.ValueIdx

noncomputable section

namespace Cert.HostBroadcast

open Idealize.ShloMosaic Idealize.ShloMosaic.ValueIdx

variable {α : Type}

/-- A vector as a `[1, n]` row repeated over `[a, n]`: at `(p, q)` its entry `q`. -/
theorem row_apply {a n : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 v) (ix2 p q) = v (ix1 q) := by
  rw [broadcastInDim_apply ![0, 1] h2 _ (ix2 p q) (ix2 (0 : Fin 1) q) (fun ax => by
    match ax with
    | ⟨0, _⟩ => show (0 : ℕ) = if (1 : ℕ) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun ax => by
    match ax with
    | ⟨0, _⟩ =>
      show q.val = if n = 1 then 0 else q.val
      split
      · have := q.isLt; omega
      · rfl)

/-- A vector as an `[a, 1]` column repeated over `[a, b]`: at `(p, q)` its entry `p`. -/
theorem col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])]
  exact broadcastInDim_apply ![0] h1 v (ix2 p (0 : Fin 1)) (ix1 p) (fun ax => by
    match ax with
    | ⟨0, _⟩ =>
      show p.val = if a = 1 then 0 else p.val
      split
      · have := p.isLt; omega
      · rfl)

/-- The same column form one step at a time: an `[a]` vector as an `[a, 1]` column, at `(p, 0)`. -/
theorem col_one_apply {a : ℕ} (v : (⟨1, ![a]⟩ : Shape).Idx → α)
    (h1 : (⟨1, ![a]⟩ : Shape).BroadcastsInDim ⟨2, ![a, 1]⟩ ![0]) (p : Fin a) :
    broadcastInDim ⟨2, ![a, 1]⟩ ![0] h1 v (ix2 p (0 : Fin 1)) = v (ix1 p) :=
  broadcastInDim_apply ![0] h1 v (ix2 p (0 : Fin 1)) (ix1 p) (fun ax => by
    match ax with
    | ⟨0, _⟩ =>
      show p.val = if a = 1 then 0 else p.val
      split
      · have := p.isLt; omega
      · rfl)

/-- An `[a, 1]` column repeated over `[a, b]`, at `(p, q)`: the column's entry `(p, 0)`. -/
theorem col_spread_apply {a b : ℕ} (v : (⟨2, ![a, 1]⟩ : Shape).Idx → α)
    (h2 : (⟨2, ![a, 1]⟩ : Shape).BroadcastsInDim ⟨2, ![a, b]⟩ ![0, 1]) (p : Fin a) (q : Fin b) :
    broadcastInDim ⟨2, ![a, b]⟩ ![0, 1] h2 v (ix2 p q) = v (ix2 p (0 : Fin 1)) :=
  broadcastInDim_apply ![0, 1] h2 v (ix2 p q) (ix2 p (0 : Fin 1)) (fun ax => by
    match ax with
    | ⟨0, _⟩ =>
      show p.val = if a = 1 then 0 else p.val
      split
      · have := p.isLt; omega
      · rfl
    | ⟨1, _⟩ => show (0 : ℕ) = if (1 : ℕ) = 1 then 0 else q.val; rw [if_pos rfl])

/-- A scalar repeated over any shape: everywhere its one value. -/
theorem scalar_apply {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 (fun ax => ax.elim0)

end Cert.HostBroadcast

end
-- ==== Proof.LibDenseLayer.lean ====
/-
  A dense layer at one entry, and how the device's and the host's vector operations compute it, at the ideal
  values where a float is an extended real and every operation is exact.

  An affine map sends a row z to (sum over c of z c · w (c, q)) + b q; followed by the positive part max(·, 0) it is
  a dense layer.  On the device, a tile product [m, k]·[k, n] into a zero accumulator plus a [1, n] bias row
  repeated down the m rows, read at (p, q), is the affine map of row p; followed by the maximum with the zero
  splat it is the dense layer of row p.  On the host, the product plus a length-n bias vector placed as a row and
  repeated down the rows is the same affine map, and the maximum with the repeated scalar zero the same dense
  layer.  Any extents m, k, n and any operand formats (a change of format is the identity at the ideal values).
-/
import Idealize.ShloMosaic.Lib.Pipeline.Value
import Idealize.ShloMosaic.Lib.ValueIdx
import Idealize.ShloMosaic.PureOps.Ideal.Laws
import proofs.«173594_j60610578482005_1_alg».proof.Proof.LibPlainProduct
import proofs.«173594_j60610578482005_1_alg».proof.Proof.LibHostProduct
import proofs.«173594_j60610578482005_1_alg».proof.Proof.LibRowsProduct
import proofs.«173594_j60610578482005_1_alg».proof.Proof.LibHostBroadcast

noncomputable section

namespace Cert.DenseLayer

open Idealize.ShloMosaic Idealize.ShloMosaic.ValueIdx

/-- The value of the float zero word. -/
abbrev Z : EReal := Ideal.ofBits .f32 0x00000000#32

/-- An affine map at output coordinate q: the row z against column q of w, plus the bias. -/
def affine {k n : ℕ} (z : Fin k → EReal) (w : (⟨2, ![k, n]⟩ : Shape).Idx → EReal) (b : Fin n → EReal) (q : Fin n) : EReal :=
  (∑ c : Fin k, z c * w (ix2 c q)) + b q

/-- A dense layer at output coordinate q: the affine map followed by the positive part. -/
def dense {k n : ℕ} (z : Fin k → EReal) (w : (⟨2, ![k, n]⟩ : Shape).Idx → EReal) (b : Fin n → EReal) (q : Fin n) : EReal :=
  max (affine z w b q) Z

section Device

variable {m k n : ℕ} {φ₁ φ₂ : FTy}

/-- The tile product into a zero accumulator plus a bias row repeated down the rows, at (p, q). -/
theorem tpu_affine_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (A : FVec Ideal ⟨2, ![m, k]⟩ φ₁) (W : FVec Ideal ⟨2, ![k, n]⟩ φ₂) (b : FVec Ideal ⟨2, ![1, n]⟩ .f32)
    (p : Fin m) (q : Fin n) :
    addf (matmul (⟨[1], [0], [0], [1], [], [], w⟩ : DotDims _ _ _) none A W (constant _ .f32 0x00000000#32))
      (broadcastTo ⟨2, ![m, n]⟩ b hb) (ix2 p q)
    = affine (fun c => A (ix2 p c)) W (fun q => b (ix2 (0 : Fin 1) q)) q := by
  rw [addf_apply]
  show FloatOps.matmul _ none A W (constant _ .f32 0x00000000#32) (ix2 p q) + _ = _
  rw [Cert.PlainProduct.matmul_nn_apply, Cert.RowsProduct.broadcastTo_1n_an_apply]
  rfl

/-- The same followed by the maximum with the zero splat: a dense layer of row p. -/
theorem tpu_dense_apply (w : DotDims.WF ⟨2, ![m, k]⟩ ⟨2, ![k, n]⟩ ⟨2, ![m, n]⟩ [1] [0] [0] [1] [] [])
    (hb : (⟨2, ![1, n]⟩ : Shape).Broadcasts ⟨2, ![m, n]⟩)
    (A : FVec Ideal ⟨2, ![m, k]⟩ φ₁) (W : FVec Ideal ⟨2, ![k, n]⟩ φ₂) (b : FVec Ideal ⟨2, ![1, n]⟩ .f32)
    (p : Fin m) (q : Fin n) :
    maximumf (addf (matmul (⟨[1], [0], [0], [1], [], [], w⟩ : DotDims _ _ _) none A W (constant _ .f32 0x00000000#32))
      (broadcastTo ⟨2, ![m, n]⟩ b hb)) (broadcast ⟨2, ![m, n]⟩ (Scalar.ofBits .f32 0x00000000#32)) (ix2 p q)
    = dense (fun c => A (ix2 p c)) W (fun q => b (ix2 (0 : Fin 1) q)) q := by
  rw [maximumf_apply, tpu_affine_apply]
  rfl

end Device

section Host

variable {m k n : ℕ} {φ₁ φ₂ : FTy}

/-- The host's product plus a bias vector repeated down the rows, at (p, q). -/
theorem host_affine_apply (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (A : FVec Ideal ⟨2, ![m, k]⟩ φ₁) (W : FVec Ideal ⟨2, ![k, n]⟩ φ₂) (v : FVec Ideal ⟨1, ![n]⟩ .f32)
    (p : Fin m) (q : Fin n) :
    addf (Host.dotGeneral (⟨[1], [0], [0], [1], [], [], w⟩ : DotDims _ _ _) none A W)
      (broadcastInDim ⟨2, ![m, n]⟩ ![0, 1] h2 (broadcastInDim ⟨2, ![1, n]⟩ ![1] h1 v)) (ix2 p q)
    = affine (fun c => A (ix2 p c)) W (fun q => v (ix1 q)) q := by
  rw [addf_apply, Cert.HostProduct.dotGeneral_nn_apply, Cert.HostBroadcast.row_apply]
  rfl

/-- The same followed by the maximum with the repeated scalar zero: a dense layer of row p. -/
theorem host_dense_apply (w : DotDims.WF ⟨2, ![m, k]⟩ ⟨2, ![k, n]⟩ ⟨2, ![m, n]⟩ [1] [0] [0] [1] [] [])
    (h1 : (⟨1, ![n]⟩ : Shape).BroadcastsInDim ⟨2, ![1, n]⟩ ![1])
    (h2 : (⟨2, ![1, n]⟩ : Shape).BroadcastsInDim ⟨2, ![m, n]⟩ ![0, 1])
    (h0 : (⟨0, ![]⟩ : Shape).BroadcastsInDim ⟨2, ![m, n]⟩ ![])
    (A : FVec Ideal ⟨2, ![m, k]⟩ φ₁) (W : FVec Ideal ⟨2, ![k, n]⟩ φ₂) (v : FVec Ideal ⟨1, ![n]⟩ .f32)
    (p : Fin m) (q : Fin n) :
    maximumf (addf (Host.dotGeneral (⟨[1], [0], [0], [1], [], [], w⟩ : DotDims _ _ _) none A W)
      (broadcastInDim ⟨2, ![m, n]⟩ ![0, 1] h2 (broadcastInDim ⟨2, ![1, n]⟩ ![1] h1 v)))
      (broadcastInDim ⟨2, ![m, n]⟩ ![] h0 (constant (F := Ideal) ⟨0, ![]⟩ .f32 0x00000000#32)) (ix2 p q)
    = dense (fun c => A (ix2 p c)) W (fun q => v (ix1 q)) q := by
  rw [maximumf_apply, host_affine_apply, Cert.HostBroadcast.scalar_apply]
  rfl

end Host

end Cert.DenseLayer

end
-- ==== Proof.SpecApply.lean ====
/-
  The specification's whole-array functions read at one entry.

  A scaled array has at (p, q) the entry times node p's norm.  The linear layer of the scaled rows has at (p, q) the
  affine map of row p — each entry of the row times the node's norm, against column q of the weights, plus bias q —
  and followed by the positive part it is the dense layer of that row.  Two arrays of two axes that agree at every
  pair of coordinates are equal.
-/
import proofs.«173594_j60610578482005_1_alg».proof.Proof.Spec
import proofs.«173594_j60610578482005_1_alg».proof.Proof.LibDenseLayer

noncomputable section

namespace Cert.Spec

open Idealize.ShloMosaic Idealize.ShloMosaic.ValueIdx Cert.ReferenceIdeal Cert.ReferenceIdeal.Facts₀

variable [Cert.ReferenceIdeal.Facts]

/-- Arrays of two axes that agree at every pair of coordinates are equal. -/
theorem ext2 {n0 n1 : ℕ} {α : Type} (f g : (⟨2, ![n0, n1]⟩ : Shape).Idx → α)
    (h : ∀ (p : Fin n0) (q : Fin n1), f (ix2 p q) = g (ix2 p q)) : f = g :=
  funext fun i => by rw [eq_ix2 i]; exact h _ _

/-- A scaled array at (p, q): the entry times node p's norm. -/
theorem scale_apply (h : Vf S100000x128) (n : Vf S100000) (p : Fin 100000) (q : Fin 128) :
    scale h n (ix2 p q) = h (ix2 p q) * n (ix1 p) := by
  unfold scale
  rw [mulf_apply, Cert.HostBroadcast.col_apply]

/-- The linear layer followed by the positive part, at (p, q): the dense layer of row p scaled by node p's norm. -/
theorem relu_lin128_apply (a : Vf S100000x128) (n : Vf S100000) (W : Vf S128x128) (b : Vf S128) (p : Fin 100000) (q : Fin 128) :
    relu (lin128 a n W b) (ix2 p q)
      = Cert.DenseLayer.dense (fun k : Fin 128 => a (ix2 p k) * n (ix1 p)) W (fun q => b (ix1 q)) q := by
  unfold relu lin128
  refine (Cert.DenseLayer.host_dense_apply (m := 100000) (k := 128) (n := 128)
    dot_S100000x128_S128x128_S100000x128_1_0_0_1_n_n_wf bcast_S128_S1x128_1 bcast_S1x128_S100000x128_0_1 bcast_S_S100000x128
    (scale a n) W b p q).trans ?_
  simp only [scale_apply]

/-- The last linear layer at (p, q): the affine map of row p scaled by node p's norm. -/
theorem lin64_apply (a : Vf S100000x128) (n : Vf S100000) (W : Vf S128x64) (b : Vf S64) (p : Fin 100000) (q : Fin 64) :
    lin64 a n W b (ix2 p q)
      = Cert.DenseLayer.affine (fun k : Fin 128 => a (ix2 p k) * n (ix1 p)) W (fun q => b (ix1 q)) q := by
  unfold lin64
  refine (Cert.DenseLayer.host_affine_apply (m := 100000) (k := 128) (n := 64)
    dot_S100000x128_S128x64_S100000x64_1_0_0_1_n_n_wf bcast_S64_S1x64_1 bcast_S1x64_S100000x64_0_1
    (scale a n) W b p q).trans ?_
  simp only [scale_apply]

end Cert.Spec

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.RegionBlocks.lean ====
/-
  Rows scaled by a column, and the zero offsets of a whole-buffer access.

  Every region of the program works on blocks of 2000 consecutive rows of a 100000-row array: block t holds rows
  t·2000 … t·2000 + 1999, so row p lies in block p / 2000.  The arithmetic shared by the regions is here: the
  pointwise product of a matrix with a one-column matrix repeated along the rows, read at an entry, and the same
  as a function of whole arrays.
-/
import Idealize.ShloMosaic.Lib.Pipeline.Value
import Idealize.ShloMosaic.Lib.ValueIdx
import proofs.«173594_j60610578482005_1_alg».proof.Proof.LibBroadcast

noncomputable section

namespace Cert.KernelIdeal.RegionValue

open Idealize.ShloMosaic Idealize.ShloMosaic.ValueIdx

/-- The offsets of an access to a whole rank-2 buffer are zero on both axes. -/
theorem hz : (![0, 0] : Fin 2 → Nat) = fun _ => 0 := funext fun a => by fin_cases a <;> rfl

/-- A matrix times a one-column matrix repeated along the rows: entry (r, q) is the matrix's entry times the
    column's entry of row r. -/
theorem scaled_apply {a b : ℕ} (x : FVec Ideal ⟨2, ![a, b]⟩ .f32) (col : FVec Ideal ⟨2, ![a, 1]⟩ .f32)
    (hb : (⟨2, ![a, 1]⟩ : Shape).Broadcasts ⟨2, ![a, b]⟩) (r : Fin a) (q : Fin b) :
    mulf x (broadcastTo ⟨2, ![a, b]⟩ col hb) (ix2 r q) = x (ix2 r q) * col (ix2 r (0 : Fin 1)) := by
  rw [mulf_apply, Cert.Layout.broadcastTo_a1_ab_apply]

/-- Every row of an array multiplied by that row's entry of a one-column array. -/
def scaledRows {a b : ℕ} (x : (⟨2, ![a, b]⟩ : Shape).Idx → EReal) (col : (⟨2, ![a, 1]⟩ : Shape).Idx → EReal) :
    (⟨2, ![a, b]⟩ : Shape).Idx → EReal :=
  fun i => x i * col (ix2 (i 0 : Fin a) (0 : Fin 1))

theorem scaledRows_apply {a b : ℕ} (x : (⟨2, ![a, b]⟩ : Shape).Idx → EReal) (col : (⟨2, ![a, 1]⟩ : Shape).Idx → EReal)
    (p : Fin a) (q : Fin b) : scaledRows x col (ix2 p q) = x (ix2 p q) * col (ix2 p (0 : Fin 1)) := rfl

/-- Row r of block t of 2000 rows, among 50 blocks, is a row of the 100000-row array. -/
theorem row_lt {t : ℕ} (ht : t < 50) (r : Fin 2000) : t * 2000 + r.val < 100000 := by
  have := r.isLt; omega

end Cert.KernelIdeal.RegionValue

end
-- ==== Proof.RegionScale.lean ====
/-
  The three row-scaling regions, each as a function of the arrays it finds at its entry.

  A row-scaling region walks 50 points; at point t it stages rows t·2000 … t·2000 + 1999 of a [100000, 128] array
  and of a [100000, 1] column, multiplies each staged row by its column entry, and writes the 2000 rows back to the
  same rows of its output array.  The blocks written back are the row blocks of ONE function of the two arrays —
  entry (p, q) is x (p, q) · col (p, 0) — and the 50 blocks cover all 100000 rows, so that function is what the
  output array holds after the region, whatever the two arrays were when the region was entered.
-/
import proofs.«173594_j60610578482005_1_alg».proof.Proof.Gen.KernelIdeal.Frame
import proofs.«173594_j60610578482005_1_alg».proof.Proof.RegionBlocks

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

variable (V : (c : Dev nD) → (b : Ref sig .tc) → Buf (Elt Ideal) ((c : Thread nD τ).loc b))

/-! ## Region 0: the rows of `main_arg0` scaled by the column `main_v19` -/

example : Pipeline.arrRef spec0 0 = main_arg0 := rfl
example : Pipeline.arrRef spec0 1 = main_v19 := rfl
example : Pipeline.arrRef spec0 2 = main_v21 := rfl

/-- The body's value at entry (r, q) of its block: the row block's entry times the column block's entry of row r. -/
theorem k0_pay1_apply (x0 : Vec Ideal S2000x128 .f32) (x1 : Vec Ideal S2000x1 .f32) (r : Fin 2000) (q : Fin 128) :
    k0_pay1 x0 x1 (ix2 r q) = x0 (ix2 r q) * x1 (ix2 r (0 : Fin 1)) := by
  unfold k0_pay1
  simp only [shapeCast_self]
  exact scaled_apply x0 x1 _ r q

/-- The block index of each window at point t: block t of the rows, the one block of the columns. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry (r, q) of the input's block t is entry (t·2000 + r, q) of the array. -/
theorem emb0_0 (t : Fin cfg0.N) (r : Fin 2000) (q : Fin 128) (p : Fin 100000) (hp : p.val = t.val * 2000 + r.val) :
    ((cfg0.win 0).blk t).view.emb (ix2 r q) = ix2 p q := by
  obtain ⟨e0, e1, -⟩ := idx0 t
  funext a; apply Fin.ext
  match a with
  | ⟨0, _⟩ => show win0_0.index t (0 : Fin 2) * 2000 + 1 * r.val = p.val; omega
  | ⟨1, _⟩ => show win0_0.index t (1 : Fin 2) * 128 + 1 * q.val = q.val; omega

/-- Entry (r, 0) of the column's block t is entry (t·2000 + r, 0) of the column. -/
theorem emb0_1 (t : Fin cfg0.N) (r : Fin 2000) (p : Fin 100000) (hp : p.val = t.val * 2000 + r.val) :
    ((cfg0.win 1).blk t).view.emb (ix2 r (0 : Fin 1)) = ix2 p (0 : Fin 1) := by
  obtain ⟨-, -, e2, e3, -⟩ := idx0 t
  funext a; apply Fin.ext
  match a with
  | ⟨0, _⟩ => show win0_1.index t (0 : Fin 2) * 2000 + 1 * r.val = p.val; omega
  | ⟨1, _⟩ => show win0_1.index t (1 : Fin 2) * 1 + 1 * 0 = 0; omega

/-- Entry (r, q) of the output's block t is entry (t·2000 + r, q) of the output array. -/
theorem emb0_2 (t : Fin cfg0.N) (r : Fin 2000) (q : Fin 128) (p : Fin 100000) (hp : p.val = t.val * 2000 + r.val) :
    ((cfg0.win 2).blk t).view.emb (ix2 r q) = ix2 p q := by
  obtain ⟨-, -, -, -, e4, e5⟩ := idx0 t
  funext a; apply Fin.ext
  match a with
  | ⟨0, _⟩ => show win0_2.index t (0 : Fin 2) * 2000 + 1 * r.val = p.val; omega
  | ⟨1, _⟩ => show win0_2.index t (1 : Fin 2) * 128 + 1 * q.val = q.val; omega

/-- The input window's block at point t, read at (r, q), is the array the region finds at row t·2000 + r. -/
theorem iblk0_0_apply (c : Dev nD) (t : Fin cfg0.N) (r : Fin 2000) (q : Fin 128) (p : Fin 100000)
    (hp : p.val = t.val * 2000 + r.val) :
    (iblk0 V c 0 t : Vec Ideal S2000x128 .f32) (ix2 r q) = (V c main_arg0 : S100000x128.Idx → EReal) (ix2 p q) := by
  show (V c main_arg0 : S100000x128.Idx → EReal) (((cfg0.win 0).blk t).view.emb (ix2 r q)) = _
  rw [emb0_0 t r q p hp]

/-- The column window's block at point t, read at (r, 0), is the column at row t·2000 + r. -/
theorem iblk0_1_apply (c : Dev nD) (t : Fin cfg0.N) (r : Fin 2000) (p : Fin 100000)
    (hp : p.val = t.val * 2000 + r.val) :
    (iblk0 V c 1 t : Vec Ideal S2000x1 .f32) (ix2 r (0 : Fin 1)) = (V c main_v19 : S100000x1.Idx → EReal) (ix2 p (0 : Fin 1)) := by
  show (V c main_v19 : S100000x1.Idx → EReal) (((cfg0.win 1).blk t).view.emb (ix2 r (0 : Fin 1))) = _
  rw [emb0_1 t r p hp]

/-- What point t writes back is block t of the scaled rows of the arrays the region finds. -/
theorem flushed0_eq (c : Dev nD) (t : Fin cfg0.N) :
    (dat0 V c).flushed 2 t = ((cfg0.win 2).blk t).view.read (Elt Ideal) (scaledRows (V c main_arg0) (V c main_v19)) := by
  show (cfg0.win 2).cut (grid0.coords t) ((dat0 V c).after 2 t) = _
  rw [after0_2]
  unfold out0_2
  rw [View.canon_unit_zero hz]
  simp only [View.ld_unit_zero (S := S2000x128) hz, View.ld_unit_zero (S := S2000x1) hz]
  have key : ∀ (r : Fin 2000) (q : Fin 128),
      k0_pay1 (iblk0 V c 0 t) (iblk0 V c 1 t) (ix2 r q)
        = scaledRows (V c main_arg0) (V c main_v19) (((cfg0.win 2).blk t).view.emb (ix2 r q)) := by
    intro r q
    have hp : t.val * 2000 + r.val < 100000 :=
      row_lt (by have ht : t.val < cfg0.N := t.isLt; have hN : cfg0.N = 50 := N_0; omega) r
    rw [emb0_2 t r q ⟨t.val * 2000 + r.val, hp⟩ rfl, scaledRows_apply,
      k0_pay1_apply (iblk0 V c 0 t) (iblk0 V c 1 t) r q,
      iblk0_0_apply V c t r q ⟨t.val * 2000 + r.val, hp⟩ rfl, iblk0_1_apply V c t r ⟨t.val * 2000 + r.val, hp⟩ rfl]
  funext j
  have hj : (j : S2000x128.Idx) = ix2 (j 0 : Fin 2000) (j 1 : Fin 128) := eq_ix2 (n0 := 2000) (n1 := 128) j
  show k0_pay1 (iblk0 V c 0 t) (iblk0 V c 1 t) j
    = scaledRows (V c main_arg0) (V c main_v19) (((cfg0.win 2).blk t).view.emb j)
  rw [hj]
  exact key _ _

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v21).slice (win0_2.rect t)).set ↔ _
  rw [View.set_slice_whole, Rect.mem_set_unit]
  exact Iff.rfl

/-- Row p of the output array is written back by point p / 2000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- After region 0 its output array holds, at (p, q), the input's entry times the column's entry of row p. -/
theorem scale0_apply (c : Dev nD) (p : Fin 100000) (q : Fin 128) :
    (dat0 (F := Ideal) V c).arrAt 2 cfg0.N (ix2 p q)
      = HMul.hMul (α := EReal) (β := EReal) (V c main_arg0 (ix2 p q)) (V c main_v19 (ix2 p (0 : Fin 1))) := by
  rw [(dat0 V c).arrAt_eq_of_cover 2 (scaledRows (V c main_arg0) (V c main_v19)) (fun t _ => flushed0_eq V c t) cover0]
  rfl

/-! ## Region 2: the rows of `main_v27` scaled by the column `main_v19` -/

example : Pipeline.arrRef spec2 0 = main_v27 := rfl
example : Pipeline.arrRef spec2 1 = main_v19 := rfl
example : Pipeline.arrRef spec2 2 = main_v28 := rfl

/-- The body's value at entry (r, q) of its block: the row block's entry times the column block's entry of row r. -/
theorem k2_pay1_apply (x0 : Vec Ideal S2000x128 .f32) (x1 : Vec Ideal S2000x1 .f32) (r : Fin 2000) (q : Fin 128) :
    k2_pay1 x0 x1 (ix2 r q) = x0 (ix2 r q) * x1 (ix2 r (0 : Fin 1)) := by
  unfold k2_pay1
  simp only [shapeCast_self]
  exact scaled_apply x0 x1 _ r q

/-- The block index of each window at point t: block t of the rows, the one block of the columns. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Entry (r, q) of the input's block t is entry (t·2000 + r, q) of the array. -/
theorem emb2_0 (t : Fin cfg2.N) (r : Fin 2000) (q : Fin 128) (p : Fin 100000) (hp : p.val = t.val * 2000 + r.val) :
    ((cfg2.win 0).blk t).view.emb (ix2 r q) = ix2 p q := by
  obtain ⟨e0, e1, -⟩ := idx2 t
  funext a; apply Fin.ext
  match a with
  | ⟨0, _⟩ => show win2_0.index t (0 : Fin 2) * 2000 + 1 * r.val = p.val; omega
  | ⟨1, _⟩ => show win2_0.index t (1 : Fin 2) * 128 + 1 * q.val = q.val; omega

/-- Entry (r, 0) of the column's block t is entry (t·2000 + r, 0) of the column. -/
theorem emb2_1 (t : Fin cfg2.N) (r : Fin 2000) (p : Fin 100000) (hp : p.val = t.val * 2000 + r.val) :
    ((cfg2.win 1).blk t).view.emb (ix2 r (0 : Fin 1)) = ix2 p (0 : Fin 1) := by
  obtain ⟨-, -, e2, e3, -⟩ := idx2 t
  funext a; apply Fin.ext
  match a with
  | ⟨0, _⟩ => show win2_1.index t (0 : Fin 2) * 2000 + 1 * r.val = p.val; omega
  | ⟨1, _⟩ => show win2_1.index t (1 : Fin 2) * 1 + 1 * 0 = 0; omega

/-- Entry (r, q) of the output's block t is entry (t·2000 + r, q) of the output array. -/
theorem emb2_2 (t : Fin cfg2.N) (r : Fin 2000) (q : Fin 128) (p : Fin 100000) (hp : p.val = t.val * 2000 + r.val) :
    ((cfg2.win 2).blk t).view.emb (ix2 r q) = ix2 p q := by
  obtain ⟨-, -, -, -, e4, e5⟩ := idx2 t
  funext a; apply Fin.ext
  match a with
  | ⟨0, _⟩ => show win2_2.index t (0 : Fin 2) * 2000 + 1 * r.val = p.val; omega
  | ⟨1, _⟩ => show win2_2.index t (1 : Fin 2) * 128 + 1 * q.val = q.val; omega

/-- The input window's block at point t, read at (r, q), is the array the region finds at row t·2000 + r. -/
theorem iblk2_0_apply (c : Dev nD) (t : Fin cfg2.N) (r : Fin 2000) (q : Fin 128) (p : Fin 100000)
    (hp : p.val = t.val * 2000 + r.val) :
    (iblk2 V c 0 t : Vec Ideal S2000x128 .f32) (ix2 r q) = (V c main_v27 : S100000x128.Idx → EReal) (ix2 p q) := by
  show (V c main_v27 : S100000x128.Idx → EReal) (((cfg2.win 0).blk t).view.emb (ix2 r q)) = _
  rw [emb2_0 t r q p hp]

/-- The column window's block at point t, read at (r, 0), is the column at row t·2000 + r. -/
theorem iblk2_1_apply (c : Dev nD) (t : Fin cfg2.N) (r : Fin 2000) (p : Fin 100000)
    (hp : p.val = t.val * 2000 + r.val) :
    (iblk2 V c 1 t : Vec Ideal S2000x1 .f32) (ix2 r (0 : Fin 1)) = (V c main_v19 : S100000x1.Idx → EReal) (ix2 p (0 : Fin 1)) := by
  show (V c main_v19 : S100000x1.Idx → EReal) (((cfg2.win 1).blk t).view.emb (ix2 r (0 : Fin 1))) = _
  rw [emb2_1 t r p hp]

/-- What point t writes back is block t of the scaled rows of the arrays the region finds. -/
theorem flushed2_eq (c : Dev nD) (t : Fin cfg2.N) :
    (dat2 V c).flushed 2 t = ((cfg2.win 2).blk t).view.read (Elt Ideal) (scaledRows (V c main_v27) (V c main_v19)) := by
  show (cfg2.win 2).cut (grid2.coords t) ((dat2 V c).after 2 t) = _
  rw [after2_2]
  unfold out2_2
  rw [View.canon_unit_zero hz]
  simp only [View.ld_unit_zero (S := S2000x128) hz, View.ld_unit_zero (S := S2000x1) hz]
  have key : ∀ (r : Fin 2000) (q : Fin 128),
      k2_pay1 (iblk2 V c 0 t) (iblk2 V c 1 t) (ix2 r q)
        = scaledRows (V c main_v27) (V c main_v19) (((cfg2.win 2).blk t).view.emb (ix2 r q)) := by
    intro r q
    have hp : t.val * 2000 + r.val < 100000 :=
      row_lt (by have ht : t.val < cfg2.N := t.isLt; have hN : cfg2.N = 50 := N_2; omega) r
    rw [emb2_2 t r q ⟨t.val * 2000 + r.val, hp⟩ rfl, scaledRows_apply,
      k2_pay1_apply (iblk2 V c 0 t) (iblk2 V c 1 t) r q,
      iblk2_0_apply V c t r q ⟨t.val * 2000 + r.val, hp⟩ rfl, iblk2_1_apply V c t r ⟨t.val * 2000 + r.val, hp⟩ rfl]
  funext j
  have hj : (j : S2000x128.Idx) = ix2 (j 0 : Fin 2000) (j 1 : Fin 128) := eq_ix2 (n0 := 2000) (n1 := 128) j
  show k2_pay1 (iblk2 V c 0 t) (iblk2 V c 1 t) j
    = scaledRows (V c main_v27) (V c main_v19) (((cfg2.win 2).blk t).view.emb j)
  rw [hj]
  exact key _ _

/-- An index of the output array is in point t's block iff each coordinate is in the block's range on its axis. -/
theorem mem_blk2 (t : Fin cfg2.N) (i : S100000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v28).slice (win2_2.rect t)).set ↔ _
  rw [View.set_slice_whole, Rect.mem_set_unit]
  exact Iff.rfl

/-- Row p of the output array is written back by point p / 2000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 2000 :=
    ⟨⟨(i 0).val / 2000, by rw [show cfg2.N = 50 from N_2]; omega⟩, rfl⟩
  obtain ⟨-, -, -, -, e4, e5⟩ := idx2 t
  refine ⟨t, flush2_2 t, ?_⟩
  rw [mem_blk2]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 128 ≤ (i 1).val ∧ (i 1).val < win2_2.index t (1 : Fin 2) * 128 + 128
    omega

/-- After region 2 its output array holds, at (p, q), the input's entry times the column's entry of row p. -/
theorem scale2_apply (c : Dev nD) (p : Fin 100000) (q : Fin 128) :
    (dat2 (F := Ideal) V c).arrAt 2 cfg2.N (ix2 p q)
      = HMul.hMul (α := EReal) (β := EReal) (V c main_v27 (ix2 p q)) (V c main_v19 (ix2 p (0 : Fin 1))) := by
  rw [(dat2 V c).arrAt_eq_of_cover 2 (scaledRows (V c main_v27) (V c main_v19)) (fun t _ => flushed2_eq V c t) cover2]
  rfl

/-! ## Region 4: the rows of `main_v34` scaled by the column `main_v19` -/

example : Pipeline.arrRef spec4 0 = main_v34 := rfl
example : Pipeline.arrRef spec4 1 = main_v19 := rfl
example : Pipeline.arrRef spec4 2 = main_v35 := rfl

/-- The body's value at entry (r, q) of its block: the row block's entry times the column block's entry of row r. -/
theorem k4_pay1_apply (x0 : Vec Ideal S2000x128 .f32) (x1 : Vec Ideal S2000x1 .f32) (r : Fin 2000) (q : Fin 128) :
    k4_pay1 x0 x1 (ix2 r q) = x0 (ix2 r q) * x1 (ix2 r (0 : Fin 1)) := by
  unfold k4_pay1
  simp only [shapeCast_self]
  exact scaled_apply x0 x1 _ r q

/-- The block index of each window at point t: block t of the rows, the one block of the columns. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Entry (r, q) of the input's block t is entry (t·2000 + r, q) of the array. -/
theorem emb4_0 (t : Fin cfg4.N) (r : Fin 2000) (q : Fin 128) (p : Fin 100000) (hp : p.val = t.val * 2000 + r.val) :
    ((cfg4.win 0).blk t).view.emb (ix2 r q) = ix2 p q := by
  obtain ⟨e0, e1, -⟩ := idx4 t
  funext a; apply Fin.ext
  match a with
  | ⟨0, _⟩ => show win4_0.index t (0 : Fin 2) * 2000 + 1 * r.val = p.val; omega
  | ⟨1, _⟩ => show win4_0.index t (1 : Fin 2) * 128 + 1 * q.val = q.val; omega

/-- Entry (r, 0) of the column's block t is entry (t·2000 + r, 0) of the column. -/
theorem emb4_1 (t : Fin cfg4.N) (r : Fin 2000) (p : Fin 100000) (hp : p.val = t.val * 2000 + r.val) :
    ((cfg4.win 1).blk t).view.emb (ix2 r (0 : Fin 1)) = ix2 p (0 : Fin 1) := by
  obtain ⟨-, -, e2, e3, -⟩ := idx4 t
  funext a; apply Fin.ext
  match a with
  | ⟨0, _⟩ => show win4_1.index t (0 : Fin 2) * 2000 + 1 * r.val = p.val; omega
  | ⟨1, _⟩ => show win4_1.index t (1 : Fin 2) * 1 + 1 * 0 = 0; omega

/-- Entry (r, q) of the output's block t is entry (t·2000 + r, q) of the output array. -/
theorem emb4_2 (t : Fin cfg4.N) (r : Fin 2000) (q : Fin 128) (p : Fin 100000) (hp : p.val = t.val * 2000 + r.val) :
    ((cfg4.win 2).blk t).view.emb (ix2 r q) = ix2 p q := by
  obtain ⟨-, -, -, -, e4, e5⟩ := idx4 t
  funext a; apply Fin.ext
  match a with
  | ⟨0, _⟩ => show win4_2.index t (0 : Fin 2) * 2000 + 1 * r.val = p.val; omega
  | ⟨1, _⟩ => show win4_2.index t (1 : Fin 2) * 128 + 1 * q.val = q.val; omega

/-- The input window's block at point t, read at (r, q), is the array the region finds at row t·2000 + r. -/
theorem iblk4_0_apply (c : Dev nD) (t : Fin cfg4.N) (r : Fin 2000) (q : Fin 128) (p : Fin 100000)
    (hp : p.val = t.val * 2000 + r.val) :
    (iblk4 V c 0 t : Vec Ideal S2000x128 .f32) (ix2 r q) = (V c main_v34 : S100000x128.Idx → EReal) (ix2 p q) := by
  show (V c main_v34 : S100000x128.Idx → EReal) (((cfg4.win 0).blk t).view.emb (ix2 r q)) = _
  rw [emb4_0 t r q p hp]

/-- The column window's block at point t, read at (r, 0), is the column at row t·2000 + r. -/
theorem iblk4_1_apply (c : Dev nD) (t : Fin cfg4.N) (r : Fin 2000) (p : Fin 100000)
    (hp : p.val = t.val * 2000 + r.val) :
    (iblk4 V c 1 t : Vec Ideal S2000x1 .f32) (ix2 r (0 : Fin 1)) = (V c main_v19 : S100000x1.Idx → EReal) (ix2 p (0 : Fin 1)) := by
  show (V c main_v19 : S100000x1.Idx → EReal) (((cfg4.win 1).blk t).view.emb (ix2 r (0 : Fin 1))) = _
  rw [emb4_1 t r p hp]

/-- What point t writes back is block t of the scaled rows of the arrays the region finds. -/
theorem flushed4_eq (c : Dev nD) (t : Fin cfg4.N) :
    (dat4 V c).flushed 2 t = ((cfg4.win 2).blk t).view.read (Elt Ideal) (scaledRows (V c main_v34) (V c main_v19)) := by
  show (cfg4.win 2).cut (grid4.coords t) ((dat4 V c).after 2 t) = _
  rw [after4_2]
  unfold out4_2
  rw [View.canon_unit_zero hz]
  simp only [View.ld_unit_zero (S := S2000x128) hz, View.ld_unit_zero (S := S2000x1) hz]
  have key : ∀ (r : Fin 2000) (q : Fin 128),
      k4_pay1 (iblk4 V c 0 t) (iblk4 V c 1 t) (ix2 r q)
        = scaledRows (V c main_v34) (V c main_v19) (((cfg4.win 2).blk t).view.emb (ix2 r q)) := by
    intro r q
    have hp : t.val * 2000 + r.val < 100000 :=
      row_lt (by have ht : t.val < cfg4.N := t.isLt; have hN : cfg4.N = 50 := N_4; omega) r
    rw [emb4_2 t r q ⟨t.val * 2000 + r.val, hp⟩ rfl, scaledRows_apply,
      k4_pay1_apply (iblk4 V c 0 t) (iblk4 V c 1 t) r q,
      iblk4_0_apply V c t r q ⟨t.val * 2000 + r.val, hp⟩ rfl, iblk4_1_apply V c t r ⟨t.val * 2000 + r.val, hp⟩ rfl]
  funext j
  have hj : (j : S2000x128.Idx) = ix2 (j 0 : Fin 2000) (j 1 : Fin 128) := eq_ix2 (n0 := 2000) (n1 := 128) j
  show k4_pay1 (iblk4 V c 0 t) (iblk4 V c 1 t) j
    = scaledRows (V c main_v34) (V c main_v19) (((cfg4.win 2).blk t).view.emb j)
  rw [hj]
  exact key _ _

/-- An index of the output array is in point t's block iff each coordinate is in the block's range on its axis. -/
theorem mem_blk4 (t : Fin cfg4.N) (i : S100000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole main_v35).slice (win4_2.rect t)).set ↔ _
  rw [View.set_slice_whole, Rect.mem_set_unit]
  exact Iff.rfl

/-- Row p of the output array is written back by point p / 2000. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ : ∃ t : Fin cfg4.N, t.val = (i 0).val / 2000 :=
    ⟨⟨(i 0).val / 2000, by rw [show cfg4.N = 50 from N_4]; omega⟩, rfl⟩
  obtain ⟨-, -, -, -, e4, e5⟩ := idx4 t
  refine ⟨t, flush4_2 t, ?_⟩
  rw [mem_blk4]
  intro a
  match a with
  | ⟨0, _⟩ =>
    show win4_2.index t (0 : Fin 2) * 2000 ≤ (i 0).val ∧ (i 0).val < win4_2.index t (0 : Fin 2) * 2000 + 2000
    omega
  | ⟨1, _⟩ =>
    show win4_2.index t (1 : Fin 2) * 128 ≤ (i 1).val ∧ (i 1).val < win4_2.index t (1 : Fin 2) * 128 + 128
    omega

/-- After region 4 its output array holds, at (p, q), the input's entry times the column's entry of row p. -/
theorem scale4_apply (c : Dev nD) (p : Fin 100000) (q : Fin 128) :
    (dat4 (F := Ideal) V c).arrAt 2 cfg4.N (ix2 p q)
      = HMul.hMul (α := EReal) (β := EReal) (V c main_v34 (ix2 p q)) (V c main_v19 (ix2 p (0 : Fin 1))) := by
  rw [(dat4 V c).arrAt_eq_of_cover 2 (scaledRows (V c main_v34) (V c main_v19)) (fun t _ => flushed4_eq V c t) cover4]
  rfl

end Cert.KernelIdeal.RegionValue

end
-- ==== Proof.RegionDense.lean ====
/-
  The three matrix regions, each as a function of the arrays it finds at its entry.

  A matrix region walks 50 points; at point t it stages rows t·2000 … t·2000 + 1999 of a [100000, 128] array and
  of a [100000, 1] column, the whole [128, n] weight array and the whole [1, n] bias row, multiplies each staged row
  by its column entry, takes the product of the 2000 scaled rows with the weights into a zero accumulator, adds the
  bias row to every row — and, in the first two of the three regions, takes the positive part — and writes the 2000
  rows back to the same rows of its output array.  Entry (p, q) of what is written depends on row p of the first
  array, entry p of the column, column q of the weights and entry q of the bias only: the blocks written back are
  the row blocks of ONE function of the four arrays, and the 50 blocks cover all 100000 rows, so that function is
  what the output array holds after the region, whatever the four arrays were when the region was entered.
-/
import proofs.«173594_j60610578482005_1_alg».proof.Proof.Gen.KernelIdeal.Frame
import proofs.«173594_j60610578482005_1_alg».proof.Proof.RegionBlocks
import proofs.«173594_j60610578482005_1_alg».proof.Proof.LibDenseLayer

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen

/-! ## The two whole-array functions -/

/-- The dense layer of every row of `A` scaled by that row's entry of the column. -/
def denseRows {n : ℕ} (A : S100000x128.Idx → EReal) (col : S100000x1.Idx → EReal)
    (W : (⟨2, ![128, n]⟩ : Shape).Idx → EReal) (b : (⟨2, ![1, n]⟩ : Shape).Idx → EReal) :
    (⟨2, ![100000, n]⟩ : Shape).Idx → EReal :=
  fun i => Cert.DenseLayer.dense
    (fun k : Fin 128 => A (ix2 (i 0 : Fin 100000) k) * col (ix2 (i 0 : Fin 100000) (0 : Fin 1)))
    W (fun q => b (ix2 (0 : Fin 1) q)) (i 1 : Fin n)

/-- The affine map of every row of `A` scaled by that row's entry of the column. -/
def affineRows {n : ℕ} (A : S100000x128.Idx → EReal) (col : S100000x1.Idx → EReal)
    (W : (⟨2, ![128, n]⟩ : Shape).Idx → EReal) (b : (⟨2, ![1, n]⟩ : Shape).Idx → EReal) :
    (⟨2, ![100000, n]⟩ : Shape).Idx → EReal :=
  fun i => Cert.DenseLayer.affine
    (fun k : Fin 128 => A (ix2 (i 0 : Fin 100000) k) * col (ix2 (i 0 : Fin 100000) (0 : Fin 1)))
    W (fun q => b (ix2 (0 : Fin 1) q)) (i 1 : Fin n)

theorem denseRows_apply {n : ℕ} (A : S100000x128.Idx → EReal) (col : S100000x1.Idx → EReal)
    (W : (⟨2, ![128, n]⟩ : Shape).Idx → EReal) (b : (⟨2, ![1, n]⟩ : Shape).Idx → EReal) (p : Fin 100000) (q : Fin n) :
    denseRows A col W b (ix2 p q) = Cert.DenseLayer.dense
      (fun k : Fin 128 => A (ix2 p k) * col (ix2 p (0 : Fin 1))) W (fun q => b (ix2 (0 : Fin 1) q)) q := rfl

theorem affineRows_apply {n : ℕ} (A : S100000x128.Idx → EReal) (col : S100000x1.Idx → EReal)
    (W : (⟨2, ![128, n]⟩ : Shape).Idx → EReal) (b : (⟨2, ![1, n]⟩ : Shape).Idx → EReal) (p : Fin 100000) (q : Fin n) :
    affineRows A col W b (ix2 p q) = Cert.DenseLayer.affine
      (fun k : Fin 128 => A (ix2 p k) * col (ix2 p (0 : Fin 1))) W (fun q => b (ix2 (0 : Fin 1) q)) q := rfl

/-! ## The bodies at an entry of their block -/

/-- The dense body at entry (r, q) of its block: the dense layer of row r of the row block scaled by the column
    block's entry of row r. -/
theorem k1_pay1_apply (x0 : Vec Ideal S2000x128 .f32) (x1 : Vec Ideal S2000x1 .f32) (x2 : Vec Ideal S128x128 .f32)
    (x3 : Vec Ideal S1x128 .f32) (r : Fin 2000) (q : Fin 128) :
    k1_pay1 x0 x1 x2 x3 (ix2 r q)
      = Cert.DenseLayer.dense (fun k : Fin 128 => x0 (ix2 r k) * x1 (ix2 r (0 : Fin 1))) x2
          (fun q => x3 (ix2 (0 : Fin 1) q)) q := by
  unfold k1_pay1
  simp only [shapeCast_self]
  refine (Cert.DenseLayer.tpu_dense_apply dot_S2000x128_S128x128_S2000x128_1_0_0_1_n_n_wf broadcasts_S1x128_S2000x128
    _ _ x3 r q).trans ?_
  exact congrArg (fun z => Cert.DenseLayer.dense z x2 (fun q => x3 (ix2 (0 : Fin 1) q)) q)
    (funext fun k => scaled_apply x0 x1 broadcasts_S2000x1_S2000x128 r k)

/-- The second dense region's body is the first's. -/
theorem k3_pay1_eq : @k3_pay1 Ideal _ = @k1_pay1 Ideal _ := rfl

/-- The affine body at entry (r, q) of its block. -/
theorem k5_pay1_apply (x0 : Vec Ideal S2000x128 .f32) (x1 : Vec Ideal S2000x1 .f32) (x2 : Vec Ideal S128x64 .f32)
    (x3 : Vec Ideal S1x64 .f32) (r : Fin 2000) (q : Fin 64) :
    k5_pay1 x0 x1 x2 x3 (ix2 r q)
      = Cert.DenseLayer.affine (fun k : Fin 128 => x0 (ix2 r k) * x1 (ix2 r (0 : Fin 1))) x2
          (fun q => x3 (ix2 (0 : Fin 1) q)) q := by
  unfold k5_pay1
  simp only [shapeCast_self]
  refine (Cert.DenseLayer.tpu_affine_apply dot_S2000x128_S128x64_S2000x64_1_0_0_1_n_n_wf broadcasts_S1x64_S2000x64
    _ _ x3 r q).trans ?_
  exact congrArg (fun z => Cert.DenseLayer.affine z x2 (fun q => x3 (ix2 (0 : Fin 1) q)) q)
    (funext fun k => scaled_apply x0 x1 broadcasts_S2000x1_S2000x128 r k)

/-- The dense body on blocks that are rows p of the arrays: the whole-array function at (p, q). -/
theorem dense_point (A : S100000x128.Idx → EReal) (col : S100000x1.Idx → EReal) (W : S128x128.Idx → EReal)
    (b : S1x128.Idx → EReal) (x0 : Vec Ideal S2000x128 .f32) (x1 : Vec Ideal S2000x1 .f32)
    (x2 : Vec Ideal S128x128 .f32) (x3 : Vec Ideal S1x128 .f32) (r : Fin 2000) (q : Fin 128) (p : Fin 100000)
    (h0 : ∀ k : Fin 128, x0 (ix2 r k) = A (ix2 p k)) (h1 : x1 (ix2 r (0 : Fin 1)) = col (ix2 p (0 : Fin 1)))
    (h2 : x2 = W) (h3 : x3 = b) :
    k1_pay1 x0 x1 x2 x3 (ix2 r q) = denseRows A col W b (ix2 p q) := by
  subst h2 h3
  rw [k1_pay1_apply, denseRows_apply]
  simp only [h0, h1]

/-- The same for the second dense region. -/
theorem dense_point3 (A : S100000x128.Idx → EReal) (col : S100000x1.Idx → EReal) (W : S128x128.Idx → EReal)
    (b : S1x128.Idx → EReal) (x0 : Vec Ideal S2000x128 .f32) (x1 : Vec Ideal S2000x1 .f32)
    (x2 : Vec Ideal S128x128 .f32) (x3 : Vec Ideal S1x128 .f32) (r : Fin 2000) (q : Fin 128) (p : Fin 100000)
    (h0 : ∀ k : Fin 128, x0 (ix2 r k) = A (ix2 p k)) (h1 : x1 (ix2 r (0 : Fin 1)) = col (ix2 p (0 : Fin 1)))
    (h2 : x2 = W) (h3 : x3 = b) :
    k3_pay1 x0 x1 x2 x3 (ix2 r q) = denseRows A col W b (ix2 p q) := by
  rw [k3_pay1_eq]
  exact dense_point A col W b x0 x1 x2 x3 r q p h0 h1 h2 h3

/-- The affine body on blocks that are rows p of the arrays: the whole-array function at (p, q). -/
theorem affine_point (A : S100000x128.Idx → EReal) (col : S100000x1.Idx → EReal) (W : S128x64.Idx → EReal)
    (b : S1x64.Idx → EReal) (x0 : Vec Ideal S2000x128 .f32) (x1 : Vec Ideal S2000x1 .f32)
    (x2 : Vec Ideal S128x64 .f32) (x3 : Vec Ideal S1x64 .f32) (r : Fin 2000) (q : Fin 64) (p : Fin 100000)
    (h0 : ∀ k : Fin 128, x0 (ix2 r k) = A (ix2 p k)) (h1 : x1 (ix2 r (0 : Fin 1)) = col (ix2 p (0 : Fin 1)))
    (h2 : x2 = W) (h3 : x3 = b) :
    k5_pay1 x0 x1 x2 x3 (ix2 r q) = affineRows A col W b (ix2 p q) := by
  subst h2 h3
  rw [k5_pay1_apply, affineRows_apply]
  simp only [h0, h1]

variable (V : (c : Dev nD) → (b : Ref sig .tc) → Buf (Elt Ideal) ((c : Thread nD τ).loc b))

/-! ## Region 1: a dense layer of the rows of `main_v25` scaled by the column `main_v20` -/

example : Pipeline.arrRef spec1 0 = main_v25 := rfl
example : Pipeline.arrRef spec1 1 = main_v20 := rfl
example : Pipeline.arrRef spec1 2 = main_arg3 := rfl
example : Pipeline.arrRef spec1 3 = main_v26 := rfl
example : Pipeline.arrRef spec1 4 = main_v27 := rfl

/-- The block index of each window at point t: block t of the rows, the one block of the column, of the weights
    and of the bias row. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (r, k) of the input's block t is entry (t·2000 + r, k) of the array. -/
theorem emb1_0 (t : Fin cfg1.N) (r : Fin 2000) (k : Fin 128) (p : Fin 100000) (hp : p.val = t.val * 2000 + r.val) :
    ((cfg1.win 0).blk t).view.emb (ix2 r k) = ix2 p k := by
  obtain ⟨e0, e1, -⟩ := idx1 t
  funext a; apply Fin.ext
  match a with
  | ⟨0, _⟩ => show win1_0.index t (0 : Fin 2) * 2000 + 1 * r.val = p.val; omega
  | ⟨1, _⟩ => show win1_0.index t (1 : Fin 2) * 128 + 1 * k.val = k.val; omega

/-- Entry (r, 0) of the column's block t is entry (t·2000 + r, 0) of the column. -/
theorem emb1_1 (t : Fin cfg1.N) (r : Fin 2000) (p : Fin 100000) (hp : p.val = t.val * 2000 + r.val) :
    ((cfg1.win 1).blk t).view.emb (ix2 r (0 : Fin 1)) = ix2 p (0 : Fin 1) := by
  obtain ⟨-, -, e2, e3, -⟩ := idx1 t
  funext a; apply Fin.ext
  match a with
  | ⟨0, _⟩ => show win1_1.index t (0 : Fin 2) * 2000 + 1 * r.val = p.val; omega
  | ⟨1, _⟩ => show win1_1.index t (1 : Fin 2) * 1 + 1 * 0 = 0; omega

/-- The weights' one block is the whole weight array. -/
theorem emb1_2 (t : Fin cfg1.N) (y : S128x128.Idx) : ((cfg1.win 2).blk t).view.emb y = y := by
  obtain ⟨-, -, -, -, e4, e5, -⟩ := idx1 t
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The bias row's one block is the whole row. -/
theorem emb1_3 (t : Fin cfg1.N) (y : S1x128.Idx) : ((cfg1.win 3).blk t).view.emb y = y := by
  obtain ⟨-, -, -, -, -, -, e6, e7, -⟩ := idx1 t
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Entry (r, q) of the output's block t is entry (t·2000 + r, q) of the output array. -/
theorem emb1_4 (t : Fin cfg1.N) (r : Fin 2000) (q : Fin 128) (p : Fin 100000) (hp : p.val = t.val * 2000 + r.val) :
    ((cfg1.win 4).blk t).view.emb (ix2 r q) = ix2 p q := by
  obtain ⟨-, -, -, -, -, -, -, -, e8, e9⟩ := idx1 t
  funext a; apply Fin.ext
  match a with
  | ⟨0, _⟩ => show win1_4.index t (0 : Fin 2) * 2000 + 1 * r.val = p.val; omega
  | ⟨1, _⟩ => show win1_4.index t (1 : Fin 2) * 128 + 1 * q.val = q.val; omega

/-- The input window's block at point t, read at (r, k), is the array the region finds at row t·2000 + r. -/
theorem iblk1_0_apply (c : Dev nD) (t : Fin cfg1.N) (r : Fin 2000) (k : Fin 128) (p : Fin 100000)
    (hp : p.val = t.val * 2000 + r.val) :
    (iblk1 V c 0 t : Vec Ideal S2000x128 .f32) (ix2 r k) = (V c main_v25 : S100000x128.Idx → EReal) (ix2 p k) := by
  show (V c main_v25 : S100000x128.Idx → EReal) (((cfg1.win 0).blk t).view.emb (ix2 r k)) = _
  rw [emb1_0 t r k p hp]

/-- The column window's block at point t, read at (r, 0), is the column at row t·2000 + r. -/
theorem iblk1_1_apply (c : Dev nD) (t : Fin cfg1.N) (r : Fin 2000) (p : Fin 100000)
    (hp : p.val = t.val * 2000 + r.val) :
    (iblk1 V c 1 t : Vec Ideal S2000x1 .f32) (ix2 r (0 : Fin 1)) = (V c main_v20 : S100000x1.Idx → EReal) (ix2 p (0 : Fin 1)) := by
  show (V c main_v20 : S100000x1.Idx → EReal) (((cfg1.win 1).blk t).view.emb (ix2 r (0 : Fin 1))) = _
  rw [emb1_1 t r p hp]

/-- The weight window's block at every point is the weight array the region finds. -/
theorem iblk1_2_eq (c : Dev nD) (t : Fin cfg1.N) :
    (iblk1 V c 2 t : Vec Ideal S128x128 .f32) = (V c main_arg3 : S128x128.Idx → EReal) := by
  funext y
  show (V c main_arg3 : S128x128.Idx → EReal) (((cfg1.win 2).blk t).view.emb y) = _
  rw [emb1_2 t y]

/-- The bias window's block at every point is the bias row the region finds. -/
theorem iblk1_3_eq (c : Dev nD) (t : Fin cfg1.N) :
    (iblk1 V c 3 t : Vec Ideal S1x128 .f32) = (V c main_v26 : S1x128.Idx → EReal) := by
  funext y
  show (V c main_v26 : S1x128.Idx → EReal) (((cfg1.win 3).blk t).view.emb y) = _
  rw [emb1_3 t y]

/-- What point t writes back is block t of the dense layer of the scaled rows of the arrays the region finds. -/
theorem flushed1_eq (c : Dev nD) (t : Fin cfg1.N) :
    (dat1 V c).flushed 4 t = ((cfg1.win 4).blk t).view.read (Elt Ideal)
      (denseRows (V c main_v25) (V c main_v20) (V c main_arg3) (V c main_v26)) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz,
    View.ld_unit_zero (S := S128x128) hz, View.ld_unit_zero (S := S1x128) hz]
  have key : ∀ (r : Fin 2000) (q : Fin 128),
      k1_pay1 (iblk1 V c 0 t) (iblk1 V c 1 t) (iblk1 V c 2 t) (iblk1 V c 3 t) (ix2 r q)
        = denseRows (V c main_v25) (V c main_v20) (V c main_arg3) (V c main_v26) (((cfg1.win 4).blk t).view.emb (ix2 r q)) := by
    intro r q
    have hp : t.val * 2000 + r.val < 100000 :=
      row_lt (by have ht : t.val < cfg1.N := t.isLt; have hN : cfg1.N = 50 := N_1; omega) r
    rw [emb1_4 t r q ⟨t.val * 2000 + r.val, hp⟩ rfl]
    exact dense_point (V c main_v25) (V c main_v20) (V c main_arg3) (V c main_v26)
      (iblk1 V c 0 t) (iblk1 V c 1 t) (iblk1 V c 2 t) (iblk1 V c 3 t) r q ⟨t.val * 2000 + r.val, hp⟩
      (fun k => iblk1_0_apply V c t r k ⟨t.val * 2000 + r.val, hp⟩ rfl)
      (iblk1_1_apply V c t r ⟨t.val * 2000 + r.val, hp⟩ rfl) (iblk1_2_eq V c t) (iblk1_3_eq V c t)
  funext j
  have hj : (j : S2000x128.Idx) = ix2 (j 0 : Fin 2000) (j 1 : Fin 128) := eq_ix2 (n0 := 2000) (n1 := 128) j
  show k1_pay1 (iblk1 V c 0 t) (iblk1 V c 1 t) (iblk1 V c 2 t) (iblk1 V c 3 t) j
    = denseRows (V c main_v25) (V c main_v20) (V c main_arg3) (V c main_v26) (((cfg1.win 4).blk t).view.emb j)
  rw [hj]
  exact key _ _

/-- An index of the output array is in point t's block iff each coordinate is in the block's range on its axis. -/
theorem mem_blk1 (t : Fin cfg1.N) (i : S100000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v27).slice (win1_4.rect t)).set ↔ _
  rw [View.set_slice_whole, Rect.mem_set_unit]
  exact Iff.rfl

/-- Row p of the output array is written back by point p / 2000. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 2000 :=
    ⟨⟨(i 0).val / 2000, by rw [show cfg1.N = 50 from N_1]; omega⟩, rfl⟩
  obtain ⟨-, -, -, -, -, -, -, -, e8, e9⟩ := idx1 t
  refine ⟨t, flush1_4 t, ?_⟩
  rw [mem_blk1]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 128 ≤ (i 1).val ∧ (i 1).val < win1_4.index t (1 : Fin 2) * 128 + 128
    omega

/-- After region 1 its output array holds, at (p, q), the dense layer of row p of the input scaled by
    the column's entry of row p. -/
theorem dense1_apply (c : Dev nD) (p : Fin 100000) (q : Fin 128) :
    (dat1 (F := Ideal) V c).arrAt 4 cfg1.N (ix2 p q)
      = Cert.DenseLayer.dense
          (fun k : Fin 128 => HMul.hMul (α := EReal) (β := EReal) (V c main_v25 (ix2 p k)) (V c main_v20 (ix2 p (0 : Fin 1))))
          (V c main_arg3) (fun q => V c main_v26 (ix2 (0 : Fin 1) q)) q := by
  rw [(dat1 V c).arrAt_eq_of_cover 4 (denseRows (V c main_v25) (V c main_v20) (V c main_arg3) (V c main_v26))
    (fun t _ => flushed1_eq V c t) cover1]
  rfl

/-! ## Region 3: a dense layer of the rows of `main_v32` scaled by the column `main_v20` -/

example : Pipeline.arrRef spec3 0 = main_v32 := rfl
example : Pipeline.arrRef spec3 1 = main_v20 := rfl
example : Pipeline.arrRef spec3 2 = main_arg5 := rfl
example : Pipeline.arrRef spec3 3 = main_v33 := rfl
example : Pipeline.arrRef spec3 4 = main_v34 := rfl

/-- The block index of each window at point t: block t of the rows, the one block of the column, of the weights
    and of the bias row. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Entry (r, k) of the input's block t is entry (t·2000 + r, k) of the array. -/
theorem emb3_0 (t : Fin cfg3.N) (r : Fin 2000) (k : Fin 128) (p : Fin 100000) (hp : p.val = t.val * 2000 + r.val) :
    ((cfg3.win 0).blk t).view.emb (ix2 r k) = ix2 p k := by
  obtain ⟨e0, e1, -⟩ := idx3 t
  funext a; apply Fin.ext
  match a with
  | ⟨0, _⟩ => show win3_0.index t (0 : Fin 2) * 2000 + 1 * r.val = p.val; omega
  | ⟨1, _⟩ => show win3_0.index t (1 : Fin 2) * 128 + 1 * k.val = k.val; omega

/-- Entry (r, 0) of the column's block t is entry (t·2000 + r, 0) of the column. -/
theorem emb3_1 (t : Fin cfg3.N) (r : Fin 2000) (p : Fin 100000) (hp : p.val = t.val * 2000 + r.val) :
    ((cfg3.win 1).blk t).view.emb (ix2 r (0 : Fin 1)) = ix2 p (0 : Fin 1) := by
  obtain ⟨-, -, e2, e3, -⟩ := idx3 t
  funext a; apply Fin.ext
  match a with
  | ⟨0, _⟩ => show win3_1.index t (0 : Fin 2) * 2000 + 1 * r.val = p.val; omega
  | ⟨1, _⟩ => show win3_1.index t (1 : Fin 2) * 1 + 1 * 0 = 0; omega

/-- The weights' one block is the whole weight array. -/
theorem emb3_2 (t : Fin cfg3.N) (y : S128x128.Idx) : ((cfg3.win 2).blk t).view.emb y = y := by
  obtain ⟨-, -, -, -, e4, e5, -⟩ := idx3 t
  funext a; apply Fin.ext
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- The bias row's one block is the whole row. -/
theorem emb3_3 (t : Fin cfg3.N) (y : S1x128.Idx) : ((cfg3.win 3).blk t).view.emb y = y := by
  obtain ⟨-, -, -, -, -, -, e6, e7, -⟩ := idx3 t
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Entry (r, q) of the output's block t is entry (t·2000 + r, q) of the output array. -/
theorem emb3_4 (t : Fin cfg3.N) (r : Fin 2000) (q : Fin 128) (p : Fin 100000) (hp : p.val = t.val * 2000 + r.val) :
    ((cfg3.win 4).blk t).view.emb (ix2 r q) = ix2 p q := by
  obtain ⟨-, -, -, -, -, -, -, -, e8, e9⟩ := idx3 t
  funext a; apply Fin.ext
  match a with
  | ⟨0, _⟩ => show win3_4.index t (0 : Fin 2) * 2000 + 1 * r.val = p.val; omega
  | ⟨1, _⟩ => show win3_4.index t (1 : Fin 2) * 128 + 1 * q.val = q.val; omega

/-- The input window's block at point t, read at (r, k), is the array the region finds at row t·2000 + r. -/
theorem iblk3_0_apply (c : Dev nD) (t : Fin cfg3.N) (r : Fin 2000) (k : Fin 128) (p : Fin 100000)
    (hp : p.val = t.val * 2000 + r.val) :
    (iblk3 V c 0 t : Vec Ideal S2000x128 .f32) (ix2 r k) = (V c main_v32 : S100000x128.Idx → EReal) (ix2 p k) := by
  show (V c main_v32 : S100000x128.Idx → EReal) (((cfg3.win 0).blk t).view.emb (ix2 r k)) = _
  rw [emb3_0 t r k p hp]

/-- The column window's block at point t, read at (r, 0), is the column at row t·2000 + r. -/
theorem iblk3_1_apply (c : Dev nD) (t : Fin cfg3.N) (r : Fin 2000) (p : Fin 100000)
    (hp : p.val = t.val * 2000 + r.val) :
    (iblk3 V c 1 t : Vec Ideal S2000x1 .f32) (ix2 r (0 : Fin 1)) = (V c main_v20 : S100000x1.Idx → EReal) (ix2 p (0 : Fin 1)) := by
  show (V c main_v20 : S100000x1.Idx → EReal) (((cfg3.win 1).blk t).view.emb (ix2 r (0 : Fin 1))) = _
  rw [emb3_1 t r p hp]

/-- The weight window's block at every point is the weight array the region finds. -/
theorem iblk3_2_eq (c : Dev nD) (t : Fin cfg3.N) :
    (iblk3 V c 2 t : Vec Ideal S128x128 .f32) = (V c main_arg5 : S128x128.Idx → EReal) := by
  funext y
  show (V c main_arg5 : S128x128.Idx → EReal) (((cfg3.win 2).blk t).view.emb y) = _
  rw [emb3_2 t y]

/-- The bias window's block at every point is the bias row the region finds. -/
theorem iblk3_3_eq (c : Dev nD) (t : Fin cfg3.N) :
    (iblk3 V c 3 t : Vec Ideal S1x128 .f32) = (V c main_v33 : S1x128.Idx → EReal) := by
  funext y
  show (V c main_v33 : S1x128.Idx → EReal) (((cfg3.win 3).blk t).view.emb y) = _
  rw [emb3_3 t y]

/-- What point t writes back is block t of the dense layer of the scaled rows of the arrays the region finds. -/
theorem flushed3_eq (c : Dev nD) (t : Fin cfg3.N) :
    (dat3 V c).flushed 4 t = ((cfg3.win 4).blk t).view.read (Elt Ideal)
      (denseRows (V c main_v32) (V c main_v20) (V c main_arg5) (V c main_v33)) := by
  show (cfg3.win 4).cut (grid3.coords t) ((dat3 V c).after 4 t) = _
  rw [after3_4]
  unfold out3_4
  rw [View.canon_unit_zero hz]
  simp only [View.ld_unit_zero (S := S2000x128) hz, View.ld_unit_zero (S := S2000x1) hz,
    View.ld_unit_zero (S := S128x128) hz, View.ld_unit_zero (S := S1x128) hz]
  have key : ∀ (r : Fin 2000) (q : Fin 128),
      k3_pay1 (iblk3 V c 0 t) (iblk3 V c 1 t) (iblk3 V c 2 t) (iblk3 V c 3 t) (ix2 r q)
        = denseRows (V c main_v32) (V c main_v20) (V c main_arg5) (V c main_v33) (((cfg3.win 4).blk t).view.emb (ix2 r q)) := by
    intro r q
    have hp : t.val * 2000 + r.val < 100000 :=
      row_lt (by have ht : t.val < cfg3.N := t.isLt; have hN : cfg3.N = 50 := N_3; omega) r
    rw [emb3_4 t r q ⟨t.val * 2000 + r.val, hp⟩ rfl]
    exact dense_point3 (V c main_v32) (V c main_v20) (V c main_arg5) (V c main_v33)
      (iblk3 V c 0 t) (iblk3 V c 1 t) (iblk3 V c 2 t) (iblk3 V c 3 t) r q ⟨t.val * 2000 + r.val, hp⟩
      (fun k => iblk3_0_apply V c t r k ⟨t.val * 2000 + r.val, hp⟩ rfl)
      (iblk3_1_apply V c t r ⟨t.val * 2000 + r.val, hp⟩ rfl) (iblk3_2_eq V c t) (iblk3_3_eq V c t)
  funext j
  have hj : (j : S2000x128.Idx) = ix2 (j 0 : Fin 2000) (j 1 : Fin 128) := eq_ix2 (n0 := 2000) (n1 := 128) j
  show k3_pay1 (iblk3 V c 0 t) (iblk3 V c 1 t) (iblk3 V c 2 t) (iblk3 V c 3 t) j
    = denseRows (V c main_v32) (V c main_v20) (V c main_arg5) (V c main_v33) (((cfg3.win 4).blk t).view.emb j)
  rw [hj]
  exact key _ _

/-- An index of the output array is in point t's block iff each coordinate is in the block's range on its axis. -/
theorem mem_blk3 (t : Fin cfg3.N) (i : S100000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v34).slice (win3_4.rect t)).set ↔ _
  rw [View.set_slice_whole, Rect.mem_set_unit]
  exact Iff.rfl

/-- Row p of the output array is written back by point p / 2000. -/
theorem cover3 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ : ∃ t : Fin cfg3.N, t.val = (i 0).val / 2000 :=
    ⟨⟨(i 0).val / 2000, by rw [show cfg3.N = 50 from N_3]; omega⟩, rfl⟩
  obtain ⟨-, -, -, -, -, -, -, -, e8, e9⟩ := idx3 t
  refine ⟨t, flush3_4 t, ?_⟩
  rw [mem_blk3]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 128 ≤ (i 1).val ∧ (i 1).val < win3_4.index t (1 : Fin 2) * 128 + 128
    omega

/-- After region 3 its output array holds, at (p, q), the dense layer of row p of the input scaled by
    the column's entry of row p. -/
theorem dense3_apply (c : Dev nD) (p : Fin 100000) (q : Fin 128) :
    (dat3 (F := Ideal) V c).arrAt 4 cfg3.N (ix2 p q)
      = Cert.DenseLayer.dense
          (fun k : Fin 128 => HMul.hMul (α := EReal) (β := EReal) (V c main_v32 (ix2 p k)) (V c main_v20 (ix2 p (0 : Fin 1))))
          (V c main_arg5) (fun q => V c main_v33 (ix2 (0 : Fin 1) q)) q := by
  rw [(dat3 V c).arrAt_eq_of_cover 4 (denseRows (V c main_v32) (V c main_v20) (V c main_arg5) (V c main_v33))
    (fun t _ => flushed3_eq V c t) cover3]
  rfl

/-! ## Region 5: an affine map of the rows of `main_v39` scaled by the column `main_v20` -/

example : Pipeline.arrRef spec5 0 = main_v39 := rfl
example : Pipeline.arrRef spec5 1 = main_v20 := rfl
example : Pipeline.arrRef spec5 2 = main_arg7 := rfl
example : Pipeline.arrRef spec5 3 = main_v40 := rfl
example : Pipeline.arrRef spec5 4 = main_v41 := rfl

/-- The block index of each window at point t: block t of the rows, the one block of the column, of the weights
    and of the bias row. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Entry (r, k) of the input's block t is entry (t·2000 + r, k) of the array. -/
theorem emb5_0 (t : Fin cfg5.N) (r : Fin 2000) (k : Fin 128) (p : Fin 100000) (hp : p.val = t.val * 2000 + r.val) :
    ((cfg5.win 0).blk t).view.emb (ix2 r k) = ix2 p k := by
  obtain ⟨e0, e1, -⟩ := idx5 t
  funext a; apply Fin.ext
  match a with
  | ⟨0, _⟩ => show win5_0.index t (0 : Fin 2) * 2000 + 1 * r.val = p.val; omega
  | ⟨1, _⟩ => show win5_0.index t (1 : Fin 2) * 128 + 1 * k.val = k.val; omega

/-- Entry (r, 0) of the column's block t is entry (t·2000 + r, 0) of the column. -/
theorem emb5_1 (t : Fin cfg5.N) (r : Fin 2000) (p : Fin 100000) (hp : p.val = t.val * 2000 + r.val) :
    ((cfg5.win 1).blk t).view.emb (ix2 r (0 : Fin 1)) = ix2 p (0 : Fin 1) := by
  obtain ⟨-, -, e2, e3, -⟩ := idx5 t
  funext a; apply Fin.ext
  match a with
  | ⟨0, _⟩ => show win5_1.index t (0 : Fin 2) * 2000 + 1 * r.val = p.val; omega
  | ⟨1, _⟩ => show win5_1.index t (1 : Fin 2) * 1 + 1 * 0 = 0; omega

/-- The weights' one block is the whole weight array. -/
theorem emb5_2 (t : Fin cfg5.N) (y : S128x64.Idx) : ((cfg5.win 2).blk t).view.emb y = y := by
  obtain ⟨-, -, -, -, e4, e5, -⟩ := idx5 t
  funext a; apply Fin.ext
  match a with
  | ⟨0, _⟩ => show win5_2.index t (0 : Fin 2) * 128 + 1 * (y 0).val = (y 0).val; omega
  | ⟨1, _⟩ => show win5_2.index t (1 : Fin 2) * 64 + 1 * (y 1).val = (y 1).val; omega

/-- The bias row's one block is the whole row. -/
theorem emb5_3 (t : Fin cfg5.N) (y : S1x64.Idx) : ((cfg5.win 3).blk t).view.emb y = y := by
  obtain ⟨-, -, -, -, -, -, e6, e7, -⟩ := idx5 t
  funext a; apply Fin.ext
  match a with
  | ⟨0, _⟩ => show win5_3.index t (0 : Fin 2) * 1 + 1 * (y 0).val = (y 0).val; omega
  | ⟨1, _⟩ => show win5_3.index t (1 : Fin 2) * 64 + 1 * (y 1).val = (y 1).val; omega

/-- Entry (r, q) of the output's block t is entry (t·2000 + r, q) of the output array. -/
theorem emb5_4 (t : Fin cfg5.N) (r : Fin 2000) (q : Fin 64) (p : Fin 100000) (hp : p.val = t.val * 2000 + r.val) :
    ((cfg5.win 4).blk t).view.emb (ix2 r q) = ix2 p q := by
  obtain ⟨-, -, -, -, -, -, -, -, e8, e9⟩ := idx5 t
  funext a; apply Fin.ext
  match a with
  | ⟨0, _⟩ => show win5_4.index t (0 : Fin 2) * 2000 + 1 * r.val = p.val; omega
  | ⟨1, _⟩ => show win5_4.index t (1 : Fin 2) * 64 + 1 * q.val = q.val; omega

/-- The input window's block at point t, read at (r, k), is the array the region finds at row t·2000 + r. -/
theorem iblk5_0_apply (c : Dev nD) (t : Fin cfg5.N) (r : Fin 2000) (k : Fin 128) (p : Fin 100000)
    (hp : p.val = t.val * 2000 + r.val) :
    (iblk5 V c 0 t : Vec Ideal S2000x128 .f32) (ix2 r k) = (V c main_v39 : S100000x128.Idx → EReal) (ix2 p k) := by
  show (V c main_v39 : S100000x128.Idx → EReal) (((cfg5.win 0).blk t).view.emb (ix2 r k)) = _
  rw [emb5_0 t r k p hp]

/-- The column window's block at point t, read at (r, 0), is the column at row t·2000 + r. -/
theorem iblk5_1_apply (c : Dev nD) (t : Fin cfg5.N) (r : Fin 2000) (p : Fin 100000)
    (hp : p.val = t.val * 2000 + r.val) :
    (iblk5 V c 1 t : Vec Ideal S2000x1 .f32) (ix2 r (0 : Fin 1)) = (V c main_v20 : S100000x1.Idx → EReal) (ix2 p (0 : Fin 1)) := by
  show (V c main_v20 : S100000x1.Idx → EReal) (((cfg5.win 1).blk t).view.emb (ix2 r (0 : Fin 1))) = _
  rw [emb5_1 t r p hp]

/-- The weight window's block at every point is the weight array the region finds. -/
theorem iblk5_2_eq (c : Dev nD) (t : Fin cfg5.N) :
    (iblk5 V c 2 t : Vec Ideal S128x64 .f32) = (V c main_arg7 : S128x64.Idx → EReal) := by
  funext y
  show (V c main_arg7 : S128x64.Idx → EReal) (((cfg5.win 2).blk t).view.emb y) = _
  rw [emb5_2 t y]

/-- The bias window's block at every point is the bias row the region finds. -/
theorem iblk5_3_eq (c : Dev nD) (t : Fin cfg5.N) :
    (iblk5 V c 3 t : Vec Ideal S1x64 .f32) = (V c main_v40 : S1x64.Idx → EReal) := by
  funext y
  show (V c main_v40 : S1x64.Idx → EReal) (((cfg5.win 3).blk t).view.emb y) = _
  rw [emb5_3 t y]

/-- What point t writes back is block t of the affine map of the scaled rows of the arrays the region finds. -/
theorem flushed5_eq (c : Dev nD) (t : Fin cfg5.N) :
    (dat5 V c).flushed 4 t = ((cfg5.win 4).blk t).view.read (Elt Ideal)
      (affineRows (V c main_v39) (V c main_v20) (V c main_arg7) (V c main_v40)) := by
  show (cfg5.win 4).cut (grid5.coords t) ((dat5 V c).after 4 t) = _
  rw [after5_4]
  unfold out5_4
  rw [View.canon_unit_zero hz]
  simp only [View.ld_unit_zero (S := S2000x128) hz, View.ld_unit_zero (S := S2000x1) hz,
    View.ld_unit_zero (S := S128x64) hz, View.ld_unit_zero (S := S1x64) hz]
  have key : ∀ (r : Fin 2000) (q : Fin 64),
      k5_pay1 (iblk5 V c 0 t) (iblk5 V c 1 t) (iblk5 V c 2 t) (iblk5 V c 3 t) (ix2 r q)
        = affineRows (V c main_v39) (V c main_v20) (V c main_arg7) (V c main_v40) (((cfg5.win 4).blk t).view.emb (ix2 r q)) := by
    intro r q
    have hp : t.val * 2000 + r.val < 100000 :=
      row_lt (by have ht : t.val < cfg5.N := t.isLt; have hN : cfg5.N = 50 := N_5; omega) r
    rw [emb5_4 t r q ⟨t.val * 2000 + r.val, hp⟩ rfl]
    exact affine_point (V c main_v39) (V c main_v20) (V c main_arg7) (V c main_v40)
      (iblk5 V c 0 t) (iblk5 V c 1 t) (iblk5 V c 2 t) (iblk5 V c 3 t) r q ⟨t.val * 2000 + r.val, hp⟩
      (fun k => iblk5_0_apply V c t r k ⟨t.val * 2000 + r.val, hp⟩ rfl)
      (iblk5_1_apply V c t r ⟨t.val * 2000 + r.val, hp⟩ rfl) (iblk5_2_eq V c t) (iblk5_3_eq V c t)
  funext j
  have hj : (j : S2000x64.Idx) = ix2 (j 0 : Fin 2000) (j 1 : Fin 64) := eq_ix2 (n0 := 2000) (n1 := 64) j
  show k5_pay1 (iblk5 V c 0 t) (iblk5 V c 1 t) (iblk5 V c 2 t) (iblk5 V c 3 t) j
    = affineRows (V c main_v39) (V c main_v20) (V c main_arg7) (V c main_v40) (((cfg5.win 4).blk t).view.emb j)
  rw [hj]
  exact key _ _

/-- An index of the output array is in point t's block iff each coordinate is in the block's range on its axis. -/
theorem mem_blk5 (t : Fin cfg5.N) (i : S100000x64.Idx) :
    i ∈ ((cfg5.win 4).blk t).view.set ↔ ∀ a : Fin 2, win5_4.index t a * S2000x64.size a ≤ (i a).val
      ∧ (i a).val < win5_4.index t a * S2000x64.size a + S2000x64.size a := by
  show i ∈ ((View.whole main_v41).slice (win5_4.rect t)).set ↔ _
  rw [View.set_slice_whole, Rect.mem_set_unit]
  exact Iff.rfl

/-- Row p of the output array is written back by point p / 2000. -/
theorem cover5 (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ : ∃ t : Fin cfg5.N, t.val = (i 0).val / 2000 :=
    ⟨⟨(i 0).val / 2000, by rw [show cfg5.N = 50 from N_5]; omega⟩, rfl⟩
  obtain ⟨-, -, -, -, -, -, -, -, e8, e9⟩ := idx5 t
  refine ⟨t, flush5_4 t, ?_⟩
  rw [mem_blk5]
  intro a
  match a with
  | ⟨0, _⟩ =>
    show win5_4.index t (0 : Fin 2) * 2000 ≤ (i 0).val ∧ (i 0).val < win5_4.index t (0 : Fin 2) * 2000 + 2000
    omega
  | ⟨1, _⟩ =>
    show win5_4.index t (1 : Fin 2) * 64 ≤ (i 1).val ∧ (i 1).val < win5_4.index t (1 : Fin 2) * 64 + 64
    omega

/-- After region 5 its output array holds, at (p, q), the affine map of row p of the input scaled by
    the column's entry of row p. -/
theorem affine5_apply (c : Dev nD) (p : Fin 100000) (q : Fin 64) :
    (dat5 (F := Ideal) V c).arrAt 4 cfg5.N (ix2 p q)
      = Cert.DenseLayer.affine
          (fun k : Fin 128 => HMul.hMul (α := EReal) (β := EReal) (V c main_v39 (ix2 p k)) (V c main_v20 (ix2 p (0 : Fin 1))))
          (V c main_arg7) (fun q => V c main_v40 (ix2 (0 : Fin 1) q)) q := by
  rw [(dat5 V c).arrAt_eq_of_cover 4 (affineRows (V c main_v39) (V c main_v20) (V c main_arg7) (V c main_v40))
    (fun t _ => flushed5_eq V c t) cover5]
  rfl

end Cert.KernelIdeal.RegionValue

end
-- ==== Proof.KernelValue.lean ====
/-
  The kernel program's three results as the specification's functions of the launch contents.

  The buffer contents at each segment boundary are followed from the launch to the return.  Before the first region
  the two norm columns hold the degree norms of the source and destination numbers.  In each layer the scale region
  leaves the layer's input scaled row by row by the source norm; the host stretch takes a row per edge and adds the
  taken rows per destination; the dense region leaves, at (p, q), the dense layer (for the last layer the affine map)
  of row p scaled by node p's destination norm — which is the specification's layer at (p, q).  The first two
  layers' outputs are not written again, so they are still there at the return.
-/
import proofs.«173594_j60610578482005_1_alg».proof.Proof.KernelCarry
import proofs.«173594_j60610578482005_1_alg».proof.Proof.KernelHost
import proofs.«173594_j60610578482005_1_alg».proof.Proof.SpecApply
import proofs.«173594_j60610578482005_1_alg».proof.Proof.RegionScale
import proofs.«173594_j60610578482005_1_alg».proof.Proof.RegionDense
import proofs.«173594_j60610578482005_1_alg».proof.Proof.LibBroadcast

noncomputable section

namespace Cert.KernelIdeal.Value

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg) (c : Dev nD)

/-! ## The two degree norms, and their columns as the first region finds them -/

/-- The source norm, three stretches after it was chosen. -/
theorem norm_src : W4 m ρ c (Proc.devRef .tc main_v12) = Cert.Spec.norm (m ((c : Thread nD τ).loc main_arg1)) := by
  refine (Carry.k4 m ρ c main_v12 (by decide)).trans ?_
  refine (Carry.k3 m ρ c main_v12 (by decide)).trans ?_
  refine (HostValue.norm_src_choice (W1 m ρ c)).trans ?_
  have e8 : W1 m ρ c (Proc.devRef .tc main_v8) = _ := HostValue.deg_src_pos (W0 m ρ c)
  have e11 : W1 m ρ c (Proc.devRef .tc main_v11) = _ := HostValue.deg_src_rsqrt (W0 m ρ c)
  have e4 : W1 m ρ c (Proc.devRef .tc main_cst_4) = _ := HostValue.src_fill (W0 m ρ c)
  rw [e8, e11, e4]
  rfl

/-- The destination norm. -/
theorem norm_dst : W4 m ρ c (Proc.devRef .tc main_v18) = Cert.Spec.norm (m ((c : Thread nD τ).loc main_arg2)) := by
  refine (HostValue.norm_dst_choice (W3 m ρ c)).trans ?_
  have e14 : W3 m ρ c (Proc.devRef .tc main_v14) = _ := HostValue.deg_dst_pos (W2 m ρ c)
  have e17 : W3 m ρ c (Proc.devRef .tc main_v17) = _ := HostValue.deg_dst_rsqrt (W2 m ρ c)
  have e7 : W3 m ρ c (Proc.devRef .tc main_cst_7) = _ := HostValue.dst_fill (W2 m ρ c)
  have e6 : W2 m ρ c (Proc.devRef .tc main_v6) = Cert.Spec.degree (m ((c : Thread nD τ).loc main_arg2)) :=
    (Carry.k2 m ρ c main_v6 (by decide)).trans (HostValue.deg_dst (W0 m ρ c))
  rw [e14, e17, e7, e6]
  rfl

/-- The source-norm column at row p is node p's source norm. -/
theorem src_col5 (p : Fin 100000) : V5 m ρ c main_v19 (ix2 p (0 : Fin 1)) = Cert.Spec.norm (m ((c : Thread nD τ).loc main_arg1)) (ix1 p) := by
  have e : V5 m ρ c main_v19 = fun i => shapeCast S100000x1 (Cert.Spec.norm (m ((c : Thread nD τ).loc main_arg1))) shapeCasts_S100000_S100000x1 i := by
    refine (HostValue.src_col (W4 m ρ c)).trans ?_
    rw [norm_src m ρ c]
  rw [e]
  exact Cert.Layout.shapeCast_col_apply _ _ p

/-- The destination-norm column at row p is node p's destination norm. -/
theorem dst_col5 (p : Fin 100000) : V5 m ρ c main_v20 (ix2 p (0 : Fin 1)) = Cert.Spec.norm (m ((c : Thread nD τ).loc main_arg2)) (ix1 p) := by
  have e : V5 m ρ c main_v20 = fun i => shapeCast S100000x1 (Cert.Spec.norm (m ((c : Thread nD τ).loc main_arg2))) shapeCasts_S100000_S100000x1 i := by
    refine (HostValue.dst_col (W4 m ρ c)).trans ?_
    rw [norm_dst m ρ c]
  rw [e]
  exact Cert.Layout.shapeCast_col_apply _ _ p

/-! ## Layer 1 -/

/-- The scale region leaves the layer's input scaled row by row by the source norm. -/
theorem scaled1 : W6 m ρ c (Proc.devRef .tc main_v21) = Cert.Spec.scale (m ((c : Thread nD τ).loc main_arg0)) (Cert.Spec.norm (m ((c : Thread nD τ).loc main_arg1))) := by
  refine (W6_arr m ρ c 2).trans ?_
  refine Cert.Spec.ext2 _ _ fun p q => ?_
  refine (RegionValue.scale0_apply (V5 m ρ) c p q).trans ?_
  rw [Cert.Spec.scale_apply, src_col5 m ρ c p]
  have e : V5 m ρ c main_arg0 = (m ((c : Thread nD τ).loc main_arg0)) := Carry.arg0_5 m ρ c
  rw [e]

/-- One row of the scaled input per edge. -/
theorem taken1 : W7 m ρ c (Proc.devRef .tc main_v22) = Cert.Spec.take (Cert.Spec.scale (m ((c : Thread nD τ).loc main_arg0)) (Cert.Spec.norm (m ((c : Thread nD τ).loc main_arg1)))) (m ((c : Thread nD τ).loc main_arg1)) := by
  refine (HostValue.take1 (W6 m ρ c)).trans ?_
  rw [scaled1 m ρ c, Carry.arg1_6 m ρ c]

/-- The taken rows added per destination. -/
theorem gathered1 : W8 m ρ c (Proc.devRef .tc main_v25) = Cert.Spec.gathered (m ((c : Thread nD τ).loc main_arg0)) (m ((c : Thread nD τ).loc main_arg1)) (m ((c : Thread nD τ).loc main_arg2)) := by
  refine (HostValue.agg1 (W7 m ρ c)).trans ?_
  have e2 : W7 m ρ c (Proc.devRef .tc main_arg2) = (m ((c : Thread nD τ).loc main_arg2)) :=
    (Carry.k7 m ρ c main_arg2 (by decide)).trans (Carry.arg2_6 m ρ c)
  rw [taken1 m ρ c, e2]
  rfl

/-- The bias row at column q is the bias vector's entry q. -/
theorem bias1 (q : Fin 128) : V8 m ρ c main_v26 (ix2 (0 : Fin 1) q) = (m ((c : Thread nD τ).loc main_arg4)) (ix1 q) := by
  have e : V8 m ρ c main_v26 = fun i => shapeCast S1x128 (m ((c : Thread nD τ).loc main_arg4)) shapeCasts_S128_S1x128 i := by
    refine (HostValue.bias1 (W7 m ρ c)).trans ?_
    rw [show W7 m ρ c (Proc.devRef .tc main_arg4) = (m ((c : Thread nD τ).loc main_arg4)) from
      (Carry.k7 m ρ c main_arg4 (by decide)).trans (Carry.arg4_6 m ρ c)]
  rw [e]
  exact Cert.Layout.shapeCast_row_apply _ _ q

/-- The destination-norm column as this layer's dense region finds it. -/
theorem dst_col8 (p : Fin 100000) : V8 m ρ c main_v20 (ix2 p (0 : Fin 1)) = Cert.Spec.norm (m ((c : Thread nD τ).loc main_arg2)) (ix1 p) := by
  rw [show V8 m ρ c main_v20 = V5 m ρ c main_v20 from Carry.v20_8 m ρ c]
  exact dst_col5 m ρ c p

/-- The dense region leaves the specification's layer 1. -/
theorem out1_eq : W9 m ρ c (Proc.devRef .tc main_v27) = (Cert.Spec.out1 (m ((c : Thread nD τ).loc main_arg0)) (m ((c : Thread nD τ).loc main_arg1)) (m ((c : Thread nD τ).loc main_arg2)) (m ((c : Thread nD τ).loc main_arg3)) (m ((c : Thread nD τ).loc main_arg4))) := by
  refine (W9_arr m ρ c 4).trans ?_
  refine Cert.Spec.ext2 _ _ fun p q => ?_
  refine (RegionValue.dense1_apply (V8 m ρ) c p q).trans ?_
  unfold Cert.Spec.out1
  rw [Cert.Spec.relu_lin128_apply]
  have ea : V8 m ρ c main_v25 = Cert.Spec.gathered (m ((c : Thread nD τ).loc main_arg0)) (m ((c : Thread nD τ).loc main_arg1)) (m ((c : Thread nD τ).loc main_arg2)) := gathered1 m ρ c
  have ew : V8 m ρ c main_arg3 = (m ((c : Thread nD τ).loc main_arg3)) := Carry.arg3_8 m ρ c
  simp only [ea, ew, dst_col8 m ρ c, bias1 m ρ c]

/-! ## Layer 2 -/

/-- The source-norm column as this layer's scale region finds it. -/
theorem src_col9 (p : Fin 100000) : V9 m ρ c main_v19 (ix2 p (0 : Fin 1)) = Cert.Spec.norm (m ((c : Thread nD τ).loc main_arg1)) (ix1 p) := by
  rw [show V9 m ρ c main_v19 = V5 m ρ c main_v19 from Carry.v19_9 m ρ c]
  exact src_col5 m ρ c p

/-- The scale region leaves the layer's input scaled row by row by the source norm. -/
theorem scaled2 : W10 m ρ c (Proc.devRef .tc main_v28) = Cert.Spec.scale (Cert.Spec.out1 (m ((c : Thread nD τ).loc main_arg0)) (m ((c : Thread nD τ).loc main_arg1)) (m ((c : Thread nD τ).loc main_arg2)) (m ((c : Thread nD τ).loc main_arg3)) (m ((c : Thread nD τ).loc main_arg4))) (Cert.Spec.norm (m ((c : Thread nD τ).loc main_arg1))) := by
  refine (W10_arr m ρ c 2).trans ?_
  refine Cert.Spec.ext2 _ _ fun p q => ?_
  refine (RegionValue.scale2_apply (V9 m ρ) c p q).trans ?_
  rw [Cert.Spec.scale_apply, src_col9 m ρ c p]
  have e : V9 m ρ c main_v27 = (Cert.Spec.out1 (m ((c : Thread nD τ).loc main_arg0)) (m ((c : Thread nD τ).loc main_arg1)) (m ((c : Thread nD τ).loc main_arg2)) (m ((c : Thread nD τ).loc main_arg3)) (m ((c : Thread nD τ).loc main_arg4))) := out1_eq m ρ c
  rw [e]

/-- One row of the scaled input per edge. -/
theorem taken2 : W11 m ρ c (Proc.devRef .tc main_v29) = Cert.Spec.take (Cert.Spec.scale (Cert.Spec.out1 (m ((c : Thread nD τ).loc main_arg0)) (m ((c : Thread nD τ).loc main_arg1)) (m ((c : Thread nD τ).loc main_arg2)) (m ((c : Thread nD τ).loc main_arg3)) (m ((c : Thread nD τ).loc main_arg4))) (Cert.Spec.norm (m ((c : Thread nD τ).loc main_arg1)))) (m ((c : Thread nD τ).loc main_arg1)) := by
  refine (HostValue.take3 (W10 m ρ c)).trans ?_
  rw [scaled2 m ρ c, Carry.arg1_10 m ρ c]

/-- The taken rows added per destination. -/
theorem gathered2 : W12 m ρ c (Proc.devRef .tc main_v32) = Cert.Spec.gathered (Cert.Spec.out1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) := by
  refine (HostValue.agg3 (W11 m ρ c)).trans ?_
  have e2 : W11 m ρ c (Proc.devRef .tc main_arg2) = (m ((c : Thread nD τ).loc main_arg2)) :=
    (Carry.k11 m ρ c main_arg2 (by decide)).trans (Carry.arg2_10 m ρ c)
  rw [taken2 m ρ c, e2]
  rfl

/-- The bias row at column q is the bias vector's entry q. -/
theorem bias2 (q : Fin 128) : V12 m ρ c main_v33 (ix2 (0 : Fin 1) q) = (m ((c : Thread nD τ).loc main_arg6)) (ix1 q) := by
  have e : V12 m ρ c main_v33 = fun i => shapeCast S1x128 (m ((c : Thread nD τ).loc main_arg6)) shapeCasts_S128_S1x128 i := by
    refine (HostValue.bias3 (W11 m ρ c)).trans ?_
    rw [show W11 m ρ c (Proc.devRef .tc main_arg6) = (m ((c : Thread nD τ).loc main_arg6)) from
      (Carry.k11 m ρ c main_arg6 (by decide)).trans (Carry.arg6_10 m ρ c)]
  rw [e]
  exact Cert.Layout.shapeCast_row_apply _ _ q

/-- The destination-norm column as this layer's dense region finds it. -/
theorem dst_col12 (p : Fin 100000) : V12 m ρ c main_v20 (ix2 p (0 : Fin 1)) = Cert.Spec.norm (m ((c : Thread nD τ).loc main_arg2)) (ix1 p) := by
  rw [show V12 m ρ c main_v20 = V5 m ρ c main_v20 from Carry.v20_12 m ρ c]
  exact dst_col5 m ρ c p

/-- The dense region leaves the specification's layer 2. -/
theorem out2_eq : W13 m ρ c (Proc.devRef .tc main_v34) = (Cert.Spec.out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W13_arr m ρ c 4).trans ?_
  refine Cert.Spec.ext2 _ _ fun p q => ?_
  refine (RegionValue.dense3_apply (V12 m ρ) c p q).trans ?_
  unfold Cert.Spec.out2
  rw [Cert.Spec.relu_lin128_apply]
  have ea : V12 m ρ c main_v32 = Cert.Spec.gathered (Cert.Spec.out1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) := gathered2 m ρ c
  have ew : V12 m ρ c main_arg5 = (m ((c : Thread nD τ).loc main_arg5)) := Carry.arg5_12 m ρ c
  simp only [ea, ew, dst_col12 m ρ c, bias2 m ρ c]

/-! ## Layer 3 -/

/-- The source-norm column as this layer's scale region finds it. -/
theorem src_col13 (p : Fin 100000) : V13 m ρ c main_v19 (ix2 p (0 : Fin 1)) = Cert.Spec.norm (m ((c : Thread nD τ).loc main_arg1)) (ix1 p) := by
  rw [show V13 m ρ c main_v19 = V5 m ρ c main_v19 from Carry.v19_13 m ρ c]
  exact src_col5 m ρ c p

/-- The scale region leaves the layer's input scaled row by row by the source norm. -/
theorem scaled3 : W14 m ρ c (Proc.devRef .tc main_v35) = Cert.Spec.scale (Cert.Spec.out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.Spec.norm (m ((c : Thread nD τ).loc main_arg1))) := by
  refine (W14_arr m ρ c 2).trans ?_
  refine Cert.Spec.ext2 _ _ fun p q => ?_
  refine (RegionValue.scale4_apply (V13 m ρ) c p q).trans ?_
  rw [Cert.Spec.scale_apply, src_col13 m ρ c p]
  have e : V13 m ρ c main_v34 = (Cert.Spec.out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := out2_eq m ρ c
  rw [e]

/-- One row of the scaled input per edge. -/
theorem taken3 : W15 m ρ c (Proc.devRef .tc main_v36) = Cert.Spec.take (Cert.Spec.scale (Cert.Spec.out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.Spec.norm (m ((c : Thread nD τ).loc main_arg1)))) (m ((c : Thread nD τ).loc main_arg1)) := by
  refine (HostValue.take5 (W14 m ρ c)).trans ?_
  rw [scaled3 m ρ c, Carry.arg1_14 m ρ c]

/-- The taken rows added per destination. -/
theorem gathered3 : W16 m ρ c (Proc.devRef .tc main_v39) = Cert.Spec.gathered (Cert.Spec.out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) := by
  refine (HostValue.agg5 (W15 m ρ c)).trans ?_
  have e2 : W15 m ρ c (Proc.devRef .tc main_arg2) = (m ((c : Thread nD τ).loc main_arg2)) :=
    (Carry.k15 m ρ c main_arg2 (by decide)).trans (Carry.arg2_14 m ρ c)
  rw [taken3 m ρ c, e2]
  rfl

/-- The bias row at column q is the bias vector's entry q. -/
theorem bias3 (q : Fin 64) : V16 m ρ c main_v40 (ix2 (0 : Fin 1) q) = (m ((c : Thread nD τ).loc main_arg8)) (ix1 q) := by
  have e : V16 m ρ c main_v40 = fun i => shapeCast S1x64 (m ((c : Thread nD τ).loc main_arg8)) shapeCasts_S64_S1x64 i := by
    refine (HostValue.bias5 (W15 m ρ c)).trans ?_
    rw [show W15 m ρ c (Proc.devRef .tc main_arg8) = (m ((c : Thread nD τ).loc main_arg8)) from
      (Carry.k15 m ρ c main_arg8 (by decide)).trans (Carry.arg8_14 m ρ c)]
  rw [e]
  exact Cert.Layout.shapeCast_row_apply _ _ q

/-- The destination-norm column as this layer's dense region finds it. -/
theorem dst_col16 (p : Fin 100000) : V16 m ρ c main_v20 (ix2 p (0 : Fin 1)) = Cert.Spec.norm (m ((c : Thread nD τ).loc main_arg2)) (ix1 p) := by
  rw [show V16 m ρ c main_v20 = V5 m ρ c main_v20 from Carry.v20_16 m ρ c]
  exact dst_col5 m ρ c p

/-- The dense region leaves the specification's layer 3. -/
theorem out3_eq : W17 m ρ c (Proc.devRef .tc main_v41) = (Cert.Spec.out3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W17_arr m ρ c 4).trans ?_
  refine Cert.Spec.ext2 _ _ fun p q => ?_
  refine (RegionValue.affine5_apply (V16 m ρ) c p q).trans ?_
  unfold Cert.Spec.out3
  rw [Cert.Spec.lin64_apply]
  have ea : V16 m ρ c main_v39 = Cert.Spec.gathered (Cert.Spec.out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg2)) := gathered3 m ρ c
  have ew : V16 m ρ c main_arg7 = (m ((c : Thread nD τ).loc main_arg7)) := Carry.arg7_16 m ρ c
  simp only [ea, ew, dst_col16 m ρ c, bias3 m ρ c]

/-! ## The results at the return -/

theorem res1 : W17 m ρ c (Proc.devRef .tc main_v27) = (Cert.Spec.out1 (m ((c : Thread nD τ).loc main_arg0)) (m ((c : Thread nD τ).loc main_arg1)) (m ((c : Thread nD τ).loc main_arg2)) (m ((c : Thread nD τ).loc main_arg3)) (m ((c : Thread nD τ).loc main_arg4))) := (Carry.v27_17 m ρ c).trans (out1_eq m ρ c)
theorem res2 : W17 m ρ c (Proc.devRef .tc main_v34) = (Cert.Spec.out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := (Carry.v34_17 m ρ c).trans (out2_eq m ρ c)
theorem res3 : W17 m ρ c (Proc.devRef .tc main_v41) = (Cert.Spec.out3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := out3_eq m ρ c

end Cert.KernelIdeal.Value

end
-- ==== Proof.RefOps.lean ====
/-
  The reference program's host operations, as literal lists.

  The reference is a three-layer graph convolution written in host operations only: the two degree norms of the edge
  list (one over the edges' sources, one over their destinations: a count by scatter-add of ones, then the inverse
  square root of the count where it is positive and zero elsewhere), and per layer a scaling of the rows by the source
  norm, a gather of the rows along the edges' sources, a scatter-add of the gathered rows at the edges' destinations, a
  scaling of the rows by the destination norm, a dense layer (product with the weights plus the bias) and, in the first
  two layers, the rectifier.  The program's functions other than its entry function (the elementwise choice, the row
  gather with its index arithmetic, the rectifier) are written out at their call sites, each over the buffers that call
  names.  Four stretches in program order: the norms, then one stretch per layer; the whole line is their concatenation.
-/
import proofs.«173594_j60610578482005_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The degree norms: the out-degree and in-degree counts and, for each, the choice between the inverse square root and zero (32 operations, the two elementwise choices three each). -/
abbrev opsN : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg1 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v4 (broadcastInDim S100000 ![] bcast_S_S100000 : (⟨S_, .f32⟩ : BufTy).Contents (Elt F) → (⟨S100000, .f32⟩ : BufTy).Contents (Elt F)),
    unary main_arg2 main_v5 (broadcastInDim S1600000x1 ![0] bcast_S1600000_S1600000x1_0 : (⟨S1600000, .i32⟩ : BufTy).Contents (Elt F) → (⟨S1600000x1, .i32⟩ : BufTy).Contents (Elt F)),
    ternary main_v4 main_v5 main_v0 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x00000000#32),
    unary main_cst_2 main_v7 (broadcastInDim S100000 ![] bcast_S_S100000 : (⟨S_, .f32⟩ : BufTy).Contents (Elt F) → (⟨S100000, .f32⟩ : BufTy).Contents (Elt F)),
    binary main_v3 main_v7 main_v8 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32),
    unary main_cst_3 main_v9 (broadcastInDim S100000 ![] bcast_S_S100000 : (⟨S_, .f32⟩ : BufTy).Contents (Elt F) → (⟨S100000, .f32⟩ : BufTy).Contents (Elt F)),
    binary main_v3 main_v9 main_v10 (maximumf : (⟨S100000, .f32⟩ : BufTy).Contents (Elt F) → (⟨S100000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_cst_4 (constant S_ .f32 0x00000000#32),
    TRef.unary (.of main_cst_4 : TRef sig ⟨S_, .f32⟩) main_call0.v0 id,
    TRef.unary main_call0.v0 main_call0.v1 (broadcastInDim S100000 ![] bcast_S_S100000),
    TRef.ternary (.of main_v8 : TRef sig ⟨S100000, .i1⟩) (.of main_v11 : TRef sig ⟨S100000, .f32⟩) main_call0.v1 main_call0.v2 select,
    nullary main_cst_5 (constant S_ .f32 0x00000000#32),
    unary main_cst_5 main_v13 (broadcastInDim S100000 ![] bcast_S_S100000 : (⟨S_, .f32⟩ : BufTy).Contents (Elt F) → (⟨S100000, .f32⟩ : BufTy).Contents (Elt F)),
    binary main_v6 main_v13 main_v14 (cmpf .ogt : (⟨S100000, .f32⟩ : BufTy).Contents (Elt F) → (⟨S100000, .f32⟩ : BufTy).Contents (Elt F) → (⟨S100000, .i1⟩ : BufTy).Contents (Elt F)),
    nullary main_cst_6 (constant S_ .f32 0x3F800000#32),
    unary main_cst_6 main_v15 (broadcastInDim S100000 ![] bcast_S_S100000 : (⟨S_, .f32⟩ : BufTy).Contents (Elt F) → (⟨S100000, .f32⟩ : BufTy).Contents (Elt F)),
    binary main_v6 main_v15 main_v16 (maximumf : (⟨S100000, .f32⟩ : BufTy).Contents (Elt F) → (⟨S100000, .f32⟩ : BufTy).Contents (Elt F) → (⟨S100000, .f32⟩ : BufTy).Contents (Elt F)),
    unary main_v16 main_v17 (Host.rsqrt : (⟨S100000, .f32⟩ : BufTy).Contents (Elt F) → (⟨S100000, .f32⟩ : BufTy).Contents (Elt F)),
    nullary main_cst_7 (constant S_ .f32 0x00000000#32),
    TRef.unary (.of main_cst_7 : TRef sig ⟨S_, .f32⟩) main_call1.v0 id,
    TRef.unary main_call1.v0 main_call1.v1 (broadcastInDim S100000 ![] bcast_S_S100000),
    TRef.ternary (.of main_v14 : TRef sig ⟨S100000, .i1⟩) (.of main_v17 : TRef sig ⟨S100000, .f32⟩) main_call1.v1 main_call1.v2 select ]

/-- Layer one: rows scaled by the source norm, gathered along the sources (23 operations of index arithmetic, bounds test, gather and choice), summed at the destinations, scaled by the destination norm, the dense layer, the rectifier (40 operations). -/
abbrev opsA : List (HloOp τ sig (Elt F)) :=
  [ unary main_v12 main_v19 (broadcastInDim S100000x1 ![0] bcast_S100000_S100000x1_0 : (⟨S100000, .f32⟩ : BufTy).Contents (Elt F) → (⟨S100000x1, .f32⟩ : BufTy).Contents (Elt F)),
    unary main_v19 main_v20 (broadcastInDim S100000x128 ![0, 1] bcast_S100000x1_S100000x128_0_1 : (⟨S100000x1, .f32⟩ : BufTy).Contents (Elt F) → (⟨S100000x128, .f32⟩ : BufTy).Contents (Elt F)),
    binary main_arg0 main_v20 main_v21 (mulf : (⟨S100000x128, .f32⟩ : BufTy).Contents (Elt F) → (⟨S100000x128, .f32⟩ : BufTy).Contents (Elt F) → (⟨S100000x128, .f32⟩ : BufTy).Contents (Elt F)),
    TRef.nullary main_call2.c (constantI S_ 32 0#32),
    TRef.unary main_call2.c main_call2.v0 (broadcastInDim S1600000 ![] bcast_S_S1600000),
    TRef.binary (.of main_arg1 : TRef sig ⟨S1600000, .i32⟩) main_call2.v0 main_call2.v1 (cmpi .slt),
    TRef.nullary main_call2.c_0 (constantI S_ 32 100000#32),
    TRef.unary main_call2.c_0 main_call2.v2 (broadcastInDim S1600000 ![] bcast_S_S1600000),
    TRef.binary (.of main_arg1 : TRef sig ⟨S1600000, .i32⟩) main_call2.v2 main_call2.v3 addi,
    TRef.ternary main_call2.v1 main_call2.v3 (.of main_arg1 : TRef sig ⟨S1600000, .i32⟩) main_call2.call0.v0 select,
    TRef.unary main_call2.call0.v0 main_call2.v5 (broadcastInDim S1600000x1 ![0] bcast_S1600000_S1600000x1_0),
    TRef.nullary main_call2.c_1 (constantI S1 32 99999#32),
    TRef.nullary main_call2.c_2 (constantI S_ 32 0#32),
    TRef.unary main_call2.c_2 main_call2.v6 (broadcastInDim S1600000x1 ![] bcast_S_S1600000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S1600000x1 ![0, 1] bcast_S1x1_S1600000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S1600000x1_S1600000_d1 h_S_),
    TRef.binary (.of main_v21 : TRef sig ⟨S100000x128, .f32⟩) main_call2.v5 main_call2.v13 (fun x i => Host.gather gather_S100000x128_S1600000x1_S1600000x128_1_0_n_n_0_1_1128 x i),
    TRef.unary main_call2.v12 main_call2.v14 (broadcastInDim S1600000x128 ![0] bcast_S1600000_S1600000x128_0),
    TRef.nullary main_call2.cst (constant S_ .f32 0x7FC00000#32),
    TRef.unary main_call2.cst main_call2.v15 (broadcastInDim S1600000x128 ![] bcast_S_S1600000x128),
    TRef.ternary main_call2.v14 main_call2.v13 main_call2.v15 main_call2.v16 select,
    nullary main_cst_8 (constant S_ .f32 0x00000000#32),
    unary main_cst_8 main_v23 (broadcastInDim S100000x128 ![] bcast_S_S100000x128 : (⟨S_, .f32⟩ : BufTy).Contents (Elt F) → (⟨S100000x128, .f32⟩ : BufTy).Contents (Elt F)),
    unary main_arg2 main_v24 (broadcastInDim S1600000x1 ![0] bcast_S1600000_S1600000x1_0 : (⟨S1600000, .i32⟩ : BufTy).Contents (Elt F) → (⟨S1600000x1, .i32⟩ : BufTy).Contents (Elt F)),
    ternary main_v23 main_v24 main_v22 main_v25 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v18 main_v26 (broadcastInDim S100000x1 ![0] bcast_S100000_S100000x1_0 : (⟨S100000, .f32⟩ : BufTy).Contents (Elt F) → (⟨S100000x1, .f32⟩ : BufTy).Contents (Elt F)),
    unary main_v26 main_v27 (broadcastInDim S100000x128 ![0, 1] bcast_S100000x1_S100000x128_0_1 : (⟨S100000x1, .f32⟩ : BufTy).Contents (Elt F) → (⟨S100000x128, .f32⟩ : BufTy).Contents (Elt F)),
    binary main_v25 main_v27 main_v28 (mulf : (⟨S100000x128, .f32⟩ : BufTy).Contents (Elt F) → (⟨S100000x128, .f32⟩ : BufTy).Contents (Elt F) → (⟨S100000x128, .f32⟩ : BufTy).Contents (Elt F)),
    binary main_v28 main_arg3 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v29 main_v31 main_v32 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v32 : TRef sig ⟨S100000x128, .f32⟩) main_call3.v0 main_call3.v1 maximumf ]

/-- Layer two, on layer one's result: the same 40 operations over its own buffers. -/
abbrev opsB : List (HloOp τ sig (Elt F)) :=
  [ unary main_v12 main_v34 (broadcastInDim S100000x1 ![0] bcast_S100000_S100000x1_0 : (⟨S100000, .f32⟩ : BufTy).Contents (Elt F) → (⟨S100000x1, .f32⟩ : BufTy).Contents (Elt F)),
    unary main_v34 main_v35 (broadcastInDim S100000x128 ![0, 1] bcast_S100000x1_S100000x128_0_1 : (⟨S100000x1, .f32⟩ : BufTy).Contents (Elt F) → (⟨S100000x128, .f32⟩ : BufTy).Contents (Elt F)),
    binary main_v33 main_v35 main_v36 (mulf : (⟨S100000x128, .f32⟩ : BufTy).Contents (Elt F) → (⟨S100000x128, .f32⟩ : BufTy).Contents (Elt F) → (⟨S100000x128, .f32⟩ : BufTy).Contents (Elt F)),
    TRef.nullary main_call4.c (constantI S_ 32 0#32),
    TRef.unary main_call4.c main_call4.v0 (broadcastInDim S1600000 ![] bcast_S_S1600000),
    TRef.binary (.of main_arg1 : TRef sig ⟨S1600000, .i32⟩) main_call4.v0 main_call4.v1 (cmpi .slt),
    TRef.nullary main_call4.c_0 (constantI S_ 32 100000#32),
    TRef.unary main_call4.c_0 main_call4.v2 (broadcastInDim S1600000 ![] bcast_S_S1600000),
    TRef.binary (.of main_arg1 : TRef sig ⟨S1600000, .i32⟩) main_call4.v2 main_call4.v3 addi,
    TRef.ternary main_call4.v1 main_call4.v3 (.of main_arg1 : TRef sig ⟨S1600000, .i32⟩) main_call4.call0.v0 select,
    TRef.unary main_call4.call0.v0 main_call4.v5 (broadcastInDim S1600000x1 ![0] bcast_S1600000_S1600000x1_0),
    TRef.nullary main_call4.c_1 (constantI S1 32 99999#32),
    TRef.nullary main_call4.c_2 (constantI S_ 32 0#32),
    TRef.unary main_call4.c_2 main_call4.v6 (broadcastInDim S1600000x1 ![] bcast_S_S1600000x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S1600000x1 ![0, 1] bcast_S1x1_S1600000x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S1600000x1_S1600000_d1 h_S_),
    TRef.binary (.of main_v36 : TRef sig ⟨S100000x128, .f32⟩) main_call4.v5 main_call4.v13 (fun x i => Host.gather gather_S100000x128_S1600000x1_S1600000x128_1_0_n_n_0_1_1128 x i),
    TRef.unary main_call4.v12 main_call4.v14 (broadcastInDim S1600000x128 ![0] bcast_S1600000_S1600000x128_0),
    TRef.nullary main_call4.cst (constant S_ .f32 0x7FC00000#32),
    TRef.unary main_call4.cst main_call4.v15 (broadcastInDim S1600000x128 ![] bcast_S_S1600000x128),
    TRef.ternary main_call4.v14 main_call4.v13 main_call4.v15 main_call4.v16 select,
    nullary main_cst_9 (constant S_ .f32 0x00000000#32),
    unary main_cst_9 main_v38 (broadcastInDim S100000x128 ![] bcast_S_S100000x128 : (⟨S_, .f32⟩ : BufTy).Contents (Elt F) → (⟨S100000x128, .f32⟩ : BufTy).Contents (Elt F)),
    unary main_arg2 main_v39 (broadcastInDim S1600000x1 ![0] bcast_S1600000_S1600000x1_0 : (⟨S1600000, .i32⟩ : BufTy).Contents (Elt F) → (⟨S1600000x1, .i32⟩ : BufTy).Contents (Elt F)),
    ternary main_v38 main_v39 main_v37 main_v40 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v18 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x128 ![0, 1] bcast_S100000x1_S100000x128_0_1 : (⟨S100000x1, .f32⟩ : BufTy).Contents (Elt F) → (⟨S100000x128, .f32⟩ : BufTy).Contents (Elt F)),
    binary main_v40 main_v42 main_v43 (mulf : (⟨S100000x128, .f32⟩ : BufTy).Contents (Elt F) → (⟨S100000x128, .f32⟩ : BufTy).Contents (Elt F) → (⟨S100000x128, .f32⟩ : BufTy).Contents (Elt F)),
    binary main_v43 main_arg5 main_v44 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (.of main_v47 : TRef sig ⟨S100000x128, .f32⟩) main_call5.v0 main_call5.v1 maximumf ]

/-- Layer three, on layer two's result: the same without the rectifier (37 operations). -/
abbrev opsC : List (HloOp τ sig (Elt F)) :=
  [ unary main_v12 main_v49 (broadcastInDim S100000x1 ![0] bcast_S100000_S100000x1_0 : (⟨S100000, .f32⟩ : BufTy).Contents (Elt F) → (⟨S100000x1, .f32⟩ : BufTy).Contents (Elt F)),
    unary main_v49 main_v50 (broadcastInDim S100000x128 ![0, 1] bcast_S100000x1_S100000x128_0_1 : (⟨S100000x1, .f32⟩ : BufTy).Contents (Elt F) → (⟨S100000x128, .f32⟩ : BufTy).Contents (Elt F)),
    binary main_v48 main_v50 main_v51 (mulf : (⟨S100000x128, .f32⟩ : BufTy).Contents (Elt F) → (⟨S100000x128, .f32⟩ : BufTy).Contents (Elt F) → (⟨S100000x128, .f32⟩ : BufTy).Contents (Elt F)),
    TRef.nullary main_call6.c (constantI S_ 32 0#32),
    TRef.unary main_call6.c main_call6.v0 (broadcastInDim S1600000 ![] bcast_S_S1600000),
    TRef.binary (.of main_arg1 : TRef sig ⟨S1600000, .i32⟩) main_call6.v0 main_call6.v1 (cmpi .slt),
    TRef.nullary main_call6.c_0 (constantI S_ 32 100000#32),
    TRef.unary main_call6.c_0 main_call6.v2 (broadcastInDim S1600000 ![] bcast_S_S1600000),
    TRef.binary (.of main_arg1 : TRef sig ⟨S1600000, .i32⟩) main_call6.v2 main_call6.v3 addi,
    TRef.ternary main_call6.v1 main_call6.v3 (.of main_arg1 : TRef sig ⟨S1600000, .i32⟩) main_call6.call0.v0 select,
    TRef.unary main_call6.call0.v0 main_call6.v5 (broadcastInDim S1600000x1 ![0] bcast_S1600000_S1600000x1_0),
    TRef.nullary main_call6.c_1 (constantI S1 32 99999#32),
    TRef.nullary main_call6.c_2 (constantI S_ 32 0#32),
    TRef.unary main_call6.c_2 main_call6.v6 (broadcastInDim S1600000x1 ![] bcast_S_S1600000x1),
    TRef.binary main_call6.v5 main_call6.v6 main_call6.v7 (cmpi .sge),
    TRef.unary main_call6.c_1 main_call6.v8 (broadcastInDim S1x1 ![1] bcast_S1_S1x1_1),
    TRef.unary main_call6.v8 main_call6.v9 (broadcastInDim S1600000x1 ![0, 1] bcast_S1x1_S1600000x1_0_1),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S1600000x1_S1600000_d1 h_S_),
    TRef.binary (.of main_v51 : TRef sig ⟨S100000x128, .f32⟩) main_call6.v5 main_call6.v13 (fun x i => Host.gather gather_S100000x128_S1600000x1_S1600000x128_1_0_n_n_0_1_1128 x i),
    TRef.unary main_call6.v12 main_call6.v14 (broadcastInDim S1600000x128 ![0] bcast_S1600000_S1600000x128_0),
    TRef.nullary main_call6.cst (constant S_ .f32 0x7FC00000#32),
    TRef.unary main_call6.cst main_call6.v15 (broadcastInDim S1600000x128 ![] bcast_S_S1600000x128),
    TRef.ternary main_call6.v14 main_call6.v13 main_call6.v15 main_call6.v16 select,
    nullary main_cst_10 (constant S_ .f32 0x00000000#32),
    unary main_cst_10 main_v53 (broadcastInDim S100000x128 ![] bcast_S_S100000x128 : (⟨S_, .f32⟩ : BufTy).Contents (Elt F) → (⟨S100000x128, .f32⟩ : BufTy).Contents (Elt F)),
    unary main_arg2 main_v54 (broadcastInDim S1600000x1 ![0] bcast_S1600000_S1600000x1_0 : (⟨S1600000, .i32⟩ : BufTy).Contents (Elt F) → (⟨S1600000x1, .i32⟩ : BufTy).Contents (Elt F)),
    ternary main_v53 main_v54 main_v52 main_v55 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v18 main_v56 (broadcastInDim S100000x1 ![0] bcast_S100000_S100000x1_0 : (⟨S100000, .f32⟩ : BufTy).Contents (Elt F) → (⟨S100000x1, .f32⟩ : BufTy).Contents (Elt F)),
    unary main_v56 main_v57 (broadcastInDim S100000x128 ![0, 1] bcast_S100000x1_S100000x128_0_1 : (⟨S100000x1, .f32⟩ : BufTy).Contents (Elt F) → (⟨S100000x128, .f32⟩ : BufTy).Contents (Elt F)),
    binary main_v55 main_v57 main_v58 (mulf : (⟨S100000x128, .f32⟩ : BufTy).Contents (Elt F) → (⟨S100000x128, .f32⟩ : BufTy).Contents (Elt F) → (⟨S100000x128, .f32⟩ : BufTy).Contents (Elt F)),
    binary main_v58 main_arg7 main_v59 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v60 (broadcastInDim S1x64 ![1] bcast_S64_S1x64_1 : (⟨S64, .f32⟩ : BufTy).Contents (Elt F) → (⟨S1x64, .f32⟩ : BufTy).Contents (Elt F)),
    unary main_v60 main_v61 (broadcastInDim S100000x64 ![0, 1] bcast_S1x64_S100000x64_0_1 : (⟨S1x64, .f32⟩ : BufTy).Contents (Elt F) → (⟨S100000x64, .f32⟩ : BufTy).Contents (Elt F)),
    binary main_v59 main_v61 main_v62 (addf : (⟨S100000x64, .f32⟩ : BufTy).Contents (Elt F) → (⟨S100000x64, .f32⟩ : BufTy).Contents (Elt F) → (⟨S100000x64, .f32⟩ : BufTy).Contents (Elt F)) ]

/-- The entry function's 149 operations, in order. -/
abbrev ops : List (HloOp τ sig (Elt F)) := opsN ++ opsA ++ opsB ++ opsC

end Cert.ReferenceIdeal.HandRun

end
-- ==== Proof.RefRun.lean ====
/-
  The reference program runs as its line of host operations.

  The entry function is two windows run in order; the first is the norms and the first two layers, the second the
  third layer.  Each window, with the program's other functions unfolded at their calls and sequencing reassociated, is
  the straight line of its operations, and two lines run one after the other are their concatenation run as one.  No
  buffer or semaphore of the program is scoped and every operation touches buffers of the one core only, so every
  weakly fair execution terminates with each buffer at the fold of the operations over the launch contents.
-/
import proofs.«173594_j60610578482005_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The first window is the norms and layers one and two: the called functions' definitions unfolded and the binds
    reassociated, both sides are one chain of single operations. -/
theorem main_part0_eq (c : Dev nD) : main_part0 (F := F) c = seq (opsN ++ opsA ++ opsB) := by
  simp only [main_part0, fn_where.body, fn_where_0.body, fn_take.body, fn_relu.body, bind_assoc, pure_bind]
  rfl

set_option maxRecDepth 16384 in
set_option maxHeartbeats 4000000 in
/-- The second window is layer three. -/
theorem main_part1_eq (c : Dev nD) : main_part1 (F := F) c = seq opsC := by
  simp only [main_part1, fn_where_0.body, fn_take.body, bind_assoc, pure_bind]
  rfl

/-- The entry function is the whole line. -/
theorem main_eq (c : Dev nD) : main (F := F) c = seq ops := by
  have h : main (F := F) c = (main_part0 (F := F) c >>= fun _ => main_part1 (F := F) c) := rfl
  rw [h, main_part0_eq, main_part1_eq]
  exact (seq_append _ _).symm

theorem scopedRefs_eq : (Finset.univ.filter fun b : Ref sig .tc => b.isScoped) = ∅ := by decide
theorem scopedSems_eq : (Finset.univ.filter fun sm : SemLoc sig => sm.isScoped .tc) = ∅ := by decide

theorem opsN_sub : (opsN : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., unary_bufs_sub .., nullary_bufs_sub .., unary_bufs_sub ..,
    unary_bufs_sub .., ternary_bufs_sub ..⟩
theorem opsA_sub : (opsA : List (HloOp τ sig (Elt F))).Forall fun op => op.bufs ⊆ tcRefs τ sig :=
  ⟨unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., unary_bufs_sub .., unary_bufs_sub .., ternary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub ..⟩
theorem opsB_sub : (opsB : List (HloOp τ sig (Elt F))).Forall fun op => op.bufs ⊆ tcRefs τ sig :=
  ⟨unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., unary_bufs_sub .., unary_bufs_sub .., ternary_bufs_sub ..,
    unary_bufs_sub .., unary_bufs_sub .., binary_bufs_sub .., binary_bufs_sub .., unary_bufs_sub .., unary_bufs_sub ..,
    binary_bufs_sub .., nullary_bufs_sub .., unary_bufs_sub .., binary_bufs_sub ..⟩
theorem opsC_sub : (opsC : List (HloOp τ sig (Elt F))).Forall fun op => op.bufs ⊆ tcRefs τ sig :=
  ⟨unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., nullary_bufs_sub .., unary_bufs_sub .., unary_bufs_sub .., ternary_bufs_sub ..,
    unary_bufs_sub .., unary_bufs_sub .., binary_bufs_sub .., binary_bufs_sub .., unary_bufs_sub .., unary_bufs_sub ..,
    binary_bufs_sub ..⟩

/-- Every operation of the line touches buffers of the core only. -/
theorem ops_sub : (ops : List (HloOp τ sig (Elt F))).Forall fun op => op.bufs ⊆ tcRefs τ sig :=
  List.forall_iff_forall_mem.mpr fun op h => by
    simp only [ops, List.mem_append] at h
    rcases h with ((h | h) | h) | h
    exacts [List.forall_iff_forall_mem.mp opsN_sub op h, List.forall_iff_forall_mem.mp opsA_sub op h,
      List.forall_iff_forall_mem.mp opsB_sub op h, List.forall_iff_forall_mem.mp opsC_sub op h]

set_option maxRecDepth 16384 in
set_option maxHeartbeats 4000000 in
/-- At the compiled mesh, for any float values, from any memory with zero counters: every weakly fair execution of the
    entry function terminates, and every final state has each buffer of the core at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefValue.lean ====
/-
  What the reference program computes, as the specification's functions of its arguments.

  The line of operations is read stretch by stretch, and each stretch sub-list by sub-list.  A sub-list is one step of
  the mathematics (the degree counts and the inverse square roots; an elementwise choice; a row scaling; a row gather
  with its index arithmetic and bounds test; a scatter-add; a dense layer; a rectifier), and its result buffer holds the
  specification's function of that name applied to the contents the sub-list started from.  A buffer that a sub-list
  does not write keeps its contents, so the norms, the earlier layers' results and the arguments are carried to where
  they are read.  Chaining the steps gives each layer as a function of the contents its stretch starts from, and chaining
  the stretches gives the three results as the specification's three outputs of the arguments, the arguments unchanged.
-/
import proofs.«173594_j60610578482005_1_alg».proof.Proof.RefRun
import proofs.«173594_j60610578482005_1_alg».proof.Proof.Spec
import proofs.«173594_j60610578482005_1_alg».proof.Proof.LibTypedRef

noncomputable section

namespace Cert.ReferenceIdeal.HandRun

open Cert.ReferenceIdeal Cert.ReferenceIdeal.Gen Idealize.ShloMosaic Idealize.ShloMosaic.TcCoe Idealize.SL.Sem Idealize.ShloMosaic.StableHlo

/-! ## The stretches cut into steps -/

section Steps

variable {F : FTy → Type} [FloatOps F]

abbrev opsN1 : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg1 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v4 (broadcastInDim S100000 ![] bcast_S_S100000 : (⟨S_, .f32⟩ : BufTy).Contents (Elt F) → (⟨S100000, .f32⟩ : BufTy).Contents (Elt F)),
    unary main_arg2 main_v5 (broadcastInDim S1600000x1 ![0] bcast_S1600000_S1600000x1_0 : (⟨S1600000, .i32⟩ : BufTy).Contents (Elt F) → (⟨S1600000x1, .i32⟩ : BufTy).Contents (Elt F)),
    ternary main_v4 main_v5 main_v0 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x00000000#32),
    unary main_cst_2 main_v7 (broadcastInDim S100000 ![] bcast_S_S100000 : (⟨S_, .f32⟩ : BufTy).Contents (Elt F) → (⟨S100000, .f32⟩ : BufTy).Contents (Elt F)),
    binary main_v3 main_v7 main_v8 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32),
    unary main_cst_3 main_v9 (broadcastInDim S100000 ![] bcast_S_S100000 : (⟨S_, .f32⟩ : BufTy).Contents (Elt F) → (⟨S100000, .f32⟩ : BufTy).Contents (Elt F)),
    binary main_v3 main_v9 main_v10 (maximumf : (⟨S100000, .f32⟩ : BufTy).Contents (Elt F) → (⟨S100000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_cst_4 (constant S_ .f32 0x00000000#32) ]

abbrev opsN2 : List (HloOp τ sig (Elt F)) :=
  [ TRef.unary (.of main_cst_4 : TRef sig ⟨S_, .f32⟩) main_call0.v0 id,
    TRef.unary main_call0.v0 main_call0.v1 (broadcastInDim S100000 ![] bcast_S_S100000),
    TRef.ternary (.of main_v8 : TRef sig ⟨S100000, .i1⟩) (.of main_v11 : TRef sig ⟨S100000, .f32⟩) main_call0.v1 main_call0.v2 select ]

abbrev opsN3 : List (HloOp τ sig (Elt F)) :=
  [ nullary main_cst_5 (constant S_ .f32 0x00000000#32),
    unary main_cst_5 main_v13 (broadcastInDim S100000 ![] bcast_S_S100000 : (⟨S_, .f32⟩ : BufTy).Contents (Elt F) → (⟨S100000, .f32⟩ : BufTy).Contents (Elt F)),
    binary main_v6 main_v13 main_v14 (cmpf .ogt : (⟨S100000, .f32⟩ : BufTy).Contents (Elt F) → (⟨S100000, .f32⟩ : BufTy).Contents (Elt F) → (⟨S100000, .i1⟩ : BufTy).Contents (Elt F)),
    nullary main_cst_6 (constant S_ .f32 0x3F800000#32),
    unary main_cst_6 main_v15 (broadcastInDim S100000 ![] bcast_S_S100000 : (⟨S_, .f32⟩ : BufTy).Contents (Elt F) → (⟨S100000, .f32⟩ : BufTy).Contents (Elt F)),
    binary main_v6 main_v15 main_v16 (maximumf : (⟨S100000, .f32⟩ : BufTy).Contents (Elt F) → (⟨S100000, .f32⟩ : BufTy).Contents (Elt F) → (⟨S100000, .f32⟩ : BufTy).Contents (Elt F)),
    unary main_v16 main_v17 (Host.rsqrt : (⟨S100000, .f32⟩ : BufTy).Contents (Elt F) → (⟨S100000, .f32⟩ : BufTy).Contents (Elt F)),
    nullary main_cst_7 (constant S_ .f32 0x00000000#32) ]

abbrev opsN4 : List (HloOp τ sig (Elt F)) :=
  [ TRef.unary (.of main_cst_7 : TRef sig ⟨S_, .f32⟩) main_call1.v0 id,
    TRef.unary main_call1.v0 main_call1.v1 (broadcastInDim S100000 ![] bcast_S_S100000),
    TRef.ternary (.of main_v14 : TRef sig ⟨S100000, .i1⟩) (.of main_v17 : TRef sig ⟨S100000, .f32⟩) main_call1.v1 main_call1.v2 select ]

abbrev opsA1 : List (HloOp τ sig (Elt F)) :=
  [ unary main_v12 main_v19 (broadcastInDim S100000x1 ![0] bcast_S100000_S100000x1_0 : (⟨S100000, .f32⟩ : BufTy).Contents (Elt F) → (⟨S100000x1, .f32⟩ : BufTy).Contents (Elt F)),
    unary main_v19 main_v20 (broadcastInDim S100000x128 ![0, 1] bcast_S100000x1_S100000x128_0_1 : (⟨S100000x1, .f32⟩ : BufTy).Contents (Elt F) → (⟨S100000x128, .f32⟩ : BufTy).Contents (Elt F)),
    binary main_arg0 main_v20 main_v21 (mulf : (⟨S100000x128, .f32⟩ : BufTy).Contents (Elt F) → (⟨S100000x128, .f32⟩ : BufTy).Contents (Elt F) → (⟨S100000x128, .f32⟩ : BufTy).Contents (Elt F)) ]

abbrev opsA2 : List (HloOp τ sig (Elt F)) :=
  [ TRef.nullary main_call2.c (constantI S_ 32 0#32),
    TRef.unary main_call2.c main_call2.v0 (broadcastInDim S1600000 ![] bcast_S_S1600000),
    TRef.binary (.of main_arg1 : TRef sig ⟨S1600000, .i32⟩) main_call2.v0 main_call2.v1 (cmpi .slt),
    TRef.nullary main_call2.c_0 (constantI S_ 32 100000#32),
    TRef.unary main_call2.c_0 main_call2.v2 (broadcastInDim S1600000 ![] bcast_S_S1600000),
    TRef.binary (.of main_arg1 : TRef sig ⟨S1600000, .i32⟩) main_call2.v2 main_call2.v3 addi,
    TRef.ternary main_call2.v1 main_call2.v3 (.of main_arg1 : TRef sig ⟨S1600000, .i32⟩) main_call2.call0.v0 select,
    TRef.unary main_call2.call0.v0 main_call2.v5 (broadcastInDim S1600000x1 ![0] bcast_S1600000_S1600000x1_0),
    TRef.nullary main_call2.c_1 (constantI S1 32 99999#32),
    TRef.nullary main_call2.c_2 (constantI S_ 32 0#32),
    TRef.unary main_call2.c_2 main_call2.v6 (broadcastInDim S1600000x1 ![] bcast_S_S1600000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S1600000x1 ![0, 1] bcast_S1x1_S1600000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S1600000x1_S1600000_d1 h_S_),
    TRef.binary (.of main_v21 : TRef sig ⟨S100000x128, .f32⟩) main_call2.v5 main_call2.v13 (fun x i => Host.gather gather_S100000x128_S1600000x1_S1600000x128_1_0_n_n_0_1_1128 x i),
    TRef.unary main_call2.v12 main_call2.v14 (broadcastInDim S1600000x128 ![0] bcast_S1600000_S1600000x128_0),
    TRef.nullary main_call2.cst (constant S_ .f32 0x7FC00000#32),
    TRef.unary main_call2.cst main_call2.v15 (broadcastInDim S1600000x128 ![] bcast_S_S1600000x128),
    TRef.ternary main_call2.v14 main_call2.v13 main_call2.v15 main_call2.v16 select ]

abbrev opsA3 : List (HloOp τ sig (Elt F)) :=
  [ nullary main_cst_8 (constant S_ .f32 0x00000000#32),
    unary main_cst_8 main_v23 (broadcastInDim S100000x128 ![] bcast_S_S100000x128 : (⟨S_, .f32⟩ : BufTy).Contents (Elt F) → (⟨S100000x128, .f32⟩ : BufTy).Contents (Elt F)),
    unary main_arg2 main_v24 (broadcastInDim S1600000x1 ![0] bcast_S1600000_S1600000x1_0 : (⟨S1600000, .i32⟩ : BufTy).Contents (Elt F) → (⟨S1600000x1, .i32⟩ : BufTy).Contents (Elt F)),
    ternary main_v23 main_v24 main_v22 main_v25 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

abbrev opsA4 : List (HloOp τ sig (Elt F)) :=
  [ unary main_v18 main_v26 (broadcastInDim S100000x1 ![0] bcast_S100000_S100000x1_0 : (⟨S100000, .f32⟩ : BufTy).Contents (Elt F) → (⟨S100000x1, .f32⟩ : BufTy).Contents (Elt F)),
    unary main_v26 main_v27 (broadcastInDim S100000x128 ![0, 1] bcast_S100000x1_S100000x128_0_1 : (⟨S100000x1, .f32⟩ : BufTy).Contents (Elt F) → (⟨S100000x128, .f32⟩ : BufTy).Contents (Elt F)),
    binary main_v25 main_v27 main_v28 (mulf : (⟨S100000x128, .f32⟩ : BufTy).Contents (Elt F) → (⟨S100000x128, .f32⟩ : BufTy).Contents (Elt F) → (⟨S100000x128, .f32⟩ : BufTy).Contents (Elt F)),
    binary main_v28 main_arg3 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v29 main_v31 main_v32 (addf : (⟨S100000x128, .f32⟩ : BufTy).Contents (Elt F) → (⟨S100000x128, .f32⟩ : BufTy).Contents (Elt F) → (⟨S100000x128, .f32⟩ : BufTy).Contents (Elt F)) ]

abbrev opsA5 : List (HloOp τ sig (Elt F)) :=
  [ TRef.nullary main_call3.cst (constant S_ .f32 0x00000000#32),
    TRef.unary main_call3.cst main_call3.v0 (broadcastInDim S100000x128 ![] bcast_S_S100000x128),
    TRef.binary (.of main_v32 : TRef sig ⟨S100000x128, .f32⟩) main_call3.v0 main_call3.v1 maximumf ]

abbrev opsB1 : List (HloOp τ sig (Elt F)) :=
  [ unary main_v12 main_v34 (broadcastInDim S100000x1 ![0] bcast_S100000_S100000x1_0 : (⟨S100000, .f32⟩ : BufTy).Contents (Elt F) → (⟨S100000x1, .f32⟩ : BufTy).Contents (Elt F)),
    unary main_v34 main_v35 (broadcastInDim S100000x128 ![0, 1] bcast_S100000x1_S100000x128_0_1 : (⟨S100000x1, .f32⟩ : BufTy).Contents (Elt F) → (⟨S100000x128, .f32⟩ : BufTy).Contents (Elt F)),
    binary main_v33 main_v35 main_v36 (mulf : (⟨S100000x128, .f32⟩ : BufTy).Contents (Elt F) → (⟨S100000x128, .f32⟩ : BufTy).Contents (Elt F) → (⟨S100000x128, .f32⟩ : BufTy).Contents (Elt F)) ]

abbrev opsB2 : List (HloOp τ sig (Elt F)) :=
  [ TRef.nullary main_call4.c (constantI S_ 32 0#32),
    TRef.unary main_call4.c main_call4.v0 (broadcastInDim S1600000 ![] bcast_S_S1600000),
    TRef.binary (.of main_arg1 : TRef sig ⟨S1600000, .i32⟩) main_call4.v0 main_call4.v1 (cmpi .slt),
    TRef.nullary main_call4.c_0 (constantI S_ 32 100000#32),
    TRef.unary main_call4.c_0 main_call4.v2 (broadcastInDim S1600000 ![] bcast_S_S1600000),
    TRef.binary (.of main_arg1 : TRef sig ⟨S1600000, .i32⟩) main_call4.v2 main_call4.v3 addi,
    TRef.ternary main_call4.v1 main_call4.v3 (.of main_arg1 : TRef sig ⟨S1600000, .i32⟩) main_call4.call0.v0 select,
    TRef.unary main_call4.call0.v0 main_call4.v5 (broadcastInDim S1600000x1 ![0] bcast_S1600000_S1600000x1_0),
    TRef.nullary main_call4.c_1 (constantI S1 32 99999#32),
    TRef.nullary main_call4.c_2 (constantI S_ 32 0#32),
    TRef.unary main_call4.c_2 main_call4.v6 (broadcastInDim S1600000x1 ![] bcast_S_S1600000x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S1600000x1 ![0, 1] bcast_S1x1_S1600000x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S1600000x1_S1600000_d1 h_S_),
    TRef.binary (.of main_v36 : TRef sig ⟨S100000x128, .f32⟩) main_call4.v5 main_call4.v13 (fun x i => Host.gather gather_S100000x128_S1600000x1_S1600000x128_1_0_n_n_0_1_1128 x i),
    TRef.unary main_call4.v12 main_call4.v14 (broadcastInDim S1600000x128 ![0] bcast_S1600000_S1600000x128_0),
    TRef.nullary main_call4.cst (constant S_ .f32 0x7FC00000#32),
    TRef.unary main_call4.cst main_call4.v15 (broadcastInDim S1600000x128 ![] bcast_S_S1600000x128),
    TRef.ternary main_call4.v14 main_call4.v13 main_call4.v15 main_call4.v16 select ]

abbrev opsB3 : List (HloOp τ sig (Elt F)) :=
  [ nullary main_cst_9 (constant S_ .f32 0x00000000#32),
    unary main_cst_9 main_v38 (broadcastInDim S100000x128 ![] bcast_S_S100000x128 : (⟨S_, .f32⟩ : BufTy).Contents (Elt F) → (⟨S100000x128, .f32⟩ : BufTy).Contents (Elt F)),
    unary main_arg2 main_v39 (broadcastInDim S1600000x1 ![0] bcast_S1600000_S1600000x1_0 : (⟨S1600000, .i32⟩ : BufTy).Contents (Elt F) → (⟨S1600000x1, .i32⟩ : BufTy).Contents (Elt F)),
    ternary main_v38 main_v39 main_v37 main_v40 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

abbrev opsB4 : List (HloOp τ sig (Elt F)) :=
  [ unary main_v18 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x128 ![0, 1] bcast_S100000x1_S100000x128_0_1 : (⟨S100000x1, .f32⟩ : BufTy).Contents (Elt F) → (⟨S100000x128, .f32⟩ : BufTy).Contents (Elt F)),
    binary main_v40 main_v42 main_v43 (mulf : (⟨S100000x128, .f32⟩ : BufTy).Contents (Elt F) → (⟨S100000x128, .f32⟩ : BufTy).Contents (Elt F) → (⟨S100000x128, .f32⟩ : BufTy).Contents (Elt F)),
    binary main_v43 main_arg5 main_v44 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)) ]

abbrev opsB5 : List (HloOp τ sig (Elt F)) :=
  [ TRef.nullary main_call5.cst (constant S_ .f32 0x00000000#32),
    TRef.unary main_call5.cst main_call5.v0 (broadcastInDim S100000x128 ![] bcast_S_S100000x128),
    TRef.binary (.of main_v47 : TRef sig ⟨S100000x128, .f32⟩) main_call5.v0 main_call5.v1 maximumf ]

abbrev opsC1 : List (HloOp τ sig (Elt F)) :=
  [ unary main_v12 main_v49 (broadcastInDim S100000x1 ![0] bcast_S100000_S100000x1_0 : (⟨S100000, .f32⟩ : BufTy).Contents (Elt F) → (⟨S100000x1, .f32⟩ : BufTy).Contents (Elt F)),
    unary main_v49 main_v50 (broadcastInDim S100000x128 ![0, 1] bcast_S100000x1_S100000x128_0_1 : (⟨S100000x1, .f32⟩ : BufTy).Contents (Elt F) → (⟨S100000x128, .f32⟩ : BufTy).Contents (Elt F)),
    binary main_v48 main_v50 main_v51 (mulf : (⟨S100000x128, .f32⟩ : BufTy).Contents (Elt F) → (⟨S100000x128, .f32⟩ : BufTy).Contents (Elt F) → (⟨S100000x128, .f32⟩ : BufTy).Contents (Elt F)) ]

abbrev opsC2 : List (HloOp τ sig (Elt F)) :=
  [ TRef.nullary main_call6.c (constantI S_ 32 0#32),
    TRef.unary main_call6.c main_call6.v0 (broadcastInDim S1600000 ![] bcast_S_S1600000),
    TRef.binary (.of main_arg1 : TRef sig ⟨S1600000, .i32⟩) main_call6.v0 main_call6.v1 (cmpi .slt),
    TRef.nullary main_call6.c_0 (constantI S_ 32 100000#32),
    TRef.unary main_call6.c_0 main_call6.v2 (broadcastInDim S1600000 ![] bcast_S_S1600000),
    TRef.binary (.of main_arg1 : TRef sig ⟨S1600000, .i32⟩) main_call6.v2 main_call6.v3 addi,
    TRef.ternary main_call6.v1 main_call6.v3 (.of main_arg1 : TRef sig ⟨S1600000, .i32⟩) main_call6.call0.v0 select,
    TRef.unary main_call6.call0.v0 main_call6.v5 (broadcastInDim S1600000x1 ![0] bcast_S1600000_S1600000x1_0),
    TRef.nullary main_call6.c_1 (constantI S1 32 99999#32),
    TRef.nullary main_call6.c_2 (constantI S_ 32 0#32),
    TRef.unary main_call6.c_2 main_call6.v6 (broadcastInDim S1600000x1 ![] bcast_S_S1600000x1),
    TRef.binary main_call6.v5 main_call6.v6 main_call6.v7 (cmpi .sge),
    TRef.unary main_call6.c_1 main_call6.v8 (broadcastInDim S1x1 ![1] bcast_S1_S1x1_1),
    TRef.unary main_call6.v8 main_call6.v9 (broadcastInDim S1600000x1 ![0, 1] bcast_S1x1_S1600000x1_0_1),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S1600000x1_S1600000_d1 h_S_),
    TRef.binary (.of main_v51 : TRef sig ⟨S100000x128, .f32⟩) main_call6.v5 main_call6.v13 (fun x i => Host.gather gather_S100000x128_S1600000x1_S1600000x128_1_0_n_n_0_1_1128 x i),
    TRef.unary main_call6.v12 main_call6.v14 (broadcastInDim S1600000x128 ![0] bcast_S1600000_S1600000x128_0),
    TRef.nullary main_call6.cst (constant S_ .f32 0x7FC00000#32),
    TRef.unary main_call6.cst main_call6.v15 (broadcastInDim S1600000x128 ![] bcast_S_S1600000x128),
    TRef.ternary main_call6.v14 main_call6.v13 main_call6.v15 main_call6.v16 select ]

abbrev opsC3 : List (HloOp τ sig (Elt F)) :=
  [ nullary main_cst_10 (constant S_ .f32 0x00000000#32),
    unary main_cst_10 main_v53 (broadcastInDim S100000x128 ![] bcast_S_S100000x128 : (⟨S_, .f32⟩ : BufTy).Contents (Elt F) → (⟨S100000x128, .f32⟩ : BufTy).Contents (Elt F)),
    unary main_arg2 main_v54 (broadcastInDim S1600000x1 ![0] bcast_S1600000_S1600000x1_0 : (⟨S1600000, .i32⟩ : BufTy).Contents (Elt F) → (⟨S1600000x1, .i32⟩ : BufTy).Contents (Elt F)),
    ternary main_v53 main_v54 main_v52 main_v55 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

abbrev opsC4 : List (HloOp τ sig (Elt F)) :=
  [ unary main_v18 main_v56 (broadcastInDim S100000x1 ![0] bcast_S100000_S100000x1_0 : (⟨S100000, .f32⟩ : BufTy).Contents (Elt F) → (⟨S100000x1, .f32⟩ : BufTy).Contents (Elt F)),
    unary main_v56 main_v57 (broadcastInDim S100000x128 ![0, 1] bcast_S100000x1_S100000x128_0_1 : (⟨S100000x1, .f32⟩ : BufTy).Contents (Elt F) → (⟨S100000x128, .f32⟩ : BufTy).Contents (Elt F)),
    binary main_v55 main_v57 main_v58 (mulf : (⟨S100000x128, .f32⟩ : BufTy).Contents (Elt F) → (⟨S100000x128, .f32⟩ : BufTy).Contents (Elt F) → (⟨S100000x128, .f32⟩ : BufTy).Contents (Elt F)),
    binary main_v58 main_arg7 main_v59 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v60 (broadcastInDim S1x64 ![1] bcast_S64_S1x64_1 : (⟨S64, .f32⟩ : BufTy).Contents (Elt F) → (⟨S1x64, .f32⟩ : BufTy).Contents (Elt F)),
    unary main_v60 main_v61 (broadcastInDim S100000x64 ![0, 1] bcast_S1x64_S100000x64_0_1 : (⟨S1x64, .f32⟩ : BufTy).Contents (Elt F) → (⟨S100000x64, .f32⟩ : BufTy).Contents (Elt F)),
    binary main_v59 main_v61 main_v62 (addf : (⟨S100000x64, .f32⟩ : BufTy).Contents (Elt F) → (⟨S100000x64, .f32⟩ : BufTy).Contents (Elt F) → (⟨S100000x64, .f32⟩ : BufTy).Contents (Elt F)) ]

theorem opsN_split : (opsN : List (HloOp τ sig (Elt F))) = opsN1 ++ opsN2 ++ opsN3 ++ opsN4 := rfl
theorem opsA_split : (opsA : List (HloOp τ sig (Elt F))) = opsA1 ++ opsA2 ++ opsA3 ++ opsA4 ++ opsA5 := rfl
theorem opsB_split : (opsB : List (HloOp τ sig (Elt F))) = opsB1 ++ opsB2 ++ opsB3 ++ opsB4 ++ opsB5 := rfl
theorem opsC_split : (opsC : List (HloOp τ sig (Elt F))) = opsC1 ++ opsC2 ++ opsC3 ++ opsC4 := rfl

/-- The contents after two lines in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## What each step writes, and that it leaves the rest alone -/

abbrev wrN1 : List (Ref sig .tc) := [main_cst, main_v0, main_cst_0, main_v1, main_v2, main_v3, main_cst_1, main_v4, main_v5, main_v6, main_cst_2, main_v7, main_v8, main_cst_3, main_v9, main_v10, main_v11, main_cst_4]
theorem writesN1 : (opsN1 : List (HloOp τ sig (Elt F))).Forall fun op => op.writes ⊆ ((wrN1).map (Proc.devRef (τ := τ) .tc)).toFinset := by
  simp only [opsN1, List.Forall, nullary_writes, unary_writes, binary_writes, ternary_writes, Finset.singleton_subset_iff, List.mem_toFinset]
  repeat' apply And.intro
  all_goals exact List.mem_map_of_mem (by decide)
theorem kN1 (W : Valuation τ sig (Elt F)) (r : Ref sig .tc) (h : r ∉ wrN1) :
    after opsN1 W (no_index (Proc.devRef .tc r)) = W (Proc.devRef .tc r) :=
  after_of_writes_sub opsN1 W writesN1 h

abbrev wrN2 : List (Ref sig .tc) := [main_call0_v0, main_call0_v1, main_v12]
theorem writesN2 : (opsN2 : List (HloOp τ sig (Elt F))).Forall fun op => op.writes ⊆ ((wrN2).map (Proc.devRef (τ := τ) .tc)).toFinset := by
  simp only [opsN2, List.Forall, nullary_writes, unary_writes, binary_writes, ternary_writes, Finset.singleton_subset_iff, List.mem_toFinset]
  repeat' apply And.intro
  all_goals exact List.mem_map_of_mem (by decide)
theorem kN2 (W : Valuation τ sig (Elt F)) (r : Ref sig .tc) (h : r ∉ wrN2) :
    after opsN2 W (no_index (Proc.devRef .tc r)) = W (Proc.devRef .tc r) :=
  after_of_writes_sub opsN2 W writesN2 h

abbrev wrN3 : List (Ref sig .tc) := [main_cst_5, main_v13, main_v14, main_cst_6, main_v15, main_v16, main_v17, main_cst_7]
theorem writesN3 : (opsN3 : List (HloOp τ sig (Elt F))).Forall fun op => op.writes ⊆ ((wrN3).map (Proc.devRef (τ := τ) .tc)).toFinset := by
  simp only [opsN3, List.Forall, nullary_writes, unary_writes, binary_writes, ternary_writes, Finset.singleton_subset_iff, List.mem_toFinset]
  repeat' apply And.intro
  all_goals exact List.mem_map_of_mem (by decide)
theorem kN3 (W : Valuation τ sig (Elt F)) (r : Ref sig .tc) (h : r ∉ wrN3) :
    after opsN3 W (no_index (Proc.devRef .tc r)) = W (Proc.devRef .tc r) :=
  after_of_writes_sub opsN3 W writesN3 h

abbrev wrN4 : List (Ref sig .tc) := [main_call1_v0, main_call1_v1, main_v18]
theorem writesN4 : (opsN4 : List (HloOp τ sig (Elt F))).Forall fun op => op.writes ⊆ ((wrN4).map (Proc.devRef (τ := τ) .tc)).toFinset := by
  simp only [opsN4, List.Forall, nullary_writes, unary_writes, binary_writes, ternary_writes, Finset.singleton_subset_iff, List.mem_toFinset]
  repeat' apply And.intro
  all_goals exact List.mem_map_of_mem (by decide)
theorem kN4 (W : Valuation τ sig (Elt F)) (r : Ref sig .tc) (h : r ∉ wrN4) :
    after opsN4 W (no_index (Proc.devRef .tc r)) = W (Proc.devRef .tc r) :=
  after_of_writes_sub opsN4 W writesN4 h

abbrev wrA1 : List (Ref sig .tc) := [main_v19, main_v20, main_v21]
theorem writesA1 : (opsA1 : List (HloOp τ sig (Elt F))).Forall fun op => op.writes ⊆ ((wrA1).map (Proc.devRef (τ := τ) .tc)).toFinset := by
  simp only [opsA1, List.Forall, nullary_writes, unary_writes, binary_writes, ternary_writes, Finset.singleton_subset_iff, List.mem_toFinset]
  repeat' apply And.intro
  all_goals exact List.mem_map_of_mem (by decide)
theorem kA1 (W : Valuation τ sig (Elt F)) (r : Ref sig .tc) (h : r ∉ wrA1) :
    after opsA1 W (no_index (Proc.devRef .tc r)) = W (Proc.devRef .tc r) :=
  after_of_writes_sub opsA1 W writesA1 h

abbrev wrA2 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v22]
theorem writesA2 : (opsA2 : List (HloOp τ sig (Elt F))).Forall fun op => op.writes ⊆ ((wrA2).map (Proc.devRef (τ := τ) .tc)).toFinset := by
  simp only [opsA2, List.Forall, nullary_writes, unary_writes, binary_writes, ternary_writes, Finset.singleton_subset_iff, List.mem_toFinset]
  repeat' apply And.intro
  all_goals exact List.mem_map_of_mem (by decide)
theorem kA2 (W : Valuation τ sig (Elt F)) (r : Ref sig .tc) (h : r ∉ wrA2) :
    after opsA2 W (no_index (Proc.devRef .tc r)) = W (Proc.devRef .tc r) :=
  after_of_writes_sub opsA2 W writesA2 h

abbrev wrA3 : List (Ref sig .tc) := [main_cst_8, main_v23, main_v24, main_v25]
theorem writesA3 : (opsA3 : List (HloOp τ sig (Elt F))).Forall fun op => op.writes ⊆ ((wrA3).map (Proc.devRef (τ := τ) .tc)).toFinset := by
  simp only [opsA3, List.Forall, nullary_writes, unary_writes, binary_writes, ternary_writes, Finset.singleton_subset_iff, List.mem_toFinset]
  repeat' apply And.intro
  all_goals exact List.mem_map_of_mem (by decide)
theorem kA3 (W : Valuation τ sig (Elt F)) (r : Ref sig .tc) (h : r ∉ wrA3) :
    after opsA3 W (no_index (Proc.devRef .tc r)) = W (Proc.devRef .tc r) :=
  after_of_writes_sub opsA3 W writesA3 h

abbrev wrA4 : List (Ref sig .tc) := [main_v26, main_v27, main_v28, main_v29, main_v30, main_v31, main_v32]
theorem writesA4 : (opsA4 : List (HloOp τ sig (Elt F))).Forall fun op => op.writes ⊆ ((wrA4).map (Proc.devRef (τ := τ) .tc)).toFinset := by
  simp only [opsA4, List.Forall, nullary_writes, unary_writes, binary_writes, ternary_writes, Finset.singleton_subset_iff, List.mem_toFinset]
  repeat' apply And.intro
  all_goals exact List.mem_map_of_mem (by decide)
theorem kA4 (W : Valuation τ sig (Elt F)) (r : Ref sig .tc) (h : r ∉ wrA4) :
    after opsA4 W (no_index (Proc.devRef .tc r)) = W (Proc.devRef .tc r) :=
  after_of_writes_sub opsA4 W writesA4 h

abbrev wrA5 : List (Ref sig .tc) := [main_call3_cst, main_call3_v0, main_v33]
theorem writesA5 : (opsA5 : List (HloOp τ sig (Elt F))).Forall fun op => op.writes ⊆ ((wrA5).map (Proc.devRef (τ := τ) .tc)).toFinset := by
  simp only [opsA5, List.Forall, nullary_writes, unary_writes, binary_writes, ternary_writes, Finset.singleton_subset_iff, List.mem_toFinset]
  repeat' apply And.intro
  all_goals exact List.mem_map_of_mem (by decide)
theorem kA5 (W : Valuation τ sig (Elt F)) (r : Ref sig .tc) (h : r ∉ wrA5) :
    after opsA5 W (no_index (Proc.devRef .tc r)) = W (Proc.devRef .tc r) :=
  after_of_writes_sub opsA5 W writesA5 h

abbrev wrB1 : List (Ref sig .tc) := [main_v34, main_v35, main_v36]
theorem writesB1 : (opsB1 : List (HloOp τ sig (Elt F))).Forall fun op => op.writes ⊆ ((wrB1).map (Proc.devRef (τ := τ) .tc)).toFinset := by
  simp only [opsB1, List.Forall, nullary_writes, unary_writes, binary_writes, ternary_writes, Finset.singleton_subset_iff, List.mem_toFinset]
  repeat' apply And.intro
  all_goals exact List.mem_map_of_mem (by decide)
theorem kB1 (W : Valuation τ sig (Elt F)) (r : Ref sig .tc) (h : r ∉ wrB1) :
    after opsB1 W (no_index (Proc.devRef .tc r)) = W (Proc.devRef .tc r) :=
  after_of_writes_sub opsB1 W writesB1 h

abbrev wrB2 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v37]
theorem writesB2 : (opsB2 : List (HloOp τ sig (Elt F))).Forall fun op => op.writes ⊆ ((wrB2).map (Proc.devRef (τ := τ) .tc)).toFinset := by
  simp only [opsB2, List.Forall, nullary_writes, unary_writes, binary_writes, ternary_writes, Finset.singleton_subset_iff, List.mem_toFinset]
  repeat' apply And.intro
  all_goals exact List.mem_map_of_mem (by decide)
theorem kB2 (W : Valuation τ sig (Elt F)) (r : Ref sig .tc) (h : r ∉ wrB2) :
    after opsB2 W (no_index (Proc.devRef .tc r)) = W (Proc.devRef .tc r) :=
  after_of_writes_sub opsB2 W writesB2 h

abbrev wrB3 : List (Ref sig .tc) := [main_cst_9, main_v38, main_v39, main_v40]
theorem writesB3 : (opsB3 : List (HloOp τ sig (Elt F))).Forall fun op => op.writes ⊆ ((wrB3).map (Proc.devRef (τ := τ) .tc)).toFinset := by
  simp only [opsB3, List.Forall, nullary_writes, unary_writes, binary_writes, ternary_writes, Finset.singleton_subset_iff, List.mem_toFinset]
  repeat' apply And.intro
  all_goals exact List.mem_map_of_mem (by decide)
theorem kB3 (W : Valuation τ sig (Elt F)) (r : Ref sig .tc) (h : r ∉ wrB3) :
    after opsB3 W (no_index (Proc.devRef .tc r)) = W (Proc.devRef .tc r) :=
  after_of_writes_sub opsB3 W writesB3 h

abbrev wrB4 : List (Ref sig .tc) := [main_v41, main_v42, main_v43, main_v44, main_v45, main_v46, main_v47]
theorem writesB4 : (opsB4 : List (HloOp τ sig (Elt F))).Forall fun op => op.writes ⊆ ((wrB4).map (Proc.devRef (τ := τ) .tc)).toFinset := by
  simp only [opsB4, List.Forall, nullary_writes, unary_writes, binary_writes, ternary_writes, Finset.singleton_subset_iff, List.mem_toFinset]
  repeat' apply And.intro
  all_goals exact List.mem_map_of_mem (by decide)
theorem kB4 (W : Valuation τ sig (Elt F)) (r : Ref sig .tc) (h : r ∉ wrB4) :
    after opsB4 W (no_index (Proc.devRef .tc r)) = W (Proc.devRef .tc r) :=
  after_of_writes_sub opsB4 W writesB4 h

abbrev wrB5 : List (Ref sig .tc) := [main_call5_cst, main_call5_v0, main_v48]
theorem writesB5 : (opsB5 : List (HloOp τ sig (Elt F))).Forall fun op => op.writes ⊆ ((wrB5).map (Proc.devRef (τ := τ) .tc)).toFinset := by
  simp only [opsB5, List.Forall, nullary_writes, unary_writes, binary_writes, ternary_writes, Finset.singleton_subset_iff, List.mem_toFinset]
  repeat' apply And.intro
  all_goals exact List.mem_map_of_mem (by decide)
theorem kB5 (W : Valuation τ sig (Elt F)) (r : Ref sig .tc) (h : r ∉ wrB5) :
    after opsB5 W (no_index (Proc.devRef .tc r)) = W (Proc.devRef .tc r) :=
  after_of_writes_sub opsB5 W writesB5 h

abbrev wrC1 : List (Ref sig .tc) := [main_v49, main_v50, main_v51]
theorem writesC1 : (opsC1 : List (HloOp τ sig (Elt F))).Forall fun op => op.writes ⊆ ((wrC1).map (Proc.devRef (τ := τ) .tc)).toFinset := by
  simp only [opsC1, List.Forall, nullary_writes, unary_writes, binary_writes, ternary_writes, Finset.singleton_subset_iff, List.mem_toFinset]
  repeat' apply And.intro
  all_goals exact List.mem_map_of_mem (by decide)
theorem kC1 (W : Valuation τ sig (Elt F)) (r : Ref sig .tc) (h : r ∉ wrC1) :
    after opsC1 W (no_index (Proc.devRef .tc r)) = W (Proc.devRef .tc r) :=
  after_of_writes_sub opsC1 W writesC1 h

abbrev wrC2 : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v52]
theorem writesC2 : (opsC2 : List (HloOp τ sig (Elt F))).Forall fun op => op.writes ⊆ ((wrC2).map (Proc.devRef (τ := τ) .tc)).toFinset := by
  simp only [opsC2, List.Forall, nullary_writes, unary_writes, binary_writes, ternary_writes, Finset.singleton_subset_iff, List.mem_toFinset]
  repeat' apply And.intro
  all_goals exact List.mem_map_of_mem (by decide)
theorem kC2 (W : Valuation τ sig (Elt F)) (r : Ref sig .tc) (h : r ∉ wrC2) :
    after opsC2 W (no_index (Proc.devRef .tc r)) = W (Proc.devRef .tc r) :=
  after_of_writes_sub opsC2 W writesC2 h

abbrev wrC3 : List (Ref sig .tc) := [main_cst_10, main_v53, main_v54, main_v55]
theorem writesC3 : (opsC3 : List (HloOp τ sig (Elt F))).Forall fun op => op.writes ⊆ ((wrC3).map (Proc.devRef (τ := τ) .tc)).toFinset := by
  simp only [opsC3, List.Forall, nullary_writes, unary_writes, binary_writes, ternary_writes, Finset.singleton_subset_iff, List.mem_toFinset]
  repeat' apply And.intro
  all_goals exact List.mem_map_of_mem (by decide)
theorem kC3 (W : Valuation τ sig (Elt F)) (r : Ref sig .tc) (h : r ∉ wrC3) :
    after opsC3 W (no_index (Proc.devRef .tc r)) = W (Proc.devRef .tc r) :=
  after_of_writes_sub opsC3 W writesC3 h

abbrev wrC4 : List (Ref sig .tc) := [main_v56, main_v57, main_v58, main_v59, main_v60, main_v61, main_v62]
theorem writesC4 : (opsC4 : List (HloOp τ sig (Elt F))).Forall fun op => op.writes ⊆ ((wrC4).map (Proc.devRef (τ := τ) .tc)).toFinset := by
  simp only [opsC4, List.Forall, nullary_writes, unary_writes, binary_writes, ternary_writes, Finset.singleton_subset_iff, List.mem_toFinset]
  repeat' apply And.intro
  all_goals exact List.mem_map_of_mem (by decide)
theorem kC4 (W : Valuation τ sig (Elt F)) (r : Ref sig .tc) (h : r ∉ wrC4) :
    after opsC4 W (no_index (Proc.devRef .tc r)) = W (Proc.devRef .tc r) :=
  after_of_writes_sub opsC4 W writesC4 h

theorem kN (W : Valuation τ sig (Elt F)) (r : Ref sig .tc) (h1 : r ∉ wrN1) (h2 : r ∉ wrN2) (h3 : r ∉ wrN3) (h4 : r ∉ wrN4) :
    after opsN W (no_index (Proc.devRef .tc r)) = W (Proc.devRef .tc r) := by
  rw [opsN_split]
  simp only [after_app]
  rw [kN4 _ r h4, kN3 _ r h3, kN2 _ r h2, kN1 _ r h1]

theorem kA (W : Valuation τ sig (Elt F)) (r : Ref sig .tc) (h1 : r ∉ wrA1) (h2 : r ∉ wrA2) (h3 : r ∉ wrA3) (h4 : r ∉ wrA4) (h5 : r ∉ wrA5) :
    after opsA W (no_index (Proc.devRef .tc r)) = W (Proc.devRef .tc r) := by
  rw [opsA_split]
  simp only [after_app]
  rw [kA5 _ r h5, kA4 _ r h4, kA3 _ r h3, kA2 _ r h2, kA1 _ r h1]

theorem kB (W : Valuation τ sig (Elt F)) (r : Ref sig .tc) (h1 : r ∉ wrB1) (h2 : r ∉ wrB2) (h3 : r ∉ wrB3) (h4 : r ∉ wrB4) (h5 : r ∉ wrB5) :
    after opsB W (no_index (Proc.devRef .tc r)) = W (Proc.devRef .tc r) := by
  rw [opsB_split]
  simp only [after_app]
  rw [kB5 _ r h5, kB4 _ r h4, kB3 _ r h3, kB2 _ r h2, kB1 _ r h1]

theorem kC (W : Valuation τ sig (Elt F)) (r : Ref sig .tc) (h1 : r ∉ wrC1) (h2 : r ∉ wrC2) (h3 : r ∉ wrC3) (h4 : r ∉ wrC4) :
    after opsC W (no_index (Proc.devRef .tc r)) = W (Proc.devRef .tc r) := by
  rw [opsC_split]
  simp only [after_app]
  rw [kC4 _ r h4, kC3 _ r h3, kC2 _ r h2, kC1 _ r h1]

end Steps

/-! ## Each step's result -/

attribute [local irreducible] Host.reduce Host.gather Host.scatterAdd Host.rsqrt

section Values

variable (W : Valuation τ sig (Elt Ideal))

theorem n1_pos : after opsN1 W (main_v8 : DevRef τ sig) = cmpf .ogt (Cert.Spec.degree (W (main_arg1 : DevRef τ sig))) (broadcastInDim S100000 ![] bcast_S_S100000 (constant (F := Ideal) S_ .f32 0x00000000#32)) := by
  after_results_simp
  simp only [Cert.Spec.degree, Cert.Spec.ones] <;> rfl
theorem n1_pos' : after opsN1 W (no_index (main_v8 : DevRef τ sig)) = cmpf .ogt (Cert.Spec.degree (W (main_arg1 : DevRef τ sig))) (broadcastInDim S100000 ![] bcast_S_S100000 (constant (F := Ideal) S_ .f32 0x00000000#32)) := n1_pos W

theorem n1_rsqrt : after opsN1 W (main_v11 : DevRef τ sig) = Host.rsqrt (maximumf (Cert.Spec.degree (W (main_arg1 : DevRef τ sig))) (broadcastInDim S100000 ![] bcast_S_S100000 (constant (F := Ideal) S_ .f32 0x3F800000#32))) := by
  after_results_simp
  simp only [Cert.Spec.degree, Cert.Spec.ones] <;> rfl
theorem n1_rsqrt' : after opsN1 W (no_index (main_v11 : DevRef τ sig)) = Host.rsqrt (maximumf (Cert.Spec.degree (W (main_arg1 : DevRef τ sig))) (broadcastInDim S100000 ![] bcast_S_S100000 (constant (F := Ideal) S_ .f32 0x3F800000#32))) := n1_rsqrt W

theorem n1_fill : after opsN1 W (main_cst_4 : DevRef τ sig) = constant (F := Ideal) S_ .f32 0x00000000#32 := by
  after_results_simp <;> rfl
theorem n1_fill' : after opsN1 W (no_index (main_cst_4 : DevRef τ sig)) = constant (F := Ideal) S_ .f32 0x00000000#32 := n1_fill W

theorem n1_degDst : after opsN1 W (main_v6 : DevRef τ sig) = Cert.Spec.degree (W (main_arg2 : DevRef τ sig)) := by
  after_results_simp
  simp only [Cert.Spec.degree, Cert.Spec.ones] <;> rfl
theorem n1_degDst' : after opsN1 W (no_index (main_v6 : DevRef τ sig)) = Cert.Spec.degree (W (main_arg2 : DevRef τ sig)) := n1_degDst W

theorem n2_choice : after opsN2 W (main_v12 : DevRef τ sig) = select (W (main_v8 : DevRef τ sig)) (W (main_v11 : DevRef τ sig)) (broadcastInDim S100000 ![] bcast_S_S100000 (id (W (main_cst_4 : DevRef τ sig)))) := by
  after_results_simp
  simp only [Cert.TypedRef.ofBuf_toBuf]
  rfl
theorem n2_choice' : after opsN2 W (no_index (main_v12 : DevRef τ sig)) = select (W (main_v8 : DevRef τ sig)) (W (main_v11 : DevRef τ sig)) (broadcastInDim S100000 ![] bcast_S_S100000 (id (W (main_cst_4 : DevRef τ sig)))) := n2_choice W

theorem n3_pos : after opsN3 W (main_v14 : DevRef τ sig) = cmpf .ogt (W (main_v6 : DevRef τ sig)) (broadcastInDim S100000 ![] bcast_S_S100000 (constant (F := Ideal) S_ .f32 0x00000000#32)) := by
  after_results_simp <;> rfl
theorem n3_pos' : after opsN3 W (no_index (main_v14 : DevRef τ sig)) = cmpf .ogt (W (main_v6 : DevRef τ sig)) (broadcastInDim S100000 ![] bcast_S_S100000 (constant (F := Ideal) S_ .f32 0x00000000#32)) := n3_pos W

theorem n3_rsqrt : after opsN3 W (main_v17 : DevRef τ sig) = Host.rsqrt (maximumf (W (main_v6 : DevRef τ sig)) (broadcastInDim S100000 ![] bcast_S_S100000 (constant (F := Ideal) S_ .f32 0x3F800000#32))) := by
  after_results_simp <;> rfl
theorem n3_rsqrt' : after opsN3 W (no_index (main_v17 : DevRef τ sig)) = Host.rsqrt (maximumf (W (main_v6 : DevRef τ sig)) (broadcastInDim S100000 ![] bcast_S_S100000 (constant (F := Ideal) S_ .f32 0x3F800000#32))) := n3_rsqrt W

theorem n3_fill : after opsN3 W (main_cst_7 : DevRef τ sig) = constant (F := Ideal) S_ .f32 0x00000000#32 := by
  after_results_simp <;> rfl
theorem n3_fill' : after opsN3 W (no_index (main_cst_7 : DevRef τ sig)) = constant (F := Ideal) S_ .f32 0x00000000#32 := n3_fill W

theorem n4_choice : after opsN4 W (main_v18 : DevRef τ sig) = select (W (main_v14 : DevRef τ sig)) (W (main_v17 : DevRef τ sig)) (broadcastInDim S100000 ![] bcast_S_S100000 (id (W (main_cst_7 : DevRef τ sig)))) := by
  after_results_simp
  simp only [Cert.TypedRef.ofBuf_toBuf]
  rfl
theorem n4_choice' : after opsN4 W (no_index (main_v18 : DevRef τ sig)) = select (W (main_v14 : DevRef τ sig)) (W (main_v17 : DevRef τ sig)) (broadcastInDim S100000 ![] bcast_S_S100000 (id (W (main_cst_7 : DevRef τ sig)))) := n4_choice W

theorem a1_scale : after opsA1 W (main_v21 : DevRef τ sig) = Cert.Spec.scale (W (main_arg0 : DevRef τ sig)) (W (main_v12 : DevRef τ sig)) := by
  after_results_simp
  simp only [Cert.Spec.scale] <;> rfl
theorem a1_scale' : after opsA1 W (no_index (main_v21 : DevRef τ sig)) = Cert.Spec.scale (W (main_arg0 : DevRef τ sig)) (W (main_v12 : DevRef τ sig)) := a1_scale W

theorem a2_take : after opsA2 W (main_v22 : DevRef τ sig) = Cert.Spec.take (W (main_v21 : DevRef τ sig)) (W (main_arg1 : DevRef τ sig)) := by
  after_results_simp
  simp only [Cert.TypedRef.ofBuf_toBuf]
  rfl
theorem a2_take' : after opsA2 W (no_index (main_v22 : DevRef τ sig)) = Cert.Spec.take (W (main_v21 : DevRef τ sig)) (W (main_arg1 : DevRef τ sig)) := a2_take W

theorem a3_agg : after opsA3 W (main_v25 : DevRef τ sig) = Cert.Spec.agg (W (main_v22 : DevRef τ sig)) (W (main_arg2 : DevRef τ sig)) := by
  after_results_simp
  simp only [Cert.Spec.agg] <;> rfl
theorem a3_agg' : after opsA3 W (no_index (main_v25 : DevRef τ sig)) = Cert.Spec.agg (W (main_v22 : DevRef τ sig)) (W (main_arg2 : DevRef τ sig)) := a3_agg W

theorem a4_lin : after opsA4 W (main_v32 : DevRef τ sig) = Cert.Spec.lin128 (W (main_v25 : DevRef τ sig)) (W (main_v18 : DevRef τ sig)) (W (main_arg3 : DevRef τ sig)) (W (main_arg4 : DevRef τ sig)) := by
  after_results_simp
  simp only [Cert.Spec.lin128, Cert.Spec.scale] <;> rfl
theorem a4_lin' : after opsA4 W (no_index (main_v32 : DevRef τ sig)) = Cert.Spec.lin128 (W (main_v25 : DevRef τ sig)) (W (main_v18 : DevRef τ sig)) (W (main_arg3 : DevRef τ sig)) (W (main_arg4 : DevRef τ sig)) := a4_lin W

theorem a5_relu : after opsA5 W (main_v33 : DevRef τ sig) = Cert.Spec.relu (W (main_v32 : DevRef τ sig)) := by
  after_results_simp
  simp only [Cert.TypedRef.ofBuf_toBuf]
  rfl
theorem a5_relu' : after opsA5 W (no_index (main_v33 : DevRef τ sig)) = Cert.Spec.relu (W (main_v32 : DevRef τ sig)) := a5_relu W

theorem b1_scale : after opsB1 W (main_v36 : DevRef τ sig) = Cert.Spec.scale (W (main_v33 : DevRef τ sig)) (W (main_v12 : DevRef τ sig)) := by
  after_results_simp
  simp only [Cert.Spec.scale] <;> rfl
theorem b1_scale' : after opsB1 W (no_index (main_v36 : DevRef τ sig)) = Cert.Spec.scale (W (main_v33 : DevRef τ sig)) (W (main_v12 : DevRef τ sig)) := b1_scale W

theorem b2_take : after opsB2 W (main_v37 : DevRef τ sig) = Cert.Spec.take (W (main_v36 : DevRef τ sig)) (W (main_arg1 : DevRef τ sig)) := by
  after_results_simp
  simp only [Cert.TypedRef.ofBuf_toBuf]
  rfl
theorem b2_take' : after opsB2 W (no_index (main_v37 : DevRef τ sig)) = Cert.Spec.take (W (main_v36 : DevRef τ sig)) (W (main_arg1 : DevRef τ sig)) := b2_take W

theorem b3_agg : after opsB3 W (main_v40 : DevRef τ sig) = Cert.Spec.agg (W (main_v37 : DevRef τ sig)) (W (main_arg2 : DevRef τ sig)) := by
  after_results_simp
  simp only [Cert.Spec.agg] <;> rfl
theorem b3_agg' : after opsB3 W (no_index (main_v40 : DevRef τ sig)) = Cert.Spec.agg (W (main_v37 : DevRef τ sig)) (W (main_arg2 : DevRef τ sig)) := b3_agg W

theorem b4_lin : after opsB4 W (main_v47 : DevRef τ sig) = Cert.Spec.lin128 (W (main_v40 : DevRef τ sig)) (W (main_v18 : DevRef τ sig)) (W (main_arg5 : DevRef τ sig)) (W (main_arg6 : DevRef τ sig)) := by
  after_results_simp
  simp only [Cert.Spec.lin128, Cert.Spec.scale] <;> rfl
theorem b4_lin' : after opsB4 W (no_index (main_v47 : DevRef τ sig)) = Cert.Spec.lin128 (W (main_v40 : DevRef τ sig)) (W (main_v18 : DevRef τ sig)) (W (main_arg5 : DevRef τ sig)) (W (main_arg6 : DevRef τ sig)) := b4_lin W

theorem b5_relu : after opsB5 W (main_v48 : DevRef τ sig) = Cert.Spec.relu (W (main_v47 : DevRef τ sig)) := by
  after_results_simp
  simp only [Cert.TypedRef.ofBuf_toBuf]
  rfl
theorem b5_relu' : after opsB5 W (no_index (main_v48 : DevRef τ sig)) = Cert.Spec.relu (W (main_v47 : DevRef τ sig)) := b5_relu W

theorem c1_scale : after opsC1 W (main_v51 : DevRef τ sig) = Cert.Spec.scale (W (main_v48 : DevRef τ sig)) (W (main_v12 : DevRef τ sig)) := by
  after_results_simp
  simp only [Cert.Spec.scale] <;> rfl
theorem c1_scale' : after opsC1 W (no_index (main_v51 : DevRef τ sig)) = Cert.Spec.scale (W (main_v48 : DevRef τ sig)) (W (main_v12 : DevRef τ sig)) := c1_scale W

theorem c2_take : after opsC2 W (main_v52 : DevRef τ sig) = Cert.Spec.take (W (main_v51 : DevRef τ sig)) (W (main_arg1 : DevRef τ sig)) := by
  after_results_simp
  simp only [Cert.TypedRef.ofBuf_toBuf]
  rfl
theorem c2_take' : after opsC2 W (no_index (main_v52 : DevRef τ sig)) = Cert.Spec.take (W (main_v51 : DevRef τ sig)) (W (main_arg1 : DevRef τ sig)) := c2_take W

theorem c3_agg : after opsC3 W (main_v55 : DevRef τ sig) = Cert.Spec.agg (W (main_v52 : DevRef τ sig)) (W (main_arg2 : DevRef τ sig)) := by
  after_results_simp
  simp only [Cert.Spec.agg] <;> rfl
theorem c3_agg' : after opsC3 W (no_index (main_v55 : DevRef τ sig)) = Cert.Spec.agg (W (main_v52 : DevRef τ sig)) (W (main_arg2 : DevRef τ sig)) := c3_agg W

theorem c4_lin : after opsC4 W (main_v62 : DevRef τ sig) = Cert.Spec.lin64 (W (main_v55 : DevRef τ sig)) (W (main_v18 : DevRef τ sig)) (W (main_arg7 : DevRef τ sig)) (W (main_arg8 : DevRef τ sig)) := by
  after_results_simp
  simp only [Cert.Spec.lin64, Cert.Spec.scale] <;> rfl
theorem c4_lin' : after opsC4 W (no_index (main_v62 : DevRef τ sig)) = Cert.Spec.lin64 (W (main_v55 : DevRef τ sig)) (W (main_v18 : DevRef τ sig)) (W (main_arg7 : DevRef τ sig)) (W (main_arg8 : DevRef τ sig)) := c4_lin W

/-! ## The steps chained -/

/-- The source norm, from any contents. -/
theorem normSrc : after opsN W (main_v12 : DevRef τ sig) = Cert.Spec.norm (W (main_arg1 : DevRef τ sig)) := by
  rw [opsN_split]
  simp (disch := decide) only [after_app, kN4, kN3, n2_choice', n1_pos', n1_rsqrt', n1_fill', Cert.Spec.norm]
theorem normSrc' : after opsN W (no_index (main_v12 : DevRef τ sig)) = Cert.Spec.norm (W (main_arg1 : DevRef τ sig)) := normSrc W

/-- The destination norm, from any contents. -/
theorem normDst : after opsN W (main_v18 : DevRef τ sig) = Cert.Spec.norm (W (main_arg2 : DevRef τ sig)) := by
  rw [opsN_split]
  simp (disch := decide) only [after_app, n4_choice', n3_pos', n3_rsqrt', n3_fill', kN2, n1_degDst', Cert.Spec.norm]
theorem normDst' : after opsN W (no_index (main_v18 : DevRef τ sig)) = Cert.Spec.norm (W (main_arg2 : DevRef τ sig)) := normDst W

/-- Layer one from any contents: the stretch's sub-lists chained, the norms and arguments carried across them. -/
theorem layerA : after opsA W (main_v33 : DevRef τ sig) = Cert.Spec.relu (Cert.Spec.lin128 (Cert.Spec.agg (Cert.Spec.take (Cert.Spec.scale (W (main_arg0 : DevRef τ sig)) (W (main_v12 : DevRef τ sig))) (W (main_arg1 : DevRef τ sig))) (W (main_arg2 : DevRef τ sig))) (W (main_v18 : DevRef τ sig)) (W (main_arg3 : DevRef τ sig)) (W (main_arg4 : DevRef τ sig))) := by
  rw [opsA_split]
  simp (disch := decide) only [after_app, a5_relu', a4_lin', a3_agg', a2_take', a1_scale', kA1, kA2, kA3, kA4]
theorem layerA' : after opsA W (no_index (main_v33 : DevRef τ sig)) = Cert.Spec.relu (Cert.Spec.lin128 (Cert.Spec.agg (Cert.Spec.take (Cert.Spec.scale (W (main_arg0 : DevRef τ sig)) (W (main_v12 : DevRef τ sig))) (W (main_arg1 : DevRef τ sig))) (W (main_arg2 : DevRef τ sig))) (W (main_v18 : DevRef τ sig)) (W (main_arg3 : DevRef τ sig)) (W (main_arg4 : DevRef τ sig))) := layerA W

/-- Layer two from any contents: the stretch's sub-lists chained, the norms and arguments carried across them. -/
theorem layerB : after opsB W (main_v48 : DevRef τ sig) = Cert.Spec.relu (Cert.Spec.lin128 (Cert.Spec.agg (Cert.Spec.take (Cert.Spec.scale (W (main_v33 : DevRef τ sig)) (W (main_v12 : DevRef τ sig))) (W (main_arg1 : DevRef τ sig))) (W (main_arg2 : DevRef τ sig))) (W (main_v18 : DevRef τ sig)) (W (main_arg5 : DevRef τ sig)) (W (main_arg6 : DevRef τ sig))) := by
  rw [opsB_split]
  simp (disch := decide) only [after_app, b5_relu', b4_lin', b3_agg', b2_take', b1_scale', kB1, kB2, kB3, kB4]
theorem layerB' : after opsB W (no_index (main_v48 : DevRef τ sig)) = Cert.Spec.relu (Cert.Spec.lin128 (Cert.Spec.agg (Cert.Spec.take (Cert.Spec.scale (W (main_v33 : DevRef τ sig)) (W (main_v12 : DevRef τ sig))) (W (main_arg1 : DevRef τ sig))) (W (main_arg2 : DevRef τ sig))) (W (main_v18 : DevRef τ sig)) (W (main_arg5 : DevRef τ sig)) (W (main_arg6 : DevRef τ sig))) := layerB W

/-- Layer three from any contents: the stretch's sub-lists chained, the norms and arguments carried across them. -/
theorem layerC : after opsC W (main_v62 : DevRef τ sig) = Cert.Spec.lin64 (Cert.Spec.agg (Cert.Spec.take (Cert.Spec.scale (W (main_v48 : DevRef τ sig)) (W (main_v12 : DevRef τ sig))) (W (main_arg1 : DevRef τ sig))) (W (main_arg2 : DevRef τ sig))) (W (main_v18 : DevRef τ sig)) (W (main_arg7 : DevRef τ sig)) (W (main_arg8 : DevRef τ sig)) := by
  rw [opsC_split]
  simp (disch := decide) only [after_app, c4_lin', c3_agg', c2_take', c1_scale', kC1, kC2, kC3]
theorem layerC' : after opsC W (no_index (main_v62 : DevRef τ sig)) = Cert.Spec.lin64 (Cert.Spec.agg (Cert.Spec.take (Cert.Spec.scale (W (main_v48 : DevRef τ sig)) (W (main_v12 : DevRef τ sig))) (W (main_arg1 : DevRef τ sig))) (W (main_arg2 : DevRef τ sig))) (W (main_v18 : DevRef τ sig)) (W (main_arg7 : DevRef τ sig)) (W (main_arg8 : DevRef τ sig)) := layerC W

end Values

/-! ## The whole line -/

section Whole

variable (V : Valuation τ sig (Elt Ideal))

/-- The first layer's output. -/
theorem v33_eq : after ops V (main_v33 : DevRef τ sig) = Cert.Spec.out1 (V (main_arg0 : DevRef τ sig)) (V (main_arg1 : DevRef τ sig)) (V (main_arg2 : DevRef τ sig)) (V (main_arg3 : DevRef τ sig)) (V (main_arg4 : DevRef τ sig)) := by
  simp (disch := decide) only [ops, after_app, kC, kB, layerA', normSrc', normDst', kN, Cert.Spec.out1, Cert.Spec.gathered]

/-- The second layer's output. -/
theorem v48_eq : after ops V (main_v48 : DevRef τ sig) = Cert.Spec.out2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  simp (disch := decide) only [ops, after_app, kC, layerB', kA, layerA', normSrc', normDst', kN, Cert.Spec.out2, Cert.Spec.out1, Cert.Spec.gathered]

/-- The third layer's output. -/
theorem v62_eq : after ops V (main_v62 : DevRef τ sig) = Cert.Spec.out3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  simp (disch := decide) only [ops, after_app, layerC', kB, layerB', kA, layerA', normSrc', normDst', kN, Cert.Spec.out3, Cert.Spec.out2, Cert.Spec.out1, Cert.Spec.gathered]

theorem arg0_eq : after ops V (main_arg0 : DevRef τ sig) = (V (main_arg0 : DevRef τ sig)) := by
  simp (disch := decide) only [ops, after_app, kC, kB, kA, kN]
theorem arg1_eq : after ops V (main_arg1 : DevRef τ sig) = (V (main_arg1 : DevRef τ sig)) := by
  simp (disch := decide) only [ops, after_app, kC, kB, kA, kN]
theorem arg2_eq : after ops V (main_arg2 : DevRef τ sig) = (V (main_arg2 : DevRef τ sig)) := by
  simp (disch := decide) only [ops, after_app, kC, kB, kA, kN]
theorem arg3_eq : after ops V (main_arg3 : DevRef τ sig) = (V (main_arg3 : DevRef τ sig)) := by
  simp (disch := decide) only [ops, after_app, kC, kB, kA, kN]
theorem arg4_eq : after ops V (main_arg4 : DevRef τ sig) = (V (main_arg4 : DevRef τ sig)) := by
  simp (disch := decide) only [ops, after_app, kC, kB, kA, kN]
theorem arg5_eq : after ops V (main_arg5 : DevRef τ sig) = (V (main_arg5 : DevRef τ sig)) := by
  simp (disch := decide) only [ops, after_app, kC, kB, kA, kN]
theorem arg6_eq : after ops V (main_arg6 : DevRef τ sig) = (V (main_arg6 : DevRef τ sig)) := by
  simp (disch := decide) only [ops, after_app, kC, kB, kA, kN]
theorem arg7_eq : after ops V (main_arg7 : DevRef τ sig) = (V (main_arg7 : DevRef τ sig)) := by
  simp (disch := decide) only [ops, after_app, kC, kB, kA, kN]
theorem arg8_eq : after ops V (main_arg8 : DevRef τ sig) = (V (main_arg8 : DevRef τ sig)) := by
  simp (disch := decide) only [ops, after_app, kC, kB, kA, kN]

end Whole

/-- At the compiled mesh, at the ideal values, from any memory with zero counters: every weakly fair execution of the
    entry function terminates with the three layers' result buffers at the specification's three outputs of the
    arguments' launch contents, and the arguments unchanged. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = Cert.Spec.out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v48) = Cert.Spec.out2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v62) = Cert.Spec.out3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c => ⟨(h c main_v33).trans (v33_eq _), (h c main_v48).trans (v48_eq _), (h c main_v62).trans (v62_eq _),
      (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _), (h c main_arg7).trans (arg7_eq _), (h c main_arg8).trans (arg8_eq _)⟩)
    (run_main m ρ)

end Cert.ReferenceIdeal.HandRun

end
-- ==== Proof.lean ====
/-
  Three stacked graph-convolution layers: the device program and its whole-array reference compute the same arrays.

  Both programs take node features, two edge lists and three weight/bias pairs.  Both first count the edges per source
  and per destination node and turn each count d into the degree norm — rsqrt (max d 1) where d is positive, zero
  elsewhere.  One layer scales every feature row by its node's source norm, takes one row per edge by the edge's source
  number, adds the taken rows into the row of the edge's destination number, scales every row by its node's
  destination norm, multiplies by the weights and adds the bias; the first two layers end with the positive part.
  The reference does every step as a whole-array operation.  The device program does the row scaling and the
  (scaled rows)·weights + bias (+ positive part) in regions that work through the rows in fifty blocks of two thousand,
  the product with both operands cast to a shorter float format first, and leaves the per-edge take and the
  per-destination sum to the same whole-array operations the reference uses.

  At the ideal values a cast is the identity and the tile product into a zero accumulator is the plain sum of
  products, so each region's output array is, entry by entry, what the reference's whole-array operations give:
  a block covers its rows and nothing else, the blocks tile the array, and an entry depends only on its own row.
  No algebraic law beyond that is needed — the two programs apply the same operations in the same order — so the
  finiteness of the inputs is never used.  The three results (and the features, returned unchanged) are therefore
  the specification's functions out1, out2, out3 of the arguments on both sides, and the arguments agree.
-/
import proofs.«173594_j60610578482005_1_alg».proof.Defs
import proofs.«173594_j60610578482005_1_alg».proof.Proof.Gen.Kernel
import proofs.«173594_j60610578482005_1_alg».proof.Proof.Gen.Kernel.Frame
import proofs.«173594_j60610578482005_1_alg».proof.Proof.Gen.KernelIdeal
import proofs.«173594_j60610578482005_1_alg».proof.Proof.Gen.KernelIdeal.Frame
import proofs.«173594_j60610578482005_1_alg».proof.Proof.Gen.ReferenceIdeal
import proofs.«173594_j60610578482005_1_alg».proof.Proof.Gen.Pre_finite_inputs
import proofs.«173594_j60610578482005_1_alg».proof.Proof.Spec
import proofs.«173594_j60610578482005_1_alg».proof.Proof.KernelRun
import proofs.«173594_j60610578482005_1_alg».proof.Proof.KernelValue
import proofs.«173594_j60610578482005_1_alg».proof.Proof.RefValue

noncomputable section

open Idealize.ShloMosaic Idealize.ShloMosaic.TcCoe Idealize.SL.Sem

namespace Cert.Proof

/-- The device program as printed runs to the end without a fault and leaves its arguments alone. -/
theorem frame_k : Cert.frame_Kernel := fun m ρ _ => Cert.Kernel.Gen.frame m ρ

/-- So does the device program read at the ideal values. -/
theorem frame_ki : Cert.frame_KernelIdeal := fun m ρ _ => Cert.KernelIdeal.Gen.frame m ρ

/-- The reference's frame: its run with the three results dropped. -/
theorem frame_ri : Cert.frame_ReferenceIdeal := fun m ρ _ =>
  (θ_run Cert.ReferenceIdeal.defs _ _).mono (fun _ h c => (h c).2.2.2) (Cert.ReferenceIdeal.HandRun.run_values m ρ)

/-- The idealization rewrote no operation of the device program. -/
theorem preserves : Cert.preserves_Kernel_KernelIdeal := trivial

/-- Both programs end with the three layers' outputs of the arguments — the specification's out1, out2, out3 — and
    with the features unchanged; the arguments agree, so the results are equal. -/
theorem algebraic : Cert.algebraic_KernelIdeal_ReferenceIdeal := by
  intro m ρ m' ρ' _ hagree
  refine ⟨fun c => (m ((c.tc : Thread Cert.KernelIdeal.nD Cert.KernelIdeal.τ).loc Cert.KernelIdeal.main_arg0)),
    fun c => Cert.Spec.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Spec.out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.out3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · -- the device program: every buffer that outlives a region ends at the last segment boundary's contents
    refine (θ_run Cert.KernelIdeal.defs _ _).mono (fun r h c => ?_) (Cert.KernelIdeal.HandRun.run_values (F := Ideal) m ρ)
    have a0 := (h c Cert.KernelIdeal.main_arg0 (by decide)).trans (Cert.KernelIdeal.Gen.W17_main_arg0 m ρ c)
    have a1 := (h c Cert.KernelIdeal.main_arg1 (by decide)).trans (Cert.KernelIdeal.Gen.W17_main_arg1 m ρ c)
    have a2 := (h c Cert.KernelIdeal.main_arg2 (by decide)).trans (Cert.KernelIdeal.Gen.W17_main_arg2 m ρ c)
    have a3 := (h c Cert.KernelIdeal.main_arg3 (by decide)).trans (Cert.KernelIdeal.Gen.W17_main_arg3 m ρ c)
    have a4 := (h c Cert.KernelIdeal.main_arg4 (by decide)).trans (Cert.KernelIdeal.Gen.W17_main_arg4 m ρ c)
    have a5 := (h c Cert.KernelIdeal.main_arg5 (by decide)).trans (Cert.KernelIdeal.Gen.W17_main_arg5 m ρ c)
    have a6 := (h c Cert.KernelIdeal.main_arg6 (by decide)).trans (Cert.KernelIdeal.Gen.W17_main_arg6 m ρ c)
    have a7 := (h c Cert.KernelIdeal.main_arg7 (by decide)).trans (Cert.KernelIdeal.Gen.W17_main_arg7 m ρ c)
    have a8 := (h c Cert.KernelIdeal.main_arg8 (by decide)).trans (Cert.KernelIdeal.Gen.W17_main_arg8 m ρ c)
    exact ⟨a0,
      (h c Cert.KernelIdeal.main_v27 (by decide)).trans (Cert.KernelIdeal.Value.res1 m ρ c),
      (h c Cert.KernelIdeal.main_v34 (by decide)).trans (Cert.KernelIdeal.Value.res2 m ρ c),
      (h c Cert.KernelIdeal.main_v41 (by decide)).trans (Cert.KernelIdeal.Value.res3 m ρ c),
      a0, a1, a2, a3, a4, a5, a6, a7, a8⟩
  · -- the reference: its run, its arguments rewritten to the device program's
    refine (θ_run Cert.ReferenceIdeal.defs _ _).mono (fun r h c => ?_) (Cert.ReferenceIdeal.HandRun.run_values m' ρ')
    obtain ⟨h1, h2, h3, a0, a1, a2, a3, a4, a5, a6, a7, a8⟩ := h c
    obtain ⟨e0, e1, e2, e3, e4, e5, e6, e7, e8⟩ := hagree c
    refine ⟨a0.trans e0, h1.trans ?_, h2.trans ?_, h3.trans ?_, a0, a1, a2, a3, a4, a5, a6, a7, a8⟩
    · rw [e0, e1, e2, e3, e4]
    · rw [e0, e1, e2, e3, e4, e5, e6]
    · rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
